-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S512x3000 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S3000x784 : Shape := ⟨2, ![3000, 784]⟩
abbrev S3000 : Shape := ⟨1, ![3000]⟩
abbrev S10x3000 : Shape := ⟨2, ![10, 3000]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S3000x784 : S_.BroadcastsInDim S3000x784 (![] : Fin 0 → Fin S3000x784.rank)
  reducesTo_S3000x784_S_d0_1 : S3000x784.ReducesTo [0, 1] S_
  bcast_S_S3000 : S_.BroadcastsInDim S3000 (![] : Fin 0 → Fin S3000.rank)
  reducesTo_S3000_S_d0 : S3000.ReducesTo [0] S_
  bcast_S_S10x3000 : S_.BroadcastsInDim S10x3000 (![] : Fin 0 → Fin S10x3000.rank)
  reducesTo_S10x3000_S_d0_1 : S10x3000.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_arg8 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S3000 .f32) (main_arg5 : FVec F S10x3000 .f32) (main_arg6 : FVec F S10 .f32) (main_arg7 : FVec F S10 .f32) (main_arg8 : FVec F S10 .f32) (main_v13 : IVec S_ 1) (main_v16 : IVec S3000 1) : IVec S_ 1 :=
  let main_c_5 : IVec S_ 1 := constantI S_ 1 1#1
  let main_v17 : IVec S_ 1 := (fun x v => Host.reduce IntOp.andi x v reducesTo_S3000_S_d0 h_S_) main_v16 main_c_5
  let main_v18 : IVec S_ 1 := andi main_v13 main_v17
  let main_v19 : FVec F S3000 .f32 := Host.absf main_arg4
  let main_cst_6 : FVec F S_ .f32 := constant S_ .f32 0x7F800000#32
  let main_v20 : FVec F S3000 .f32 := broadcastInDim S3000 ![] bcast_S_S3000 main_cst_6
  let main_v21 : IVec S3000 1 := cmpf .olt main_v19 main_v20
  let main_c_7 : IVec S_ 1 := constantI S_ 1 1#1
  let main_v22 : IVec S_ 1 := (fun x v => Host.reduce IntOp.andi x v reducesTo_S3000_S_d0 h_S_) main_v21 main_c_7
  let main_v23 : IVec S_ 1 := andi main_v18 main_v22
  let main_v24 : FVec F S10x3000 .f32 := Host.absf main_arg5
  let main_cst_8 : FVec F S_ .f32 := constant S_ .f32 0x7F800000#32
  let main_v25 : FVec F S10x3000 .f32 := broadcastInDim S10x3000 ![] bcast_S_S10x3000 main_cst_8
  let main_v26 : IVec S10x3000 1 := cmpf .olt main_v24 main_v25
  let main_c_9 : IVec S_ 1 := constantI S_ 1 1#1
  let main_v27 : IVec S_ 1 := (fun x v => Host.reduce IntOp.andi x v reducesTo_S10x3000_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_v33

def fn {F : FTy → Type} [FloatOps F] (main_arg0 : FVec F S32768x784 .f32) (main_arg1 : FVec F S3000x784 .f32) (main_arg2 : FVec F S3000 .f32) (main_arg3 : FVec F S3000 .f32) (main_arg4 : FVec F S3000 .f32) (main_arg5 : FVec F S10x3000 .f32) (main_arg6 : FVec F S10 .f32) (main_arg7 : FVec F S10 .f32) (main_arg8 : FVec F S10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S3000x784 .f32 := Host.absf main_arg1
  let main_cst_0 : FVec F S_ .f32 := constant S_ .f32 0x7F800000#32
  let main_v5 : FVec F S3000x784 .f32 := broadcastInDim S3000x784 ![] bcast_S_S3000x784 main_cst_0
  let main_v6 : IVec S3000x784 1 := cmpf .olt main_v4 main_v5
  let main_c_1 : IVec S_ 1 := constantI S_ 1 1#1
  let main_v7 : IVec S_ 1 := (fun x v => Host.reduce IntOp.andi x v reducesTo_S3000x784_S_d0_1 h_S_) main_v6 main_c_1
  let main_v8 : IVec S_ 1 := andi main_v3 main_v7
  let main_v9 : FVec F S3000 .f32 := Host.absf main_arg2
  let main_cst_2 : FVec F S_ .f32 := constant S_ .f32 0x7F800000#32
  let main_v10 : FVec F S3000 .f32 := broadcastInDim S3000 ![] bcast_S_S3000 main_cst_2
  let main_v11 : IVec S3000 1 := cmpf .olt main_v9 main_v10
  let main_c_3 : IVec S_ 1 := constantI S_ 1 1#1
  let main_v12 : IVec S_ 1 := (fun x v => Host.reduce IntOp.andi x v reducesTo_S3000_S_d0 h_S_) main_v11 main_c_3
  let main_v13 : IVec S_ 1 := andi main_v8 main_v12
  let main_v14 : FVec F S3000 .f32 := Host.absf main_arg3
  let main_cst_4 : FVec F S_ .f32 := constant S_ .f32 0x7F800000#32
  let main_v15 : FVec F S3000 .f32 := broadcastInDim S3000 ![] bcast_S_S3000 main_cst_4
  let main_v16 : IVec S3000 1 := cmpf .olt main_v14 main_v15
  fn_part1 (F := F) main_arg4 main_arg5 main_arg6 main_arg7 main_arg8 main_v13 main_v16
-- ==== Kernel.lean ====
abbrev S32768x784 : Shape := ⟨2, ![32768, 784]⟩
abbrev S3000x784 : Shape := ⟨2, ![3000, 784]⟩
abbrev S3000 : Shape := ⟨1, ![3000]⟩
abbrev S10x3000 : Shape := ⟨2, ![10, 3000]⟩
abbrev S10 : Shape := ⟨1, ![10]⟩
abbrev S784x3000 : Shape := ⟨2, ![784, 3000]⟩
abbrev S3000x10 : Shape := ⟨2, ![3000, 10]⟩
abbrev S1x3000 : Shape := ⟨2, ![1, 3000]⟩
abbrev S1x10 : Shape := ⟨2, ![1, 10]⟩
abbrev S512x784 : Shape := ⟨2, ![512, 784]⟩
abbrev S512x3000 : Shape := ⟨2, ![512, 3000]⟩
abbrev S32768x10 : Shape := ⟨2, ![32768, 10]⟩
abbrev S512x10 : Shape := ⟨2, ![512, 10]⟩

abbrev nBuf : Space → Nat
  | .hbm => 27
  | .vmem => 32
  | .smem => 0
  | _ => 0

abbrev bufTy : (tb : Table) → Fin (tcTables nBuf tb) → BufTy
  | .hbm, ⟨0, _⟩ => ⟨S32768x784, .f32⟩
  | .hbm, ⟨1, _⟩ => ⟨S3000x784, .f32⟩
  | .hbm, ⟨2, _⟩ => ⟨S3000, .f32⟩
  | .hbm, ⟨3, _⟩ => ⟨S3000, .f32⟩
  | .hbm, ⟨4, _⟩ => ⟨S3000, .f32⟩
  | .hbm, ⟨5, _⟩ => ⟨S10x3000, .f32⟩
  | .hbm, ⟨6, _⟩ => ⟨S10, .f32⟩
  | .hbm, ⟨7, _⟩ => ⟨S10, .f32⟩
  | .hbm, ⟨8, _⟩ => ⟨S10, .f32⟩
  | .hbm, ⟨9, _⟩ => ⟨S3000x784, .f32⟩
  | .hbm, ⟨10, _⟩ => ⟨S784x3000, .f32⟩
  | .hbm, ⟨11, _⟩ => ⟨S784x3000, .bf16⟩
  | .hbm, ⟨12, _⟩ => ⟨S10x3000, .f32⟩
  | .hbm, ⟨13, _⟩ => ⟨S3000x10, .f32⟩
  | .hbm, ⟨14, _⟩ => ⟨S3000x10, .bf16⟩
  | .hbm, ⟨15, _⟩ => ⟨S1x3000, .f32⟩
  | .hbm, ⟨16, _⟩ => ⟨S1x3000, .f32⟩
  | .hbm, ⟨17, _⟩ => ⟨S1x3000, .f32⟩
  | .hbm, ⟨18, _⟩ => ⟨S1x10, .f32⟩
  | .hbm, ⟨19, _⟩ => ⟨S1x10, .f32⟩
  | .hbm, ⟨20, _⟩ => ⟨S1x10, .f32⟩
  | .hbm, ⟨21, _⟩ => ⟨S1x3000, .f32⟩
  | .hbm, ⟨22, _⟩ => ⟨S1x3000, .f32⟩
  | .hbm, ⟨23, _⟩ => ⟨S32768x10, .f32⟩
  | .hbm, ⟨24, _⟩ => ⟨S1x10, .f32⟩
  | .hbm, ⟨25, _⟩ => ⟨S1x10, .f32⟩
  | .hbm, ⟨26, _⟩ => ⟨S32768x10, .f32⟩
  | .local _ .vmem, ⟨0, _⟩ => ⟨S512x784, .f32⟩
  | .local _ .vmem, ⟨1, _⟩ => ⟨S512x784, .f32⟩
  | .local _ .vmem, ⟨2, _⟩ => ⟨S784x3000, .bf16⟩
  | .local _ .vmem, ⟨3, _⟩ => ⟨S1x3000, .f32⟩
  | .local _ .vmem, ⟨4, _⟩ => ⟨S1x3000, .f32⟩
  | .local _ .vmem, ⟨5, _⟩ => ⟨S1x3000, .f32⟩
  | .local _ .vmem, ⟨6, _⟩ => ⟨S1x3000, .f32⟩
  | .local _ .vmem, ⟨7, _⟩ => ⟨S1x3000, .f32⟩
  | .local _ .vmem, ⟨8, _⟩ => ⟨S512x784, .f32⟩
  | .local _ .vmem, ⟨9, _⟩ => ⟨S512x784, .f32⟩
  | .local _ .vmem, ⟨10, _⟩ => ⟨S784x3000, .bf16⟩
  | .local _ .vmem, ⟨11, _⟩ => ⟨S1x3000, .f32⟩
  | .local _ .vmem, ⟨12, _⟩ => ⟨S1x3000, .f32⟩
  | .local _ .vmem, ⟨13, _⟩ => ⟨S1x3000, .f32⟩
  | .local _ .vmem, ⟨14, _⟩ => ⟨S1x3000, .f32⟩
  | .local _ .vmem, ⟨15, _⟩ => ⟨S1x3000, .f32⟩
  | .local _ .vmem, ⟨16, _⟩ => ⟨S3000x10, .bf16⟩
  | .local _ .vmem, ⟨17, _⟩ => ⟨S1x10, .f32⟩
  | .local _ .vmem, ⟨18, _⟩ => ⟨S512x10, .f32⟩
  | .local _ .vmem, ⟨19, _⟩ => ⟨S512x10, .f32⟩
  | .local _ .vmem, ⟨20, _⟩ => ⟨S1x10, .f32⟩
  | .local _ .vmem, ⟨21, _⟩ => ⟨S1x10, .f32⟩
  | .local _ .vmem, ⟨22, _⟩ => ⟨S1x10, .f32⟩
  | .local _ .vmem, ⟨23, _⟩ => ⟨S1x10, .f32⟩
  | .local _ .vmem, ⟨24, _⟩ => ⟨S512x10, .f32⟩
  | .local _ .vmem, ⟨25, _⟩ => ⟨S512x10, .f32⟩
  | .local _ .vmem, ⟨26, _⟩ => ⟨S1x10, .f32⟩
  | .local _ .vmem, ⟨27, _⟩ => ⟨S1x10, .f32⟩
  | .local _ .vmem, ⟨28, _⟩ => ⟨S1x10, .f32⟩
  | .local _ .vmem, ⟨29, _⟩ => ⟨S1x10, .f32⟩
  | .local _ .vmem, ⟨30, _⟩ => ⟨S512x10, .f32⟩
  | .local _ .vmem, ⟨31, _⟩ => ⟨S512x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg11_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem11_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v27 : BitVec 1 := Scalar.cmpi .eq arg0 c63_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x3000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v69 : BitVec 1 := Scalar.cmpi .eq arg0 c63_i32
  let v70 : BitVec 32 := Scalar.extui v69
  let c0_i32_35 : BitVec 32 := 0#32
  let v71 : BitVec 1 := Scalar.cmpi .ne v70 c0_i32_35
  v71

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S784x3000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3000x10 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x10 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S3000x784_S784x3000_1_0 : S3000x784.Transposes [1, 0] S784x3000
  bitsLt_bf16_f32 : FTy.bits .bf16 < FTy.bits .f32
  transposes_S10x3000_S3000x10_1_0 : S10x3000.Transposes [1, 0] S3000x10
  shapeCasts_S3000_S1x3000 : S3000.ShapeCasts S1x3000
  shapeCasts_S10_S1x10 : S10.ShapeCasts S1x10
  inb_S1x3000_S1x3000_0_0 : ∀ a, (![0, 0] : Fin 2 → Nat) a + S1x3000.size a ≤ S1x3000.size a
  h_S1x3000 : 0 < S1x3000.numel
  shapeCasts_S1x3000_S1x3000 : S1x3000.ShapeCasts S1x3000
  inb_S512x784_S512x784_0_0 : ∀ a, (![0, 0] : Fin 2 → Nat) a + S512x784.size a ≤ S512x784.size a
  h_S512x784 : 0 < S512x784.numel
  inb_S784x3000_S784x3000_0_0 : ∀ a, (![0, 0] : Fin 2 → Nat) a + S784x3000.size a ≤ S784x3000.size a
  h_S784x3000 : 0 < S784x3000.numel
  shapeCasts_S784x3000_S784x3000 : S784x3000.ShapeCasts S784x3000
  broadcasts_S1x3000_S512x3000 : S1x3000.Broadcasts S512x3000
  reduces_S512x3000_S3000 : S512x3000.Reduces [0] S3000
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S3000x10_S3000x10_0_0 : ∀ a, (![0, 0] : Fin 2 → Nat) a + S3000x10.size a ≤ S3000x10.size a
  h_S3000x10 : 0 < S3000x10.numel
  shapeCasts_S3000x10_S3000x10 : S3000x10.ShapeCasts S3000x10
  broadcasts_S1x10_S512x10 : S1x10.Broadcasts S512x10
  inb_S512x10_S512x10_0_0 : ∀ a, (![0, 0] : Fin 2 → Nat) a + S512x10.size a ≤ S512x10.size a
  h_S512x10 : 0 < S512x10.numel
  reduces_S512x10_S10 : S512x10.Reduces [0] S10
  shapeCasts_S512x10_S512x10 : S512x10.ShapeCasts S512x10
  dot_S512x784_S784x3000_S512x3000_1_0_0_1_n_n_wf : DotDims.WF S512x784 S784x3000 S512x3000 [1] [0] [0] [1] [] []
  dot_S512x3000_S3000x10_S512x10_1_0_0_1_n_n_wf : DotDims.WF S512x3000 S3000x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x3000.size a ≤ S784x3000.size a
  hwx0_1 : ∀ i : grid0.Coords, EltTy.bits .bf16 = 32 ∨ (Rect.block (s := S784x3000) S784x3000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3000.size a ≤ S1x3000.size a
  hwx0_2 : ∀ i : grid0.Coords, EltTy.bits .f32 = 32 ∨ (Rect.block (s := S1x3000) S1x3000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3000.size a ≤ S1x3000.size a
  hwx0_3 : ∀ i : grid0.Coords, EltTy.bits .f32 = 32 ∨ (Rect.block (s := S1x3000) S1x3000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3000.size a ≤ S1x3000.size a
  hwx0_4 : ∀ i : grid0.Coords, EltTy.bits .f32 = 32 ∨ (Rect.block (s := S1x3000) S1x3000.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x784.size a ≤ S32768x784.size a
  hwx1_0 : ∀ i : grid1.Coords, EltTy.bits .f32 = 32 ∨ (Rect.block (s := S32768x784) S512x784.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S784x3000.size a ≤ S784x3000.size a
  hwx1_1 : ∀ i : grid1.Coords, EltTy.bits .bf16 = 32 ∨ (Rect.block (s := S784x3000) S784x3000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3000.size a ≤ S1x3000.size a
  hwx1_2 : ∀ i : grid1.Coords, EltTy.bits .f32 = 32 ∨ (Rect.block (s := S1x3000) S1x3000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3000.size a ≤ S1x3000.size a
  hwx1_3 : ∀ i : grid1.Coords, EltTy.bits .f32 = 32 ∨ (Rect.block (s := S1x3000) S1x3000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3000.size a ≤ S1x3000.size a
  hwx1_4 : ∀ i : grid1.Coords, EltTy.bits .f32 = 32 ∨ (Rect.block (s := S1x3000) S1x3000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3000.size a ≤ S1x3000.size a
  hwx1_5 : ∀ i : grid1.Coords, EltTy.bits .f32 = 32 ∨ (Rect.block (s := S1x3000) S1x3000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3000.size a ≤ S1x3000.size a
  hwx1_6 : ∀ i : grid1.Coords, EltTy.bits .f32 = 32 ∨ (Rect.block (s := S1x3000) S1x3000.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3000x10.size a ≤ S3000x10.size a
  hwx1_7 : ∀ i : grid1.Coords, EltTy.bits .bf16 = 32 ∨ (Rect.block (s := S3000x10) S3000x10.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x10.size a ≤ S32768x10.size a
  hwx1_9 : ∀ i : grid1.Coords, EltTy.bits .f32 = 32 ∨ (Rect.block (s := S32768x10) S512x10.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x10.size a ≤ S1x10.size a
  hwx1_11 : ∀ i : grid1.Coords, EltTy.bits .f32 = 32 ∨ (Rect.block (s := S1x10) S1x10.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x10.size a ≤ S32768x10.size a
  hwx2_0 : ∀ i : grid2.Coords, EltTy.bits .f32 = 32 ∨ (Rect.block (s := S32768x10) S512x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x10.size a ≤ S32768x10.size a
  hwx2_5 : ∀ i : grid2.Coords, EltTy.bits .f32 = 32 ∨ (Rect.block (s := S32768x10) S512x10.size (cc2_transform_5 i) (hinb2_5 i)).WholeWords (EltTy.packing .f32)

variable [Facts₀]

def dot_S512x784_S784x3000_S512x3000_1_0_0_1_n_n : DotDims S512x784 S784x3000 S512x3000 where
  lhsContracting := [1]
  rhsContracting := [0]
  lhsNonContracting := [0]
  rhsNonContracting := [1]
  lhsBatch := []
  rhsBatch := []
  wf := dot_S512x784_S784x3000_S512x3000_1_0_0_1_n_n_wf
def dot_S512x3000_S3000x10_S512x10_1_0_0_1_n_n : DotDims S512x3000 S3000x10 S512x10 where
  lhsContracting := [1]
  rhsContracting := [0]
  lhsNonContracting := [0]
  rhsNonContracting := [1]
  lhsBatch := []
  rhsBatch := []
  wf := dot_S512x3000_S3000x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x3000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1x3000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1x3000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S784x3000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x3000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S1x3000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1x3000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x3000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x3000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S3000x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13_0) S512x10.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v13_1) S1x10.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13_2) S1x10.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v13_0) S512x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_1) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_2) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S512x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32768x784 : Shape := ⟨2, ![32768, 784]⟩
abbrev S3000x784 : Shape := ⟨2, ![3000, 784]⟩
abbrev S3000 : Shape := ⟨1, ![3000]⟩
abbrev S10x3000 : Shape := ⟨2, ![10, 3000]⟩
abbrev S10 : Shape := ⟨1, ![10]⟩
abbrev S784x3000 : Shape := ⟨2, ![784, 3000]⟩
abbrev S32768x3000 : Shape := ⟨2, ![32768, 3000]⟩
abbrev S1x3000 : Shape := ⟨2, ![1, 3000]⟩
abbrev S_ : Shape := ⟨0, ![]⟩
abbrev S3000x10 : Shape := ⟨2, ![3000, 10]⟩
abbrev S32768x10 : Shape := ⟨2, ![32768, 10]⟩
abbrev S1x10 : Shape := ⟨2, ![1, 10]⟩

abbrev nBuf : Space → Nat
  | .hbm => 124
  | .vmem => 0
  | .smem => 0
  | _ => 0

abbrev bufTy : (tb : Table) → Fin (tcTables nBuf tb) → BufTy
  | .hbm, ⟨0, _⟩ => ⟨S32768x784, .f32⟩
  | .hbm, ⟨1, _⟩ => ⟨S3000x784, .f32⟩
  | .hbm, ⟨2, _⟩ => ⟨S3000, .f32⟩
  | .hbm, ⟨3, _⟩ => ⟨S3000, .f32⟩
  | .hbm, ⟨4, _⟩ => ⟨S3000, .f32⟩
  | .hbm, ⟨5, _⟩ => ⟨S10x3000, .f32⟩
  | .hbm, ⟨6, _⟩ => ⟨S10, .f32⟩
  | .hbm, ⟨7, _⟩ => ⟨S10, .f32⟩
  | .hbm, ⟨8, _⟩ => ⟨S10, .f32⟩
  | .hbm, ⟨9, _⟩ => ⟨S3000x784, .f32⟩
  | .hbm, ⟨10, _⟩ => ⟨S3000x784, .f32⟩
  | .hbm, ⟨11, _⟩ => ⟨S3000x784, .f32⟩
  | .hbm, ⟨12, _⟩ => ⟨S784x3000, .f32⟩
  | .hbm, ⟨13, _⟩ => ⟨S32768x3000, .f32⟩
  | .hbm, ⟨14, _⟩ => ⟨S1x3000, .f32⟩
  | .hbm, ⟨15, _⟩ => ⟨S32768x3000, .f32⟩
  | .hbm, ⟨16, _⟩ => ⟨S32768x3000, .f32⟩
  | .hbm, ⟨17, _⟩ => ⟨S_, .f32⟩
  | .hbm, ⟨18, _⟩ => ⟨S3000, .f32⟩
  | .hbm, ⟨19, _⟩ => ⟨S_, .f32⟩
  | .hbm, ⟨20, _⟩ => ⟨S3000, .f32⟩
  | .hbm, ⟨21, _⟩ => ⟨S3000, .f32⟩
  | .hbm, ⟨22, _⟩ => ⟨S_, .i32⟩
  | .hbm, ⟨23, _⟩ => ⟨S_, .f32⟩
  | .hbm, ⟨24, _⟩ => ⟨S3000, .f32⟩
  | .hbm, ⟨25, _⟩ => ⟨S1x3000, .f32⟩
  | .hbm, ⟨26, _⟩ => ⟨S_, .f32⟩
  | .hbm, ⟨27, _⟩ => ⟨S1x3000, .f32⟩
  | .hbm, ⟨28, _⟩ => ⟨S1x3000, .f32⟩
  | .hbm, ⟨29, _⟩ => ⟨S32768x3000, .f32⟩
  | .hbm, ⟨30, _⟩ => ⟨S32768x3000, .f32⟩
  | .hbm, ⟨31, _⟩ => ⟨S32768x3000, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S3000, .f32⟩
  | .hbm, ⟨37, _⟩ => ⟨S3000, .f32⟩
  | .hbm, ⟨38, _⟩ => ⟨S3000, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S3000, .f32⟩
  | .hbm, ⟨44, _⟩ => ⟨S3000, .f32⟩
  | .hbm, ⟨45, _⟩ => ⟨S1x3000, .f32⟩
  | .hbm, ⟨46, _⟩ => ⟨S32768x3000, .f32⟩
  | .hbm, ⟨47, _⟩ => ⟨S32768x3000, .f32⟩
  | .hbm, ⟨48, _⟩ => ⟨S1x3000, .f32⟩
  | .hbm, ⟨49, _⟩ => ⟨S32768x3000, .f32⟩
  | .hbm, ⟨50, _⟩ => ⟨S32768x3000, .f32⟩
  | .hbm, ⟨51, _⟩ => ⟨S_, .f32⟩
  | .hbm, ⟨52, _⟩ => ⟨S3000, .f32⟩
  | .hbm, ⟨53, _⟩ => ⟨S3000, .f32⟩
  | .hbm, ⟨54, _⟩ => ⟨S3000, .f32⟩
  | .hbm, ⟨55, _⟩ => ⟨S1x3000, .f32⟩
  | .hbm, ⟨56, _⟩ => ⟨S32768x3000, .f32⟩
  | .hbm, ⟨57, _⟩ => ⟨S32768x3000, .f32⟩
  | .hbm, ⟨58, _⟩ => ⟨S1x3000, .f32⟩
  | .hbm, ⟨59, _⟩ => ⟨S32768x3000, .f32⟩
  | .hbm, ⟨60, _⟩ => ⟨S32768x3000, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32768x3000, .f32⟩
  | .hbm, ⟨65, _⟩ => ⟨S32768x3000, .f32⟩
  | .hbm, ⟨66, _⟩ => ⟨S_, .f32⟩
  | .hbm, ⟨67, _⟩ => ⟨S32768x3000, .f32⟩
  | .hbm, ⟨68, _⟩ => ⟨S32768x3000, .f32⟩
  | .hbm, ⟨69, _⟩ => ⟨S32768x3000, .f32⟩
  | .hbm, ⟨70, _⟩ => ⟨S32768x3000, .f32⟩
  | .hbm, ⟨71, _⟩ => ⟨S32768x3000, .f32⟩
  | .hbm, ⟨72, _⟩ => ⟨S10x3000, .f32⟩
  | .hbm, ⟨73, _⟩ => ⟨S10x3000, .f32⟩
  | .hbm, ⟨74, _⟩ => ⟨S10x3000, .f32⟩
  | .hbm, ⟨75, _⟩ => ⟨S3000x10, .f32⟩
  | .hbm, ⟨76, _⟩ => ⟨S32768x10, .f32⟩
  | .hbm, ⟨77, _⟩ => ⟨S1x10, .f32⟩
  | .hbm, ⟨78, _⟩ => ⟨S32768x10, .f32⟩
  | .hbm, ⟨79, _⟩ => ⟨S32768x10, .f32⟩
  | .hbm, ⟨80, _⟩ => ⟨S_, .f32⟩
  | .hbm, ⟨81, _⟩ => ⟨S10, .f32⟩
  | .hbm, ⟨82, _⟩ => ⟨S_, .f32⟩
  | .hbm, ⟨83, _⟩ => ⟨S10, .f32⟩
  | .hbm, ⟨84, _⟩ => ⟨S10, .f32⟩
  | .hbm, ⟨85, _⟩ => ⟨S_, .i32⟩
  | .hbm, ⟨86, _⟩ => ⟨S_, .f32⟩
  | .hbm, ⟨87, _⟩ => ⟨S10, .f32⟩
  | .hbm, ⟨88, _⟩ => ⟨S1x10, .f32⟩
  | .hbm, ⟨89, _⟩ => ⟨S_, .f32⟩
  | .hbm, ⟨90, _⟩ => ⟨S1x10, .f32⟩
  | .hbm, ⟨91, _⟩ => ⟨S1x10, .f32⟩
  | .hbm, ⟨92, _⟩ => ⟨S32768x10, .f32⟩
  | .hbm, ⟨93, _⟩ => ⟨S32768x10, .f32⟩
  | .hbm, ⟨94, _⟩ => ⟨S32768x10, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S10, .f32⟩
  | .hbm, ⟨100, _⟩ => ⟨S10, .f32⟩
  | .hbm, ⟨101, _⟩ => ⟨S10, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S10, .f32⟩
  | .hbm, ⟨107, _⟩ => ⟨S10, .f32⟩
  | .hbm, ⟨108, _⟩ => ⟨S1x10, .f32⟩
  | .hbm, ⟨109, _⟩ => ⟨S32768x10, .f32⟩
  | .hbm, ⟨110, _⟩ => ⟨S32768x10, .f32⟩
  | .hbm, ⟨111, _⟩ => ⟨S1x10, .f32⟩
  | .hbm, ⟨112, _⟩ => ⟨S32768x10, .f32⟩
  | .hbm, ⟨113, _⟩ => ⟨S32768x10, .f32⟩
  | .hbm, ⟨114, _⟩ => ⟨S_, .f32⟩
  | .hbm, ⟨115, _⟩ => ⟨S10, .f32⟩
  | .hbm, ⟨116, _⟩ => ⟨S10, .f32⟩
  | .hbm, ⟨117, _⟩ => ⟨S10, .f32⟩
  | .hbm, ⟨118, _⟩ => ⟨S1x10, .f32⟩
  | .hbm, ⟨119, _⟩ => ⟨S32768x10, .f32⟩
  | .hbm, ⟨120, _⟩ => ⟨S32768x10, .f32⟩
  | .hbm, ⟨121, _⟩ => ⟨S1x10, .f32⟩
  | .hbm, ⟨122, _⟩ => ⟨S32768x10, .f32⟩
  | .hbm, ⟨123, _⟩ => ⟨S32768x10, .f32⟩
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_4 : Ref sig .tc := ⟨.hbm, 80, rfl⟩
abbrev main_v39 : Ref sig .tc := ⟨.hbm, 81, rfl⟩
abbrev main_cst_5 : Ref sig .tc := ⟨.hbm, 82, rfl⟩
abbrev main_v40 : Ref sig .tc := ⟨.hbm, 83, rfl⟩
abbrev main_v41 : Ref sig .tc := ⟨.hbm, 84, rfl⟩
abbrev main_c_6 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_7 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩

abbrev nD : Nat := 1
abbrev τ : Topo := Topo.v7x

variable {F : FTy → Type} [FloatOps F]

class Facts₀ : Prop where
  transposes_S3000x784_S784x3000_1_0 : S3000x784.Transposes [1, 0] S784x3000
  bcast_S3000_S1x3000_1 : S3000.BroadcastsInDim S1x3000 (![1] : Fin 1 → Fin S1x3000.rank)
  bcast_S1x3000_S32768x3000_0_1 : S1x3000.BroadcastsInDim S32768x3000 (![0, 1] : Fin 2 → Fin S32768x3000.rank)
  reducesTo_S32768x3000_S3000_d0 : S32768x3000.ReducesTo [0] S3000
  h_S_ : 0 < S_.numel
  bcast_S_S3000 : S_.BroadcastsInDim S3000 (![] : Fin 0 → Fin S3000.rank)
  bcast_S_S1x3000 : S_.BroadcastsInDim S1x3000 (![] : Fin 0 → Fin S1x3000.rank)
  bcast_S_S32768x3000 : S_.BroadcastsInDim S32768x3000 (![] : Fin 0 → Fin S32768x3000.rank)
  transposes_S10x3000_S3000x10_1_0 : S10x3000.Transposes [1, 0] S3000x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S10_d0 : S32768x10.ReducesTo [0] S10
  bcast_S_S10 : S_.BroadcastsInDim S10 (![] : Fin 0 → Fin S10.rank)
  bcast_S_S1x10 : S_.BroadcastsInDim S1x10 (![] : Fin 0 → Fin S1x10.rank)
  dot_S32768x784_S784x3000_S32768x3000_1_0_0_1_n_n_wf : DotDims.WF S32768x784 S784x3000 S32768x3000 [1] [0] [0] [1] [] []
  dot_S32768x3000_S3000x10_S32768x10_1_0_0_1_n_n_wf : DotDims.WF S32768x3000 S3000x10 S32768x10 [1] [0] [0] [1] [] []

variable [Facts₀]

def dot_S32768x784_S784x3000_S32768x3000_1_0_0_1_n_n : DotDims S32768x784 S784x3000 S32768x3000 where
  lhsContracting := [1]
  rhsContracting := [0]
  lhsNonContracting := [0]
  rhsNonContracting := [1]
  lhsBatch := []
  rhsBatch := []
  wf := dot_S32768x784_S784x3000_S32768x3000_1_0_0_1_n_n_wf
def dot_S32768x3000_S3000x10_S32768x10_1_0_0_1_n_n : DotDims S32768x3000 S3000x10 S32768x10 where
  lhsContracting := [1]
  rhsContracting := [0]
  lhsNonContracting := [0]
  rhsNonContracting := [1]
  lhsBatch := []
  rhsBatch := []
  wf := dot_S32768x3000_S3000x10_S32768x10_1_0_0_1_n_n_wf

class Facts : Prop extends Facts₀ where

variable [Facts]
-- ==== Proof.RefRun.lean ====
/-
  The reference program read as one straight line.

  The reference computes, on the host, a two-layer perceptron with sign-binarised weights and batch
  normalisation after each layer: the first product and bias, the batch mean and (two-pass) variance of each
  of the 3000 columns, the normalisation, the clamp to [-1, 1], the sign written straight-through
  (h + (sign h - h)), the second product and bias, and the same normalisation of its 10 columns.  Its three
  helper functions (the variance with its degrees-of-freedom guard and the selection inside it, the clamp) are
  applied where they are called, so the whole program is a list of 115 array operations, each writing one
  buffer of its own.  This module lists them in order, shows that the program is the sequence of that list, and
  concludes that every run ends with each buffer holding the fold of the list over the launch contents — in
  particular no operation writes an argument.
-/
import proofs.«121665_j13159779795462_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 115 operations in order, the helper functions' operations at their calls. -/
abbrev ops : List (HloOp τ sig (Elt F)) :=
  [ StableHlo.unary main_arg1 main_v0 (Host.sign : (⟨S3000x784, .f32⟩ : BufTy).Contents (Elt F) → (⟨S3000x784, .f32⟩ : BufTy).Contents (Elt F)),
    StableHlo.binary main_v0 main_arg1 main_v1 (subf : (⟨S3000x784, .f32⟩ : BufTy).Contents (Elt F) → (⟨S3000x784, .f32⟩ : BufTy).Contents (Elt F) → (⟨S3000x784, .f32⟩ : BufTy).Contents (Elt F)),
    StableHlo.binary main_arg1 main_v1 main_v2 (addf : (⟨S3000x784, .f32⟩ : BufTy).Contents (Elt F) → (⟨S3000x784, .f32⟩ : BufTy).Contents (Elt F) → (⟨S3000x784, .f32⟩ : BufTy).Contents (Elt F)),
    StableHlo.unary main_v2 main_v3 ((transpose S784x3000 [1, 0] · transposes_S3000x784_S784x3000_1_0) : (⟨S3000x784, .f32⟩ : BufTy).Contents (Elt F) → (⟨S784x3000, .f32⟩ : BufTy).Contents (Elt F)),
    StableHlo.binary main_arg0 main_v3 main_v4 ((fun l r => Host.dotGeneral dot_S32768x784_S784x3000_S32768x3000_1_0_0_1_n_n none l r) : (⟨S32768x784, .f32⟩ : BufTy).Contents (Elt F) → (⟨S784x3000, .f32⟩ : BufTy).Contents (Elt F) → (⟨S32768x3000, .f32⟩ : BufTy).Contents (Elt F)),
    StableHlo.unary main_arg2 main_v5 (broadcastInDim S1x3000 ![1] bcast_S3000_S1x3000_1 : (⟨S3000, .f32⟩ : BufTy).Contents (Elt F) → (⟨S1x3000, .f32⟩ : BufTy).Contents (Elt F)),
    StableHlo.unary main_v5 main_v6 (broadcastInDim S32768x3000 ![0, 1] bcast_S1x3000_S32768x3000_0_1 : (⟨S1x3000, .f32⟩ : BufTy).Contents (Elt F) → (⟨S32768x3000, .f32⟩ : BufTy).Contents (Elt F)),
    StableHlo.binary main_v4 main_v6 main_v7 (addf : (⟨S32768x3000, .f32⟩ : BufTy).Contents (Elt F) → (⟨S32768x3000, .f32⟩ : BufTy).Contents (Elt F) → (⟨S32768x3000, .f32⟩ : BufTy).Contents (Elt F)),
    StableHlo.nullary main_cst (constant S_ .f32 0x00000000#32),
    StableHlo.binary main_v7 main_cst main_v8 ((fun x v => Host.reduceAdd x v reducesTo_S32768x3000_S3000_d0 h_S_) : (⟨S32768x3000, .f32⟩ : BufTy).Contents (Elt F) → (⟨S_, .f32⟩ : BufTy).Contents (Elt F) → (⟨S3000, .f32⟩ : BufTy).Contents (Elt F)),
    StableHlo.nullary main_cst_0 (constant S_ .f32 0x47000000#32),
    StableHlo.unary main_cst_0 main_v9 (broadcastInDim S3000 ![] bcast_S_S3000 : (⟨S_, .f32⟩ : BufTy).Contents (Elt F) → (⟨S3000, .f32⟩ : BufTy).Contents (Elt F)),
    StableHlo.binary main_v8 main_v9 main_v10 (Host.divf : (⟨S3000, .f32⟩ : BufTy).Contents (Elt F) → (⟨S3000, .f32⟩ : BufTy).Contents (Elt F) → (⟨S3000, .f32⟩ : BufTy).Contents (Elt F)),
    StableHlo.nullary main_c (constantI S_ 32 0#32),
    StableHlo.TRef.nullary main_call0.cst (constant S_ .f32 0x00000000#32),
    StableHlo.TRef.binary (.of main_v7) main_call0.cst main_call0.v0 (fun x v => Host.reduceAdd x v reducesTo_S32768x3000_S3000_d0 h_S_),
    StableHlo.TRef.unary main_call0.v0 main_call0.v1 (broadcastInDim S1x3000 ![1] bcast_S3000_S1x3000_1),
    StableHlo.TRef.nullary main_call0.cst_0 (constant S_ .f32 0x47000000#32),
    StableHlo.TRef.unary main_call0.cst_0 main_call0.v2 (broadcastInDim S1x3000 ![] bcast_S_S1x3000),
    StableHlo.TRef.binary main_call0.v1 main_call0.v2 main_call0.v3 Host.divf,
    StableHlo.TRef.unary main_call0.v3 main_call0.v4 (broadcastInDim S32768x3000 ![0, 1] bcast_S1x3000_S32768x3000_0_1),
    StableHlo.TRef.binary (.of main_v7) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32768x3000_S3000_d0 h_S_),
    StableHlo.TRef.unary main_call0.v8 main_call0.v10 (broadcastInDim S3000 ![] bcast_S_S3000),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S3000 ![] bcast_S_S3000),
    StableHlo.TRef.ternary main_call0.v12 main_call0.v11 main_call0.call0.v1 main_call0.call0.v2 (fun p a b => select (broadcastInDim S3000 ![] bcast_S_S3000 p) a b),
    StableHlo.unary main_v10 main_v12 (broadcastInDim S1x3000 ![1] bcast_S3000_S1x3000_1 : (⟨S3000, .f32⟩ : BufTy).Contents (Elt F) → (⟨S1x3000, .f32⟩ : BufTy).Contents (Elt F)),
    StableHlo.unary main_v12 main_v13 (broadcastInDim S32768x3000 ![0, 1] bcast_S1x3000_S32768x3000_0_1 : (⟨S1x3000, .f32⟩ : BufTy).Contents (Elt F) → (⟨S32768x3000, .f32⟩ : BufTy).Contents (Elt F)),
    StableHlo.binary main_v7 main_v13 main_v14 (subf : (⟨S32768x3000, .f32⟩ : BufTy).Contents (Elt F) → (⟨S32768x3000, .f32⟩ : BufTy).Contents (Elt F) → (⟨S32768x3000, .f32⟩ : BufTy).Contents (Elt F)),
    StableHlo.unary main_arg3 main_v15 (broadcastInDim S1x3000 ![1] bcast_S3000_S1x3000_1 : (⟨S3000, .f32⟩ : BufTy).Contents (Elt F) → (⟨S1x3000, .f32⟩ : BufTy).Contents (Elt F)),
    StableHlo.unary main_v15 main_v16 (broadcastInDim S32768x3000 ![0, 1] bcast_S1x3000_S32768x3000_0_1 : (⟨S1x3000, .f32⟩ : BufTy).Contents (Elt F) → (⟨S32768x3000, .f32⟩ : BufTy).Contents (Elt F)),
    StableHlo.binary main_v16 main_v14 main_v17 (mulf : (⟨S32768x3000, .f32⟩ : BufTy).Contents (Elt F) → (⟨S32768x3000, .f32⟩ : BufTy).Contents (Elt F) → (⟨S32768x3000, .f32⟩ : BufTy).Contents (Elt F)),
    StableHlo.nullary main_cst_1 (constant S_ .f32 0x3727C5AC#32),
    StableHlo.unary main_cst_1 main_v18 (broadcastInDim S3000 ![] bcast_S_S3000 : (⟨S_, .f32⟩ : BufTy).Contents (Elt F) → (⟨S3000, .f32⟩ : BufTy).Contents (Elt F)),
    StableHlo.binary main_v11 main_v18 main_v19 (addf : (⟨S3000, .f32⟩ : BufTy).Contents (Elt F) → (⟨S3000, .f32⟩ : BufTy).Contents (Elt F) → (⟨S3000, .f32⟩ : BufTy).Contents (Elt F)),
    StableHlo.unary main_v19 main_v20 (Host.rsqrt : (⟨S3000, .f32⟩ : BufTy).Contents (Elt F) → (⟨S3000, .f32⟩ : BufTy).Contents (Elt F)),
    StableHlo.unary main_v20 main_v21 (broadcastInDim S1x3000 ![1] bcast_S3000_S1x3000_1 : (⟨S3000, .f32⟩ : BufTy).Contents (Elt F) → (⟨S1x3000, .f32⟩ : BufTy).Contents (Elt F)),
    StableHlo.unary main_v21 main_v22 (broadcastInDim S32768x3000 ![0, 1] bcast_S1x3000_S32768x3000_0_1 : (⟨S1x3000, .f32⟩ : BufTy).Contents (Elt F) → (⟨S32768x3000, .f32⟩ : BufTy).Contents (Elt F)),
    StableHlo.binary main_v17 main_v22 main_v23 (mulf : (⟨S32768x3000, .f32⟩ : BufTy).Contents (Elt F) → (⟨S32768x3000, .f32⟩ : BufTy).Contents (Elt F) → (⟨S32768x3000, .f32⟩ : BufTy).Contents (Elt F)),
    StableHlo.unary main_arg4 main_v24 (broadcastInDim S1x3000 ![1] bcast_S3000_S1x3000_1 : (⟨S3000, .f32⟩ : BufTy).Contents (Elt F) → (⟨S1x3000, .f32⟩ : BufTy).Contents (Elt F)),
    StableHlo.unary main_v24 main_v25 (broadcastInDim S32768x3000 ![0, 1] bcast_S1x3000_S32768x3000_0_1 : (⟨S1x3000, .f32⟩ : BufTy).Contents (Elt F) → (⟨S32768x3000, .f32⟩ : BufTy).Contents (Elt F)),
    StableHlo.binary main_v23 main_v25 main_v26 (addf : (⟨S32768x3000, .f32⟩ : BufTy).Contents (Elt F) → (⟨S32768x3000, .f32⟩ : BufTy).Contents (Elt F) → (⟨S32768x3000, .f32⟩ : BufTy).Contents (Elt F)),
    StableHlo.nullary main_cst_2 (constant S_ .f32 0xBF800000#32),
    StableHlo.nullary main_cst_3 (constant S_ .f32 0x3F800000#32),
    StableHlo.TRef.unary (.of main_cst_2) main_call1.v0 id,
    StableHlo.TRef.unary main_call1.v0 main_call1.v1 (broadcastInDim S32768x3000 ![] bcast_S_S32768x3000),
    StableHlo.TRef.binary main_call1.v1 (.of main_v26) main_call1.v2 maximumf,
    StableHlo.TRef.unary (.of main_cst_3) main_call1.v3 id,
    StableHlo.TRef.unary main_call1.v3 main_call1.v4 (broadcastInDim S32768x3000 ![] bcast_S_S32768x3000),
    StableHlo.TRef.binary main_call1.v4 main_call1.v2 main_call1.v5 minimumf,
    StableHlo.unary main_v27 main_v28 (Host.sign : (⟨S32768x3000, .f32⟩ : BufTy).Contents (Elt F) → (⟨S32768x3000, .f32⟩ : BufTy).Contents (Elt F)),
    StableHlo.binary main_v28 main_v27 main_v29 (subf : (⟨S32768x3000, .f32⟩ : BufTy).Contents (Elt F) → (⟨S32768x3000, .f32⟩ : BufTy).Contents (Elt F) → (⟨S32768x3000, .f32⟩ : BufTy).Contents (Elt F)),
    StableHlo.binary main_v27 main_v29 main_v30 (addf : (⟨S32768x3000, .f32⟩ : BufTy).Contents (Elt F) → (⟨S32768x3000, .f32⟩ : BufTy).Contents (Elt F) → (⟨S32768x3000, .f32⟩ : BufTy).Contents (Elt F)),
    StableHlo.unary main_arg5 main_v31 (Host.sign : (⟨S10x3000, .f32⟩ : BufTy).Contents (Elt F) → (⟨S10x3000, .f32⟩ : BufTy).Contents (Elt F)),
    StableHlo.binary main_v31 main_arg5 main_v32 (subf : (⟨S10x3000, .f32⟩ : BufTy).Contents (Elt F) → (⟨S10x3000, .f32⟩ : BufTy).Contents (Elt F) → (⟨S10x3000, .f32⟩ : BufTy).Contents (Elt F)),
    StableHlo.binary main_arg5 main_v32 main_v33 (addf : (⟨S10x3000, .f32⟩ : BufTy).Contents (Elt F) → (⟨S10x3000, .f32⟩ : BufTy).Contents (Elt F) → (⟨S10x3000, .f32⟩ : BufTy).Contents (Elt F)),
    StableHlo.unary main_v33 main_v34 ((transpose S3000x10 [1, 0] · transposes_S10x3000_S3000x10_1_0) : (⟨S10x3000, .f32⟩ : BufTy).Contents (Elt F) → (⟨S3000x10, .f32⟩ : BufTy).Contents (Elt F)),
    StableHlo.binary main_v30 main_v34 main_v35 ((fun l r => Host.dotGeneral dot_S32768x3000_S3000x10_S32768x10_1_0_0_1_n_n none l r) : (⟨S32768x3000, .f32⟩ : BufTy).Contents (Elt F) → (⟨S3000x10, .f32⟩ : BufTy).Contents (Elt F) → (⟨S32768x10, .f32⟩ : BufTy).Contents (Elt F)),
    StableHlo.unary main_arg6 main_v36 (broadcastInDim S1x10 ![1] bcast_S10_S1x10_1 : (⟨S10, .f32⟩ : BufTy).Contents (Elt F) → (⟨S1x10, .f32⟩ : BufTy).Contents (Elt F)),
    StableHlo.unary main_v36 main_v37 (broadcastInDim S32768x10 ![0, 1] bcast_S1x10_S32768x10_0_1 : (⟨S1x10, .f32⟩ : BufTy).Contents (Elt F) → (⟨S32768x10, .f32⟩ : BufTy).Contents (Elt F)),
    StableHlo.binary main_v35 main_v37 main_v38 (addf : (⟨S32768x10, .f32⟩ : BufTy).Contents (Elt F) → (⟨S32768x10, .f32⟩ : BufTy).Contents (Elt F) → (⟨S32768x10, .f32⟩ : BufTy).Contents (Elt F)),
    StableHlo.nullary main_cst_4 (constant S_ .f32 0x00000000#32),
    StableHlo.binary main_v38 main_cst_4 main_v39 ((fun x v => Host.reduceAdd x v reducesTo_S32768x10_S10_d0 h_S_) : (⟨S32768x10, .f32⟩ : BufTy).Contents (Elt F) → (⟨S_, .f32⟩ : BufTy).Contents (Elt F) → (⟨S10, .f32⟩ : BufTy).Contents (Elt F)),
    StableHlo.nullary main_cst_5 (constant S_ .f32 0x47000000#32),
    StableHlo.unary main_cst_5 main_v40 (broadcastInDim S10 ![] bcast_S_S10 : (⟨S_, .f32⟩ : BufTy).Contents (Elt F) → (⟨S10, .f32⟩ : BufTy).Contents (Elt F)),
    StableHlo.binary main_v39 main_v40 main_v41 (Host.divf : (⟨S10, .f32⟩ : BufTy).Contents (Elt F) → (⟨S10, .f32⟩ : BufTy).Contents (Elt F) → (⟨S10, .f32⟩ : BufTy).Contents (Elt F)),
    StableHlo.nullary main_c_6 (constantI S_ 32 0#32),
    StableHlo.TRef.nullary main_call2.cst (constant S_ .f32 0x00000000#32),
    StableHlo.TRef.binary (.of main_v38) main_call2.cst main_call2.v0 (fun x v => Host.reduceAdd x v reducesTo_S32768x10_S10_d0 h_S_),
    StableHlo.TRef.unary main_call2.v0 main_call2.v1 (broadcastInDim S1x10 ![1] bcast_S10_S1x10_1),
    StableHlo.TRef.nullary main_call2.cst_0 (constant S_ .f32 0x47000000#32),
    StableHlo.TRef.unary main_call2.cst_0 main_call2.v2 (broadcastInDim S1x10 ![] bcast_S_S1x10),
    StableHlo.TRef.binary main_call2.v1 main_call2.v2 main_call2.v3 Host.divf,
    StableHlo.TRef.unary main_call2.v3 main_call2.v4 (broadcastInDim S32768x10 ![0, 1] bcast_S1x10_S32768x10_0_1),
    StableHlo.TRef.binary (.of main_v38) main_call2.v4 main_call2.v5 subf,
    StableHlo.TRef.binary main_call2.v5 main_call2.v5 main_call2.v6 mulf,
    StableHlo.TRef.unary (.of main_c_6) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x10_S10_d0 h_S_),
    StableHlo.TRef.unary main_call2.v8 main_call2.v10 (broadcastInDim S10 ![] bcast_S_S10),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10 ![] bcast_S_S10),
    StableHlo.TRef.ternary main_call2.v12 main_call2.v11 main_call2.call0.v1 main_call2.call0.v2 (fun p a b => select (broadcastInDim S10 ![] bcast_S_S10 p) a b),
    StableHlo.unary main_v41 main_v43 (broadcastInDim S1x10 ![1] bcast_S10_S1x10_1 : (⟨S10, .f32⟩ : BufTy).Contents (Elt F) → (⟨S1x10, .f32⟩ : BufTy).Contents (Elt F)),
    StableHlo.unary main_v43 main_v44 (broadcastInDim S32768x10 ![0, 1] bcast_S1x10_S32768x10_0_1 : (⟨S1x10, .f32⟩ : BufTy).Contents (Elt F) → (⟨S32768x10, .f32⟩ : BufTy).Contents (Elt F)),
    StableHlo.binary main_v38 main_v44 main_v45 (subf : (⟨S32768x10, .f32⟩ : BufTy).Contents (Elt F) → (⟨S32768x10, .f32⟩ : BufTy).Contents (Elt F) → (⟨S32768x10, .f32⟩ : BufTy).Contents (Elt F)),
    StableHlo.unary main_arg7 main_v46 (broadcastInDim S1x10 ![1] bcast_S10_S1x10_1 : (⟨S10, .f32⟩ : BufTy).Contents (Elt F) → (⟨S1x10, .f32⟩ : BufTy).Contents (Elt F)),
    StableHlo.unary main_v46 main_v47 (broadcastInDim S32768x10 ![0, 1] bcast_S1x10_S32768x10_0_1 : (⟨S1x10, .f32⟩ : BufTy).Contents (Elt F) → (⟨S32768x10, .f32⟩ : BufTy).Contents (Elt F)),
    StableHlo.binary main_v47 main_v45 main_v48 (mulf : (⟨S32768x10, .f32⟩ : BufTy).Contents (Elt F) → (⟨S32768x10, .f32⟩ : BufTy).Contents (Elt F) → (⟨S32768x10, .f32⟩ : BufTy).Contents (Elt F)),
    StableHlo.nullary main_cst_7 (constant S_ .f32 0x3727C5AC#32),
    StableHlo.unary main_cst_7 main_v49 (broadcastInDim S10 ![] bcast_S_S10 : (⟨S_, .f32⟩ : BufTy).Contents (Elt F) → (⟨S10, .f32⟩ : BufTy).Contents (Elt F)),
    StableHlo.binary main_v42 main_v49 main_v50 (addf : (⟨S10, .f32⟩ : BufTy).Contents (Elt F) → (⟨S10, .f32⟩ : BufTy).Contents (Elt F) → (⟨S10, .f32⟩ : BufTy).Contents (Elt F)),
    StableHlo.unary main_v50 main_v51 (Host.rsqrt : (⟨S10, .f32⟩ : BufTy).Contents (Elt F) → (⟨S10, .f32⟩ : BufTy).Contents (Elt F)),
    StableHlo.unary main_v51 main_v52 (broadcastInDim S1x10 ![1] bcast_S10_S1x10_1 : (⟨S10, .f32⟩ : BufTy).Contents (Elt F) → (⟨S1x10, .f32⟩ : BufTy).Contents (Elt F)),
    StableHlo.unary main_v52 main_v53 (broadcastInDim S32768x10 ![0, 1] bcast_S1x10_S32768x10_0_1 : (⟨S1x10, .f32⟩ : BufTy).Contents (Elt F) → (⟨S32768x10, .f32⟩ : BufTy).Contents (Elt F)),
    StableHlo.binary main_v48 main_v53 main_v54 (mulf : (⟨S32768x10, .f32⟩ : BufTy).Contents (Elt F) → (⟨S32768x10, .f32⟩ : BufTy).Contents (Elt F) → (⟨S32768x10, .f32⟩ : BufTy).Contents (Elt F)),
    StableHlo.unary main_arg8 main_v55 (broadcastInDim S1x10 ![1] bcast_S10_S1x10_1 : (⟨S10, .f32⟩ : BufTy).Contents (Elt F) → (⟨S1x10, .f32⟩ : BufTy).Contents (Elt F)),
    StableHlo.unary main_v55 main_v56 (broadcastInDim S32768x10 ![0, 1] bcast_S1x10_S32768x10_0_1 : (⟨S1x10, .f32⟩ : BufTy).Contents (Elt F) → (⟨S32768x10, .f32⟩ : BufTy).Contents (Elt F)),
    StableHlo.binary main_v54 main_v56 main_v57 (addf : (⟨S32768x10, .f32⟩ : BufTy).Contents (Elt F) → (⟨S32768x10, .f32⟩ : BufTy).Contents (Elt F) → (⟨S32768x10, .f32⟩ : BufTy).Contents (Elt F)) ]

set_option maxRecDepth 8192 in
set_option maxHeartbeats 4000000 in
/-- The program is the sequence of that list: unfold the two halves of the program and the helper functions at
    their calls, and re-associate the sequencing. -/
theorem main_eq (c : Dev nD) : main (F := F) c = seq ops := by
  simp only [main, main_part0, main_part1, fn_var.body, fn_where.body, fn_clip.body, fn_var_0.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
set_option maxHeartbeats 4000000 in
/-- No operation of the list writes argument 0: after the whole list it holds what it held before. -/
theorem arg0_kept (V : Valuation τ sig (Elt F)) :
    after ops V (main_arg0 : DevRef τ sig) = V (main_arg0 : DevRef τ sig) := by
  after_results_simp

set_option maxRecDepth 8192 in
set_option maxHeartbeats 4000000 in
/-- No operation of the list writes argument 1: after the whole list it holds what it held before. -/
theorem arg1_kept (V : Valuation τ sig (Elt F)) :
    after ops V (main_arg1 : DevRef τ sig) = V (main_arg1 : DevRef τ sig) := by
  after_results_simp

set_option maxRecDepth 8192 in
set_option maxHeartbeats 4000000 in
/-- No operation of the list writes argument 2: after the whole list it holds what it held before. -/
theorem arg2_kept (V : Valuation τ sig (Elt F)) :
    after ops V (main_arg2 : DevRef τ sig) = V (main_arg2 : DevRef τ sig) := by
  after_results_simp

set_option maxRecDepth 8192 in
set_option maxHeartbeats 4000000 in
/-- No operation of the list writes argument 3: after the whole list it holds what it held before. -/
theorem arg3_kept (V : Valuation τ sig (Elt F)) :
    after ops V (main_arg3 : DevRef τ sig) = V (main_arg3 : DevRef τ sig) := by
  after_results_simp

set_option maxRecDepth 8192 in
set_option maxHeartbeats 4000000 in
/-- No operation of the list writes argument 4: after the whole list it holds what it held before. -/
theorem arg4_kept (V : Valuation τ sig (Elt F)) :
    after ops V (main_arg4 : DevRef τ sig) = V (main_arg4 : DevRef τ sig) := by
  after_results_simp

set_option maxRecDepth 8192 in
set_option maxHeartbeats 4000000 in
/-- No operation of the list writes argument 5: after the whole list it holds what it held before. -/
theorem arg5_kept (V : Valuation τ sig (Elt F)) :
    after ops V (main_arg5 : DevRef τ sig) = V (main_arg5 : DevRef τ sig) := by
  after_results_simp

set_option maxRecDepth 8192 in
set_option maxHeartbeats 4000000 in
/-- No operation of the list writes argument 6: after the whole list it holds what it held before. -/
theorem arg6_kept (V : Valuation τ sig (Elt F)) :
    after ops V (main_arg6 : DevRef τ sig) = V (main_arg6 : DevRef τ sig) := by
  after_results_simp

set_option maxRecDepth 8192 in
set_option maxHeartbeats 4000000 in
/-- No operation of the list writes argument 7: after the whole list it holds what it held before. -/
theorem arg7_kept (V : Valuation τ sig (Elt F)) :
    after ops V (main_arg7 : DevRef τ sig) = V (main_arg7 : DevRef τ sig) := by
  after_results_simp

set_option maxRecDepth 8192 in
set_option maxHeartbeats 4000000 in
/-- No operation of the list writes argument 8: after the whole list it holds what it held before. -/
theorem arg8_kept (V : Valuation τ sig (Elt F)) :
    after ops V (main_arg8 : DevRef τ sig) = V (main_arg8 : DevRef τ sig) := by
  after_results_simp

/-- Every weakly fair run of the program from memory `m` terminates, and every buffer ends at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.KI.Prefix.lean ====
import proofs.«121665_j13159779795462_2_alg».proof.Proof.Gen.KernelIdeal.Launch
import Idealize.ShloMosaic.Lib.Pipeline.Kit
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.H

open Cert.KernelIdeal Cert.KernelIdeal.Gen
open Idealize.ShloMosaic Idealize.ShloMosaic.TcCoe Idealize.SL.Sem Idealize.ShloMosaic.ValueIdx

/-! # The buffer contents when the first region is entered: the launch memory after the host prefix

The prefix takes the signs of the two weight matrices, transposes them (and narrows their format, which changes
nothing on the extended reals), and reshapes the six parameter vectors to one-row matrices. -/

section
variable {F : FTy → Type} [FloatOps F]
variable (m : (ℓ : Loc nD τ sig) → Buf (Elt F) ℓ) (ρ : Dev nD → PrngReg)

/-- Core `c`'s buffers at launch. -/
abbrev Wc0 : Dev nD → Valuation τ sig (Elt F) := fun c b => (s₀ m ρ).mem ((c : Dev nD), b)
/-- After the host prefix (region 0's entry). -/
abbrev Wc1 : Dev nD → Valuation τ sig (Elt F) := fun c => StableHlo.after hostOps0 (Wc0 m ρ c)
abbrev Vr1 : (c : Dev nD) → (b : Ref sig .tc) → Buf (Elt F) ((c : Thread nD τ).loc b) := fun c b => Wc1 m ρ c b
end

section
variable (m : (ℓ : Loc nD τ sig) → Buf (Elt Ideal) ℓ) (ρ : Dev nD → PrngReg)

/-- The batch is not touched by the prefix. -/
theorem pre_arg0 (c : Dev nD) : Vr1 m ρ c main_arg0 = m ((c : Thread nD τ).loc main_arg0) := by
  show StableHlo.after hostOps0 (Wc0 m ρ c) (Proc.devRef .tc main_arg0) = _
  after_results

/-- The first layer's weights as the kernels see them: entry (k, j) is the sign of the given weight (j, k). -/
theorem pre_v2 (c : Dev nD) (k : Fin 784) (j : Fin 3000) :
    Vr1 m ρ c main_v2 (ix2 k j) = Ideal.sign (m ((c : Thread nD τ).loc main_arg1) (ix2 j k)) := by
  have e : Vr1 m ρ c main_v2 = truncf .bf16 (transpose S784x3000 [1, 0] (Host.sign (F := Ideal) (m ((c : Thread nD τ).loc main_arg1))) transposes_S3000x784_S784x3000_1_0) bitsLt_bf16_f32 := by
    show StableHlo.after hostOps0 (Wc0 m ρ c) (Proc.devRef .tc main_v2) = _
    after_results
  rw [e, truncf_apply]
  exact (transpose_ix2_apply _ _ k j).trans rfl

/-- The second layer's weights as the kernels see them: entry (j, q) is the sign of the given weight (q, j). -/
theorem pre_v5 (c : Dev nD) (j : Fin 3000) (q : Fin 10) :
    Vr1 m ρ c main_v5 (ix2 j q) = Ideal.sign (m ((c : Thread nD τ).loc main_arg5) (ix2 q j)) := by
  have e : Vr1 m ρ c main_v5 = truncf .bf16 (transpose S3000x10 [1, 0] (Host.sign (F := Ideal) (m ((c : Thread nD τ).loc main_arg5))) transposes_S10x3000_S3000x10_1_0) bitsLt_bf16_f32 := by
    show StableHlo.after hostOps0 (Wc0 m ρ c) (Proc.devRef .tc main_v5) = _
    after_results
  rw [e, truncf_apply]
  exact (transpose_ix2_apply _ _ j q).trans rfl

theorem pre_v6 (c : Dev nD) (j : Fin 3000) :
    Vr1 m ρ c main_v6 (ix2 (0 : Fin 1) j) = m ((c : Thread nD τ).loc main_arg2) (ix1 j) := by
  have e : Vr1 m ρ c main_v6 = shapeCast S1x3000 (m ((c : Thread nD τ).loc main_arg2)) shapeCasts_S3000_S1x3000 := by
    show StableHlo.after hostOps0 (Wc0 m ρ c) (Proc.devRef .tc main_v6) = _
    after_results; rfl
  rw [e]
  exact shapeCast_a_1a_apply _ _ _ _

theorem pre_v7 (c : Dev nD) (j : Fin 3000) :
    Vr1 m ρ c main_v7 (ix2 (0 : Fin 1) j) = m ((c : Thread nD τ).loc main_arg3) (ix1 j) := by
  have e : Vr1 m ρ c main_v7 = shapeCast S1x3000 (m ((c : Thread nD τ).loc main_arg3)) shapeCasts_S3000_S1x3000 := by
    show StableHlo.after hostOps0 (Wc0 m ρ c) (Proc.devRef .tc main_v7) = _
    after_results; rfl
  rw [e]
  exact shapeCast_a_1a_apply _ _ _ _

theorem pre_v8 (c : Dev nD) (j : Fin 3000) :
    Vr1 m ρ c main_v8 (ix2 (0 : Fin 1) j) = m ((c : Thread nD τ).loc main_arg4) (ix1 j) := by
  have e : Vr1 m ρ c main_v8 = shapeCast S1x3000 (m ((c : Thread nD τ).loc main_arg4)) shapeCasts_S3000_S1x3000 := by
    show StableHlo.after hostOps0 (Wc0 m ρ c) (Proc.devRef .tc main_v8) = _
    after_results; rfl
  rw [e]
  exact shapeCast_a_1a_apply _ _ _ _

theorem pre_v9 (c : Dev nD) (j : Fin 10) :
    Vr1 m ρ c main_v9 (ix2 (0 : Fin 1) j) = m ((c : Thread nD τ).loc main_arg6) (ix1 j) := by
  have e : Vr1 m ρ c main_v9 = shapeCast S1x10 (m ((c : Thread nD τ).loc main_arg6)) shapeCasts_S10_S1x10 := by
    show StableHlo.after hostOps0 (Wc0 m ρ c) (Proc.devRef .tc main_v9) = _
    after_results; rfl
  rw [e]
  exact shapeCast_a_1a_apply _ _ _ _

theorem pre_v10 (c : Dev nD) (j : Fin 10) :
    Vr1 m ρ c main_v10 (ix2 (0 : Fin 1) j) = m ((c : Thread nD τ).loc main_arg7) (ix1 j) := by
  have e : Vr1 m ρ c main_v10 = shapeCast S1x10 (m ((c : Thread nD τ).loc main_arg7)) shapeCasts_S10_S1x10 := by
    show StableHlo.after hostOps0 (Wc0 m ρ c) (Proc.devRef .tc main_v10) = _
    after_results; rfl
  rw [e]
  exact shapeCast_a_1a_apply _ _ _ _

theorem pre_v11 (c : Dev nD) (j : Fin 10) :
    Vr1 m ρ c main_v11 (ix2 (0 : Fin 1) j) = m ((c : Thread nD τ).loc main_arg8) (ix1 j) := by
  have e : Vr1 m ρ c main_v11 = shapeCast S1x10 (m ((c : Thread nD τ).loc main_arg8)) shapeCasts_S10_S1x10 := by
    show StableHlo.after hostOps0 (Wc0 m ρ c) (Proc.devRef .tc main_v11) = _
    after_results; rfl
  rw [e]
  exact shapeCast_a_1a_apply _ _ _ _
end

end Cert.KernelIdeal.H

end
-- ==== Proof.KI.Region0Runs.lean ====
import proofs.«121665_j13159779795462_2_alg».proof.Proof.Gen.KernelIdeal.Launch
import proofs.«121665_j13159779795462_2_alg».proof.Proof.Gen.KernelIdeal.Skeleton
import proofs.«121665_j13159779795462_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0 (the first pass over the batch: column sums and sums of squares)

The body branches twice on the grid position: at the first block it zeroes its two carried rows, at the last block
it turns them into the mean and the variance and stores those.  Both conditions are decided over the 64 points. -/

/-- "This is the first block." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- "This is the last block." -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! The inputs are never idle; the two outputs are idle, and not written back, except at the last block. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- A staging buffer of each output window, through which its contents are stated. -/
abbrev VO0_3 : View sig .tc .vmem S1x3000 .f32 := (Memref.whole cc0_stg3_0 : Memref sig .tc .vmem S1x3000 .f32).view
abbrev VO0_4 : View sig .tc .vmem S1x3000 .f32 := (Memref.whole cc0_stg4_0 : Memref sig .tc .vmem S1x3000 .f32).view
/-- Each window's current staging memref at point `t`, and its wholeness. -/
abbrev ms0_0 (t : Fin cfg0.N) : Memref sig .tc .vmem S512x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S784x3000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3000 .f32 := win0_4.stage (cfg0.slots t 4)
abbrev hs0_4 (t : Fin cfg0.N) : (ms0_4 t).IsWhole := hstage0_4 ((cfg0.slots t 4).cast nbuf0_4)
/-- The two carried rows: the running column sums and sums of squares. -/
abbrev scM0_0 : Memref sig .tc .vmem S1x3000 .f32 := Memref.whole cc0_scratch0
abbrev scM0_1 : Memref sig .tc .vmem S1x3000 .f32 := Memref.whole cc0_scratch1
abbrev VS0_0 : View sig .tc .vmem S1x3000 .f32 := scM0_0.view
abbrev VS0_1 : View sig .tc .vmem S1x3000 .f32 := scM0_1.view

/-- The class invariant with the two carried rows named: each owned at some contents, beside the rest of the scoped
    buffers (unopened) and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case -/

set_option maxHeartbeats 4000000 in
/-- Case A, the first block: the carried rows are zeroed, then this block's column sums are added. -/
noncomputable def kernelRun0_A (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) :
    Σ' (LS0 : List (View.Piece (Elt F) S1x3000 .f32)), { LS1 : List (View.Piece (Elt F) S1x3000 .f32) //
      ∀ (xi4 xi5 : Vec F S1x3000 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi4 ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, fun xi4 xi5 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf4; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg4.read_unread _
      iexact H4
    isplitl [H5]
    · iexists _; isplitr; · ipureintro; exact harg5.read_unread _
      iexact H5
    isplitl [HS0]
    · iexists _; iexact HS0
    iexists _; iexact HS1

set_option maxHeartbeats 4000000 in
/-- Case B, a middle block: this block's column sums are added to the carried rows. -/
noncomputable def kernelRun0_B (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 : Vec F S1x3000 .f32) (xs1 : Vec F S1x3000 .f32) :
    Σ' (LS0 : List (View.Piece (Elt F) S1x3000 .f32)), { LS1 : List (View.Piece (Elt F) S1x3000 .f32) //
      ∀ (xi4 xi5 : Vec F S1x3000 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi4 ∗ owns (c : Thread nD τ) arg5 fullShare xi5
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, fun xi4 xi5 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg4.read_unread _
      iexact H4
    isplitl [H5]
    · iexists _; isplitr; · ipureintro; exact harg5.read_unread _
      iexact H5
    isplitl [HS0]
    · iexists _; iexact HS0
    iexists _; iexact HS1

set_option maxHeartbeats 4000000 in
/-- Case C, the last block: the sums are completed, and the mean and the variance are stored into the outputs. -/
noncomputable def kernelRun0_C (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 : Vec F S1x3000 .f32) (xs1 : Vec F S1x3000 .f32) :
    Σ' (L3 : List (View.Piece (Elt F) S1x3000 .f32)) (L4 : List (View.Piece (Elt F) S1x3000 .f32)) (LS0 : List (View.Piece (Elt F) S1x3000 .f32)), { LS1 : List (View.Piece (Elt F) S1x3000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, ?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    isplitl [H5]
    · iexists _; iexact H5
    isplitl [HS0]
    · iexists _; iexact HS0
    iexists _; iexact HS1

end Cert.KernelIdeal.H

end
-- ==== Proof.KI.Region0.lean ====
import proofs.«121665_j13159779795462_2_alg».proof.Proof.Gen.KernelIdeal.Launch
import proofs.«121665_j13159779795462_2_alg».proof.Proof.Gen.KernelIdeal.Skeleton
import proofs.«121665_j13159779795462_2_alg».proof.Proof.Gen.KernelIdeal.Points
import proofs.«121665_j13159779795462_2_alg».proof.Proof.KI.Region0Runs
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the carried rows and the outputs hold after each block, and the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pieces each case leaves cover the row they are stored into -/

theorem scover0_A_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) (y : S1x3000.Idx) :
    ∃ pc ∈ (kernelRun0_A c i arg1 harg1 arg2 harg2 arg3 harg3 arg4 harg4 arg5 harg5 arg6 harg6 arg7 harg7 hc0 hc1 x0 x1 x2).1, y ∈ pc.1.set :=
  View.cover_of_tiledL _ S1x3000.size (by sl_kernel_rfl) y
theorem scover0_A_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) (y : S1x3000.Idx) :
    ∃ pc ∈ (kernelRun0_A c i arg1 harg1 arg2 harg2 arg3 harg3 arg4 harg4 arg5 harg5 arg6 harg6 arg7 harg7 hc0 hc1 x0 x1 x2).2.1, y ∈ pc.1.set :=
  View.cover_of_tiledL _ S1x3000.size (by sl_kernel_rfl) y
theorem scover0_B_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_B c i arg1 harg1 arg2 harg2 arg3 harg3 arg4 harg4 arg5 harg5 arg6 harg6 arg7 harg7 hc0 hc1 x0 x1 x2 xs0 xs1).1, y ∈ pc.1.set :=
  View.cover_of_tiledL _ S1x3000.size (by sl_kernel_rfl) y
theorem scover0_B_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_B c i arg1 harg1 arg2 harg2 arg3 harg3 arg4 harg4 arg5 harg5 arg6 harg6 arg7 harg7 hc0 hc1 x0 x1 x2 xs0 xs1).2.1, y ∈ pc.1.set :=
  View.cover_of_tiledL _ S1x3000.size (by sl_kernel_rfl) y
theorem cover0_C_3 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL _ S1x3000.size (by sl_kernel_rfl) y
theorem cover0_C_4 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL _ S1x3000.size (by sl_kernel_rfl) y
theorem scover0_C_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL _ S1x3000.size (by sl_kernel_rfl) y
theorem scover0_C_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL _ S1x3000.size (by sl_kernel_rfl) y

/-! ## Each case's run at a grid point -/

/-- The first block's run at point `t`. -/
abbrev runA0 (c : Dev nD) (t : Fin cfg0.N) (h0 : t.val % 64 = 0) (h1 : ¬t.val % 64 = 63) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
/-- A middle block's run at point `t`, over what the carried rows held before it. -/
abbrev runB0 (c : Dev nD) (t : Fin cfg0.N) (h0 : ¬t.val % 64 = 0) (h1 : ¬t.val % 64 = 63) (xs0 xs1 : Vec F S1x3000 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
/-- The last block's run at point `t`. -/
abbrev runC0 (c : Dev nD) (t : Fin cfg0.N) (h0 : ¬t.val % 64 = 0) (h1 : t.val % 64 = 63) (xs0 xs1 : Vec F S1x3000 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1

/-- A list of whole-row pieces read back over unspecified contents, through a view of the row's shape. -/
abbrev readBack (v : View sig .tc .vmem S1x3000 .f32) (L : List (View.Piece (Elt F) S1x3000 .f32)) : Vec F S1x3000 .f32 :=
  v.read (Elt F) (v.writes (Elt F) v.junk L)

/-- What an idle output is said to hold (nothing consults it: the window is neither written back nor read there). -/
abbrev idleRow0 : Vec F S1x3000 .f32 := readBack (F := F) VO0_3 []

/-! ## What the outputs and the carried rows hold after each block -/

/-- After block `n`: (output 3, output 4, the running column sums, the running sums of squares). The first block
    starts the carried rows afresh; every later block continues from what the block before left; the last block also
    fills the outputs. -/
def outsAt0 (c : Dev nD) : (n : ℕ) → n < cfg0.N → Vec F S1x3000 .f32 × Vec F S1x3000 .f32 × Vec F S1x3000 .f32 × Vec F S1x3000 .f32
  | 0, hn => (idleRow0, idleRow0,
      readBack VS0_0 (runA0 V c ⟨0, hn⟩ (Nat.zero_mod _) (by show ¬(0 : ℕ) % 64 = 63; decide)).1,
      readBack VS0_1 (runA0 V c ⟨0, hn⟩ (Nat.zero_mod _) (by show ¬(0 : ℕ) % 64 = 63; decide)).2.1)
  | n + 1, hn =>
    have hN : n + 1 < 64 := lt_of_lt_of_eq hn (show cfg0.N = 64 from N_0)
    have h0 : ¬(n + 1) % 64 = 0 := by omega
    if h1 : (n + 1) % 64 = 63 then
      (readBack VO0_3 (runC0 V c ⟨n + 1, hn⟩ h0 h1 (outsAt0 c n (Nat.lt_of_succ_lt hn)).2.2.1 (outsAt0 c n (Nat.lt_of_succ_lt hn)).2.2.2).1,
       readBack VO0_4 (runC0 V c ⟨n + 1, hn⟩ h0 h1 (outsAt0 c n (Nat.lt_of_succ_lt hn)).2.2.1 (outsAt0 c n (Nat.lt_of_succ_lt hn)).2.2.2).2.1,
       readBack VS0_0 (runC0 V c ⟨n + 1, hn⟩ h0 h1 (outsAt0 c n (Nat.lt_of_succ_lt hn)).2.2.1 (outsAt0 c n (Nat.lt_of_succ_lt hn)).2.2.2).2.2.1,
       readBack VS0_1 (runC0 V c ⟨n + 1, hn⟩ h0 h1 (outsAt0 c n (Nat.lt_of_succ_lt hn)).2.2.1 (outsAt0 c n (Nat.lt_of_succ_lt hn)).2.2.2).2.2.2.1)
    else
      (idleRow0, idleRow0,
       readBack VS0_0 (runB0 V c ⟨n + 1, hn⟩ h0 h1 (outsAt0 c n (Nat.lt_of_succ_lt hn)).2.2.1 (outsAt0 c n (Nat.lt_of_succ_lt hn)).2.2.2).1,
       readBack VS0_1 (runB0 V c ⟨n + 1, hn⟩ h0 h1 (outsAt0 c n (Nat.lt_of_succ_lt hn)).2.2.1 (outsAt0 c n (Nat.lt_of_succ_lt hn)).2.2.2).2.1)

/-- What the carried rows held before point `t` (for `t` past the first). -/
abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 64 = 0) (h1 : ¬t.val % 64 = 63) :
    outsAt0 V c t.val t.isLt = (idleRow0, idleRow0, readBack VS0_0 (runA0 V c t h0 h1).1, readBack VS0_1 (runA0 V c t h0 h1).2.1) := by
  obtain ⟨n, hn⟩ := t
  have hN : n < 64 := lt_of_lt_of_eq hn (show cfg0.N = 64 from N_0)
  cases n with
  | zero => rfl
  | succ n => exfalso; dsimp only at h0; omega

theorem outsAt0_B (c : Dev nD) (t : Fin cfg0.N) (h0 : ¬t.val % 64 = 0) (h1 : ¬t.val % 64 = 63) :
    outsAt0 V c t.val t.isLt = (idleRow0, idleRow0,
      readBack VS0_0 (runB0 V c t h0 h1 (prev0 V c t).2.2.1 (prev0 V c t).2.2.2).1,
      readBack VS0_1 (runB0 V c t h0 h1 (prev0 V c t).2.2.1 (prev0 V c t).2.2.2).2.1) := by
  obtain ⟨n, hn⟩ := t
  cases n with
  | zero => exact absurd (Nat.zero_mod _) h0
  | succ n => exact (dif_neg h1).trans rfl

theorem outsAt0_C (c : Dev nD) (t : Fin cfg0.N) (h0 : ¬t.val % 64 = 0) (h1 : t.val % 64 = 63) :
    outsAt0 V c t.val t.isLt = (
      readBack VO0_3 (runC0 V c t h0 h1 (prev0 V c t).2.2.1 (prev0 V c t).2.2.2).1,
      readBack VO0_4 (runC0 V c t h0 h1 (prev0 V c t).2.2.1 (prev0 V c t).2.2.2).2.1,
      readBack VS0_0 (runC0 V c t h0 h1 (prev0 V c t).2.2.1 (prev0 V c t).2.2.2).2.2.1,
      readBack VS0_1 (runC0 V c t h0 h1 (prev0 V c t).2.2.1 (prev0 V c t).2.2.2).2.2.2.1) := by
  obtain ⟨n, hn⟩ := t
  cases n with
  | zero => exact absurd (Nat.zero_mod _) h0
  | succ n => exact (dif_pos h1).trans rfl

/-! ## The region invariant with the carried rows named -/

/-- Before block `n`: at the start the class's invariant (the carried rows at anything); afterwards the carried rows
    at what the block before left, the rest of the scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- Region 0's proof data on core `c`: the arrays as the region finds them; after block `t` each input's buffer at
    its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any block: the inputs' buffers hold their blocks; which case the block is in is decided by its
    number; the carried rows come in at what the block before left (at anything at the first block) and go out at
    this block's contents; an output the case does not store into is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h1 : t.val % 64 = 63
  · have h0 : ¬t.val % 64 = 0 := by omega
    have hz : t.val ≠ 0 := by omega
    rw [show (dat0 V c).leavesExact 3 t = owns (c : Thread nD τ) (ms0_3 t) fullShare ((dat0 V c).after 3 t) from by
        unfold Dat.leavesExact; rw [liveAt0_3 t ((hcond0_1 t).mpr h1)], after0_3]
    rw [show (dat0 V c).leavesExact 4 t = owns (c : Thread nD τ) (ms0_4 t) fullShare ((dat0 V c).after 4 t) from by
        unfold Dat.leavesExact; rw [liveAt0_4 t ((hcond0_1 t).mpr h1)], after0_4]
    rw [outsAt0_C V c t h0 h1]
    (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runC0 V c t h0 h1 _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 64 = 0
    · have hz : t.val = 0 := by omega
      rw [outsAt0_A V c t h0 h1]
      (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runA0 V c t h0 h1).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt0_B V c t h0 h1]
      (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runB0 V c t h0 h1 _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any block the invariant gives the class's back: what the carried rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.H

end
-- ==== Proof.KI.Region1Runs.lean ====
import proofs.«121665_j13159779795462_2_alg».proof.Proof.Gen.KernelIdeal.Launch
import proofs.«121665_j13159779795462_2_alg».proof.Proof.Gen.KernelIdeal.Skeleton
import proofs.«121665_j13159779795462_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second pallas_call): what its three control cases share

The body runs on a 64-point grid. Windows 0–8 are inputs (window 0, the batch block, moves with the point; the other
eight are constant blocks), window 9 is an output stored at every point, windows 10 and 11 are outputs stored at the
last point only, and two scratch rows carry the running column sums and sums of squares from point to point. -/

section Entry
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: where it is not
    fetched its block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, in closed form over the grid -/

/-- The first conditional (the reset of the two running sums): its condition from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (the division by the batch size and the two stores of the moments): its condition. -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point nothing is stored into output 10 and its block is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point output 10 is stored. -/
theorem liveAt1_10_C : ∀ t : Fin cfg1.N, cond1_1 (grid1.coords t) → cfg1.idle 10 (grid1.coords t) = false := by decide +kernel
/-- Away from the last point nothing is stored into output 11 and its block is not written back. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point output 11 is stored. -/
theorem liveAt1_11_C : ∀ t : Fin cfg1.N, cond1_1 (grid1.coords t) → cfg1.idle 11 (grid1.coords t) = false := by decide +kernel

/-! ## The memrefs the body is called with -/

/-- One staging buffer of each output window, through which its contents are stated (any choice reads the same). -/
abbrev VO1_9 : View sig .tc .vmem S512x10 .f32 := (Memref.whole cc1_stg9_0 : Memref sig .tc .vmem S512x10 .f32).view
abbrev VO1_10 : View sig .tc .vmem S1x10 .f32 := (Memref.whole cc1_stg10_0 : Memref sig .tc .vmem S1x10 .f32).view
abbrev VO1_11 : View sig .tc .vmem S1x10 .f32 := (Memref.whole cc1_stg11_0 : Memref sig .tc .vmem S1x10 .f32).view
abbrev ms1_0 (t : Fin cfg1.N) : Memref sig .tc .vmem S512x784 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S784x3000 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x3000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x3000 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3000x10 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x10 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x10 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x10 .f32 := win1_11.stage (cfg1.slots t 11)
abbrev hs1_11 (t : Fin cfg1.N) : (ms1_11 t).IsWhole := hstage1_11 ((cfg1.slots t 11).cast nbuf1_11)
/-- The two scratch rows: whole scoped buffers of the call's own. -/
abbrev scM1_0 : Memref sig .tc .vmem S1x10 .f32 := Memref.whole cc1_scratch0
abbrev scM1_1 : Memref sig .tc .vmem S1x10 .f32 := Memref.whole cc1_scratch1
abbrev VS1_0 : View sig .tc .vmem S1x10 .f32 := scM1_0.view
abbrev VS1_1 : View sig .tc .vmem S1x10 .f32 := scM1_1.view

/-- The scoped rest of the call split at its two scratch rows, the remainder left unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f))
          ∗ Pipeline.scopedRestBut (Ix := Ix) (Name := Name) (U := U) (Lvl := Lvl) (Val := Val) spec1 c [cc1_scratch0, cc1_scratch1]) :=
  Pipeline.scopedRest_split_of_list spec1 c [cc1_scratch0, cc1_scratch1] (by decide) (by decide)

/-- The region's invariant at entry with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.H

end
-- ==== Proof.KI.Region1RunA.lean ====
import proofs.«121665_j13159779795462_2_alg».proof.Proof.KI.Region1Runs

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the first block

The body at the first grid point: the reset condition holds and the last-point condition fails. It reads the nine input
blocks, sets the two running rows to zero, stores the block of second-layer values into output 9 and adds that block's
column sums (of the values, of their squares) to the running rows; outputs 10 and 11 are left as found. -/

set_option maxHeartbeats 4000000 in
/-- The body at the first point: the two running sums are reset, then this block's column sums are added; the moments are not stored. The pieces each written buffer ends with are the witness; the statement says that on whole
    memrefs — the inputs' at their contents, output 9's at anything, outputs 10 and 11 at contents handed back untouched, the scratch rows
    at anything — the body runs to the continuation holding the inputs as they were and each written buffer with its
    pieces written. -/
noncomputable def kernelRun1_A (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) :
    Σ' (L9 : List (View.Piece (Elt F) S512x10 .f32)) (LS0 : List (View.Piece (Elt F) S1x10 .f32)), { LS1 : List (View.Piece (Elt F) S1x10 .f32) //
      ∀ (xi10 xi11 : Vec F S1x10 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ owns (c : Thread nD τ) arg11 fullShare xi10
            ∗ owns (c : Thread nD τ) arg12 fullShare xi11
            ∗ (∃ d, owns (c : Thread nD τ) arg13 fullShare d)
            ∗ (∃ d, owns (c : Thread nD τ) arg14 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ owns (c : Thread nD τ) arg11 fullShare xi10
                ∗ owns (c : Thread nD τ) arg12 fullShare xi11
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.H

end
-- ==== Proof.KI.Region1RunB.lean ====
import proofs.«121665_j13159779795462_2_alg».proof.Proof.KI.Region1RunA

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, a middle block

The body at a grid point that is neither the first nor the last: both conditions fail. It reads the nine input blocks and
the two running rows, stores the block of second-layer values into output 9 and adds that block's column sums (of the
values, of their squares) to the running rows; outputs 10 and 11 are left as found. -/

set_option maxHeartbeats 4000000 in
/-- The body at a point that is neither the first nor the last: this block's column sums are added to the running sums; the moments are not stored. The pieces each written buffer ends with are the witness; the statement says that on whole
    memrefs — the inputs' at their contents, output 9's at anything, outputs 10 and 11 at contents handed back untouched, the scratch rows
    at what the point before left — the body runs to the continuation holding the inputs as they were and each written buffer with its
    pieces written. -/
noncomputable def kernelRun1_B (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    Σ' (L9 : List (View.Piece (Elt F) S512x10 .f32)) (LS0 : List (View.Piece (Elt F) S1x10 .f32)), { LS1 : List (View.Piece (Elt F) S1x10 .f32) //
      ∀ (xi10 xi11 : Vec F S1x10 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ owns (c : Thread nD τ) arg11 fullShare xi10
            ∗ owns (c : Thread nD τ) arg12 fullShare xi11
            ∗ owns (c : Thread nD τ) arg13 fullShare xs0
            ∗ owns (c : Thread nD τ) arg14 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ owns (c : Thread nD τ) arg11 fullShare xi10
                ∗ owns (c : Thread nD τ) arg12 fullShare xi11
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.H

end
-- ==== Proof.KI.Region1RunC.lean ====
import proofs.«121665_j13159779795462_2_alg».proof.Proof.KI.Region1RunB

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, the last block

The body at the last grid point: the reset condition fails and the last-point condition holds. It reads the nine input
blocks and the two running rows, stores the block of second-layer values into output 9, adds that block's column sums (of
the values, of their squares) to the running rows, and then stores the completed first row divided by the batch size into
output 10 and the completed second row divided by the batch size, less the square of the former, into output 11. -/

set_option maxHeartbeats 4000000 in
/-- The body at the last point: this block's column sums are added to the running sums, which are then divided by the batch size and stored as the two moments. The pieces each written buffer ends with are the witness; the statement says that on whole
    memrefs — the inputs' at their contents, output 9's at anything, outputs 10 and 11 at anything, the scratch rows
    at what the point before left — the body runs to the continuation holding the inputs as they were and each written buffer with its
    pieces written. -/
noncomputable def kernelRun1_C (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    Σ' (L9 : List (View.Piece (Elt F) S512x10 .f32)) (L10 : List (View.Piece (Elt F) S1x10 .f32)) (L11 : List (View.Piece (Elt F) S1x10 .f32)) (LS0 : List (View.Piece (Elt F) S1x10 .f32)), { LS1 : List (View.Piece (Elt F) S1x10 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare xs0
            ∗ owns (c : Thread nD τ) arg14 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.H

end
-- ==== Proof.KI.Region1.lean ====
import proofs.«121665_j13159779795462_2_alg».proof.Proof.KI.Region1RunC

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the second pallas_call): its half of the frame, at the entry contents `V`

What each written buffer holds after the body, case by case and then point by point (the two scratch rows carry the
running column sums of the second layer's pre-activations and of their squares from one point to the next); the
pipeline's proof data; the body obligation; and the invariant's entry and exit. -/

/-- Case A's pieces for output 9 (the block of second-layer pre-activations) tile it, so they cover it. -/
theorem cover1_A_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S512x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S512x10.size (by sl_kernel_rfl) y

/-- What case A leaves in output 9 (the block of second-layer pre-activations): its pieces read back. -/
def out1_A_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S512x10 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- Case A's pieces for the first scratch row (the running sum) tile it, so they cover it. -/
theorem scover1_A_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S1x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x10.size (by sl_kernel_rfl) y

/-- What case A leaves in the first scratch row (the running sum): its pieces read back. -/
def sout1_A_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S1x10 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- Case A's pieces for the second scratch row (the running sum of squares) tile it, so they cover it. -/
theorem scover1_A_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S1x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x10.size (by sl_kernel_rfl) y

/-- What case A leaves in the second scratch row (the running sum of squares): its pieces read back. -/
def sout1_A_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S1x10 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- Case B's pieces for output 9 (the block of second-layer pre-activations) tile it, so they cover it. -/
theorem cover1_B_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S512x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S512x10.size (by sl_kernel_rfl) y

/-- What case B leaves in output 9 (the block of second-layer pre-activations): its pieces read back. -/
def out1_B_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S512x10 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

/-- Case B's pieces for the first scratch row (the running sum) tile it, so they cover it. -/
theorem scover1_B_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x10.size (by sl_kernel_rfl) y

/-- What case B leaves in the first scratch row (the running sum): its pieces read back. -/
def sout1_B_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

/-- Case B's pieces for the second scratch row (the running sum of squares) tile it, so they cover it. -/
theorem scover1_B_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x10.size (by sl_kernel_rfl) y

/-- What case B leaves in the second scratch row (the running sum of squares): its pieces read back. -/
def sout1_B_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

/-- Case C's pieces for output 9 (the block of second-layer pre-activations) tile it, so they cover it. -/
theorem cover1_C_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S512x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S512x10.size (by sl_kernel_rfl) y

/-- What case C leaves in output 9 (the block of second-layer pre-activations): its pieces read back. -/
def out1_C_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S512x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

/-- Case C's pieces for output 10 (the batch mean) tile it, so they cover it. -/
theorem cover1_C_10 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x10.size (by sl_kernel_rfl) y

/-- What case C leaves in output 10 (the batch mean): its pieces read back. -/
def out1_C_10 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

/-- Case C's pieces for output 11 (the batch variance) tile it, so they cover it. -/
theorem cover1_C_11 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x10.size (by sl_kernel_rfl) y

/-- What case C leaves in output 11 (the batch variance): its pieces read back. -/
def out1_C_11 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

/-- Case C's pieces for the first scratch row (the running sum) tile it, so they cover it. -/
theorem scover1_C_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x10.size (by sl_kernel_rfl) y

/-- What case C leaves in the first scratch row (the running sum): its pieces read back. -/
def sout1_C_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

/-- Case C's pieces for the second scratch row (the running sum of squares) tile it, so they cover it. -/
theorem scover1_C_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x10.size (by sl_kernel_rfl) y

/-- What case C leaves in the second scratch row (the running sum of squares): its pieces read back. -/
def sout1_C_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)

/-- Away from the last point outputs 10 and 11 are not stored, not written back and not read at the next point: what the
    proof data says of them there is a placeholder nothing consults. -/
def idle1_10 : Vec F S1x10 .f32 := VO1_10.read (Elt F) VO1_10.junk
def idle1_11 : Vec F S1x10 .f32 := VO1_11.read (Elt F) VO1_11.junk

section Entry
variable (V : (c : Dev nD) → (b : Ref sig .tc) → Buf (Elt F) ((c : Thread nD τ).loc b))

/-! ## What the written buffers hold after each point -/

/-- THE ACCUMULATION. What output 9, output 10, output 11 and the two scratch rows hold after the body at position `n`
    (a tuple, in that order): the first point's case at point 0, the last point's case at point 63 and the middle case
    between, each run at the point's memrefs and input blocks, the scratch rows at what the point before left. -/
def outsAt1 (c : Dev nD) : (n : ℕ) → n < cfg1.N → Vec F S512x10 .f32 × Vec F S1x10 .f32 × Vec F S1x10 .f32 × Vec F S1x10 .f32 × Vec F S1x10 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), idle1_10, idle1_11, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h1 : n + 1 = 63 then
      (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)
    else
      (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, idle1_10, idle1_11, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 63) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), idle1_10, idle1_11, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact absurd h0 (Nat.succ_ne_zero n)

/-- `outsAt1` at a middle point: the middle case over what the point before left in the scratch rows. -/
theorem outsAt1_B (c : Dev nD) (t : Fin cfg1.N) (h0 : ¬t.val = 0) (h1 : ¬t.val = 63) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_10, idle1_11, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: the last case over what the point before left in the scratch rows. -/
theorem outsAt1_C (c : Dev nD) (t : Fin cfg1.N) (h0 : ¬t.val = 0) (h1 : t.val = 63) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant, point by point -/

/-- Before position `n`: at the first point what the launch hands the region (every scratch at anything); afterwards the
    two scratch rows at what the point before left in them, the rest of the scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them; after the body at point `t` each
    input's buffer at its block and the outputs' at `outsAt1`'s components; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point: the inputs' memrefs hold their blocks; the point is the first, the last or one between,
    so one of the three runs applies; the invariant hands the body the scratch rows at what the point
    before left (at anything at the first point) and takes them back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val = 0
  · have h1 : ¬t.val = 63 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8 t], after1_8]
    rw [show (dat1 V c).leavesExact 9 t = owns (c : Thread nD τ) (ms1_9 t) fullShare ((dat1 V c).after 9 t) from by
      unfold Dat.leavesExact; rw [liveAt1_9 t], after1_9]
    rw [Dat.leavesExact_idle (dat1 V c) 10 t (idleAt1_10 t (fun h => h1 ((hcond1_1 t).mp h))) (noFlush1_10 t (fun h => h1 ((hcond1_1 t).mp h)))]
    rw [Dat.leavesExact_idle (dat1 V c) 11 t (idleAt1_11 t (fun h => h1 ((hcond1_1 t).mp h))) (noFlush1_11 t (fun h => h1 ((hcond1_1 t).mp h)))]
    rw [outsAt1_A V c t h0 h1]
    unfold out1_A_9 sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _ _ _ _ _ _ _ _)
    isplitl [H10]; · iexists _; iexact H10
    iexists _; iexact H11
  · by_cases h1 : t.val = 63
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10_C t ((hcond1_1 t).mpr h1)], after1_10]
      rw [show (dat1 V c).leavesExact 11 t = owns (c : Thread nD τ) (ms1_11 t) fullShare ((dat1 V c).after 11 t) from by
        unfold Dat.leavesExact; rw [liveAt1_11_C t ((hcond1_1 t).mpr h1)], after1_11]
      rw [outsAt1_C V c t h0 h1]
      unfold out1_C_9 out1_C_10 out1_C_11 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [Dat.leavesExact_idle (dat1 V c) 11 t (idleAt1_11 t (fun h => h1 ((hcond1_1 t).mp h))) (noFlush1_11 t (fun h => h1 ((hcond1_1 t).mp h)))]
      rw [outsAt1_B V c t h0 h1]
      unfold out1_B_9 sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the scratch rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Entry

end Cert.KernelIdeal.H

end
-- ==== Proof.KI.Region2.lean ====
/- REGION 2 of @main (custom_call 2, `cc2__finalize_kernel`, pipeline 2) at a PARAMETER `V` — the TensorCore's buffer
   contents when the region is entered. The body is of the plain class: it loads its five input windows' staging
   buffers whole (window 0 the [512,10] block of the raw second-layer output, windows 1–4 the [1,10] rows mean, variance,
   scale and shift), computes scale · (x − mean) · rsqrt(variance + ε) + shift, and stores the result over the whole of
   output window 5's staging buffer; nothing is carried from point to point. So what it leaves in the output buffer is a
   closed function of the input blocks at the point (`out2_5`), and the invariant is the class's at every point. -/
import proofs.«121665_j13159779795462_2_alg».proof.Proof.Gen.KernelIdeal.Launch
import proofs.«121665_j13159779795462_2_alg».proof.Proof.Gen.KernelIdeal.Skeleton
import proofs.«121665_j13159779795462_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a [512,10] buffer, and the whole of a [1,10] one. -/
abbrev r2_0 : Rect S512x10 := Rect.unit (s := S512x10) ![0, 0] S512x10.size inb_S512x10_S512x10_0_0
abbrev r2_1 : Rect S1x10 := Rect.unit (s := S1x10) ![0, 0] S1x10.size inb_S1x10_S1x10_0_0

/-! ## What the body leaves in the output window's buffer -/

/-- Window 5's staging buffer after the body, from the input windows' blocks `x0` (the raw output's block), `x1` (mean),
    `x2` (variance), `x3` (scale), `x4` (shift): its one store, over the whole buffer, of
    scale · (x0 − mean) · rsqrt(variance + ε) + shift. -/
def out2_5 (x0 : Vec F S512x10 .f32) (x1 x2 x3 x4 : Vec F S1x10 .f32) : Vec F S512x10 .f32 :=
  View.canon [⟨r2_0, k2_pay1 (View.ld x2 r2_1) (View.ld x3 r2_1) (View.ld x0 r2_0) (View.ld x1 r2_1) (View.ld x4 r2_1)⟩]

/-- Its store is of the whole buffer, so it covers it. -/
theorem cover2_5 (p0 : Vec F S512x10 .f32) (y : S512x10.Idx) :
    ∃ pc ∈ ([⟨r2_0, p0⟩] : List (View.Piece (Elt F) S512x10 .f32)), y ∈ pc.1.set :=
  View.cover_of_tiled [⟨r2_0, p0⟩] S512x10.size (by rfl) y

/-! ## The body's triple -/

set_option maxHeartbeats 4000000 in
/-- The kernel body on whole staging memrefs, the inputs' at read contents `xW` and the output's at anything, runs to
    the continuation holding the inputs' as they were and the output's at `out2_5` of the inputs'. -/
theorem sound_kernel2 (c : Dev nD) (E : Set ℕ) (i : grid2.Coords)
    (arg1 : Memref sig .tc .vmem S512x10 .f32) (harg1 : arg1.IsWhole) (arg2 : Memref sig .tc .vmem S1x10 .f32) (harg2 : arg2.IsWhole)
    (arg3 : Memref sig .tc .vmem S1x10 .f32) (harg3 : arg3.IsWhole) (arg4 : Memref sig .tc .vmem S1x10 .f32) (harg4 : arg4.IsWhole)
    (arg5 : Memref sig .tc .vmem S1x10 .f32) (harg5 : arg5.IsWhole) (arg6 : Memref sig .tc .vmem S512x10 .f32) (harg6 : arg6.IsWhole)
    (x0 : Vec F S512x10 .f32) (x1 x2 x3 x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__finalize_kernel i arg1 harg1 arg2 harg2 arg3 harg3 arg4 harg4 arg5 harg5 arg6 harg6) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Run.lean ====
import proofs.«121665_j13159779795462_2_alg».proof.Proof.Gen.KernelIdeal.Launch
import proofs.«121665_j13159779795462_2_alg».proof.Proof.Gen.KernelIdeal.Skeleton
import proofs.«121665_j13159779795462_2_alg».proof.Proof.Gen.KernelIdeal.Points
import proofs.«121665_j13159779795462_2_alg».proof.Proof.KI.Prefix
import proofs.«121665_j13159779795462_2_alg».proof.Proof.KI.Region0
import proofs.«121665_j13159779795462_2_alg».proof.Proof.KI.Region1
import proofs.«121665_j13159779795462_2_alg».proof.Proof.KI.Region2
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run: the host prefix, then the three regions one after the other

The buffer contents at each boundary are a fold from the launch memory: the host operations' results, then each
region's arrays at what its write-backs leave (every other buffer as it was).  The run ends with every unscoped
buffer at the last fold; the arguments walk back through the fold to the launch memory, and the result buffer is
the last region's output array. -/

variable (m : (ℓ : Loc nD τ sig) → Buf (Elt F) ℓ) (ρ : Dev nD → PrngReg)

/-- At region 0's exit: its arrays at what the pipeline leaves, every other buffer as entered. -/
def Wc2 (c : Dev nD) : Valuation τ sig (Elt F) :=
  Pipeline.withArrays spec0 c (Wc1 m ρ c) fun w => (dat0 (Vr1 m ρ) c).arrAt w cfg0.N
theorem Wc2_arr (c : Dev nD) (w : Fin cfg0.W) :
    Wc2 m ρ c (Proc.devRef .tc (Pipeline.arrRef spec0 w)) = (dat0 (Vr1 m ρ) c).arrAt w cfg0.N := by
  unfold Wc2; exact Pipeline.withArrays_arr spec0 launch0.win.arr_inj c _ _ w
theorem Wc2_of_ne (c : Dev nD) (b : Ref sig .tc) (hb : ∀ w, Pipeline.arrRef spec0 w ≠ b) :
    Wc2 m ρ c (Proc.devRef .tc b) = Wc1 m ρ c (Proc.devRef .tc b) := by
  unfold Wc2; exact Pipeline.withArrays_of_ne spec0 c _ _ b hb
abbrev Vr2 : (c : Dev nD) → (b : Ref sig .tc) → Buf (Elt F) ((c : Thread nD τ).loc b) := fun c b => Wc2 m ρ c b
theorem hF0 (c : Dev nD) (w : Fin cfg0.W) : (dat0 (Vr1 m ρ) c).arrAt w cfg0.N = Vr2 m ρ c (Pipeline.arrRef spec0 w) :=
  (Wc2_arr m ρ c w).symm
theorem hrest0 (c : Dev nD) : ∀ b, b ∉ Finset.univ.image (Pipeline.arrRef spec0) → Vr2 m ρ c b = Vr1 m ρ c b :=
  fun b hb => Wc2_of_ne m ρ c b fun w e => hb (Finset.mem_image.mpr ⟨w, Finset.mem_univ _, e⟩)

/-- At region 1's exit: its arrays at what the pipeline leaves, every other buffer as entered. -/
def Wc3 (c : Dev nD) : Valuation τ sig (Elt F) :=
  Pipeline.withArrays spec1 c (Wc2 m ρ c) fun w => (dat1 (Vr2 m ρ) c).arrAt w cfg1.N
theorem Wc3_arr (c : Dev nD) (w : Fin cfg1.W) :
    Wc3 m ρ c (Proc.devRef .tc (Pipeline.arrRef spec1 w)) = (dat1 (Vr2 m ρ) c).arrAt w cfg1.N := by
  unfold Wc3; exact Pipeline.withArrays_arr spec1 launch1.win.arr_inj c _ _ w
theorem Wc3_of_ne (c : Dev nD) (b : Ref sig .tc) (hb : ∀ w, Pipeline.arrRef spec1 w ≠ b) :
    Wc3 m ρ c (Proc.devRef .tc b) = Wc2 m ρ c (Proc.devRef .tc b) := by
  unfold Wc3; exact Pipeline.withArrays_of_ne spec1 c _ _ b hb
abbrev Vr3 : (c : Dev nD) → (b : Ref sig .tc) → Buf (Elt F) ((c : Thread nD τ).loc b) := fun c b => Wc3 m ρ c b
theorem hF1 (c : Dev nD) (w : Fin cfg1.W) : (dat1 (Vr2 m ρ) c).arrAt w cfg1.N = Vr3 m ρ c (Pipeline.arrRef spec1 w) :=
  (Wc3_arr m ρ c w).symm
theorem hrest1 (c : Dev nD) : ∀ b, b ∉ Finset.univ.image (Pipeline.arrRef spec1) → Vr3 m ρ c b = Vr2 m ρ c b :=
  fun b hb => Wc3_of_ne m ρ c b fun w e => hb (Finset.mem_image.mpr ⟨w, Finset.mem_univ _, e⟩)

/-- At region 2's exit: its arrays at what the pipeline leaves, every other buffer as entered. -/
def Wc4 (c : Dev nD) : Valuation τ sig (Elt F) :=
  Pipeline.withArrays spec2 c (Wc3 m ρ c) fun w => (dat2 (Vr3 m ρ) c).arrAt w cfg2.N
theorem Wc4_arr (c : Dev nD) (w : Fin cfg2.W) :
    Wc4 m ρ c (Proc.devRef .tc (Pipeline.arrRef spec2 w)) = (dat2 (Vr3 m ρ) c).arrAt w cfg2.N := by
  unfold Wc4; exact Pipeline.withArrays_arr spec2 launch2.win.arr_inj c _ _ w
theorem Wc4_of_ne (c : Dev nD) (b : Ref sig .tc) (hb : ∀ w, Pipeline.arrRef spec2 w ≠ b) :
    Wc4 m ρ c (Proc.devRef .tc b) = Wc3 m ρ c (Proc.devRef .tc b) := by
  unfold Wc4; exact Pipeline.withArrays_of_ne spec2 c _ _ b hb
abbrev Vr4 : (c : Dev nD) → (b : Ref sig .tc) → Buf (Elt F) ((c : Thread nD τ).loc b) := fun c b => Wc4 m ρ c b
theorem hF2 (c : Dev nD) (w : Fin cfg2.W) : (dat2 (Vr3 m ρ) c).arrAt w cfg2.N = Vr4 m ρ c (Pipeline.arrRef spec2 w) :=
  (Wc4_arr m ρ c w).symm
theorem hrest2 (c : Dev nD) : ∀ b, b ∉ Finset.univ.image (Pipeline.arrRef spec2) → Vr4 m ρ c b = Vr3 m ρ c b :=
  fun b hb => Wc4_of_ne m ρ c b fun w e => hb (Finset.mem_image.mpr ⟨w, Finset.mem_univ _, e⟩)

/-! ### The arguments end as launched -/

theorem Wc4_main_arg0 (c : Dev nD) : Wc4 m ρ c (Proc.devRef .tc main_arg0) = m ((c : Thread nD τ).loc main_arg0) :=
  calc Wc4 m ρ c (Proc.devRef .tc main_arg0)
    _ = Wc3 m ρ c (Proc.devRef .tc main_arg0) := Wc4_of_ne m ρ c main_arg0 (by decide)
    _ = Wc2 m ρ c (Proc.devRef .tc main_arg0) := (Wc3_arr m ρ c 0).trans (((dat1 (Vr2 m ρ) c).arrAt_in 0 rfl _).trans (A_eq1 (Vr2 m ρ) c 0))
    _ = Wc1 m ρ c (Proc.devRef .tc main_arg0) := (Wc2_arr m ρ c 0).trans (((dat0 (Vr1 m ρ) c).arrAt_in 0 rfl _).trans (A_eq0 (Vr1 m ρ) c 0))
    _ = Wc0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wc4_main_arg1 (c : Dev nD) : Wc4 m ρ c (Proc.devRef .tc main_arg1) = m ((c : Thread nD τ).loc main_arg1) :=
  calc Wc4 m ρ c (Proc.devRef .tc main_arg1)
    _ = Wc3 m ρ c (Proc.devRef .tc main_arg1) := Wc4_of_ne m ρ c main_arg1 (by decide)
    _ = Wc2 m ρ c (Proc.devRef .tc main_arg1) := Wc3_of_ne m ρ c main_arg1 (by decide)
    _ = Wc1 m ρ c (Proc.devRef .tc main_arg1) := Wc2_of_ne m ρ c main_arg1 (by decide)
    _ = Wc0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wc4_main_arg2 (c : Dev nD) : Wc4 m ρ c (Proc.devRef .tc main_arg2) = m ((c : Thread nD τ).loc main_arg2) :=
  calc Wc4 m ρ c (Proc.devRef .tc main_arg2)
    _ = Wc3 m ρ c (Proc.devRef .tc main_arg2) := Wc4_of_ne m ρ c main_arg2 (by decide)
    _ = Wc2 m ρ c (Proc.devRef .tc main_arg2) := Wc3_of_ne m ρ c main_arg2 (by decide)
    _ = Wc1 m ρ c (Proc.devRef .tc main_arg2) := Wc2_of_ne m ρ c main_arg2 (by decide)
    _ = Wc0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wc4_main_arg3 (c : Dev nD) : Wc4 m ρ c (Proc.devRef .tc main_arg3) = m ((c : Thread nD τ).loc main_arg3) :=
  calc Wc4 m ρ c (Proc.devRef .tc main_arg3)
    _ = Wc3 m ρ c (Proc.devRef .tc main_arg3) := Wc4_of_ne m ρ c main_arg3 (by decide)
    _ = Wc2 m ρ c (Proc.devRef .tc main_arg3) := Wc3_of_ne m ρ c main_arg3 (by decide)
    _ = Wc1 m ρ c (Proc.devRef .tc main_arg3) := Wc2_of_ne m ρ c main_arg3 (by decide)
    _ = Wc0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wc4_main_arg4 (c : Dev nD) : Wc4 m ρ c (Proc.devRef .tc main_arg4) = m ((c : Thread nD τ).loc main_arg4) :=
  calc Wc4 m ρ c (Proc.devRef .tc main_arg4)
    _ = Wc3 m ρ c (Proc.devRef .tc main_arg4) := Wc4_of_ne m ρ c main_arg4 (by decide)
    _ = Wc2 m ρ c (Proc.devRef .tc main_arg4) := Wc3_of_ne m ρ c main_arg4 (by decide)
    _ = Wc1 m ρ c (Proc.devRef .tc main_arg4) := Wc2_of_ne m ρ c main_arg4 (by decide)
    _ = Wc0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wc4_main_arg5 (c : Dev nD) : Wc4 m ρ c (Proc.devRef .tc main_arg5) = m ((c : Thread nD τ).loc main_arg5) :=
  calc Wc4 m ρ c (Proc.devRef .tc main_arg5)
    _ = Wc3 m ρ c (Proc.devRef .tc main_arg5) := Wc4_of_ne m ρ c main_arg5 (by decide)
    _ = Wc2 m ρ c (Proc.devRef .tc main_arg5) := Wc3_of_ne m ρ c main_arg5 (by decide)
    _ = Wc1 m ρ c (Proc.devRef .tc main_arg5) := Wc2_of_ne m ρ c main_arg5 (by decide)
    _ = Wc0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem Wc4_main_arg6 (c : Dev nD) : Wc4 m ρ c (Proc.devRef .tc main_arg6) = m ((c : Thread nD τ).loc main_arg6) :=
  calc Wc4 m ρ c (Proc.devRef .tc main_arg6)
    _ = Wc3 m ρ c (Proc.devRef .tc main_arg6) := Wc4_of_ne m ρ c main_arg6 (by decide)
    _ = Wc2 m ρ c (Proc.devRef .tc main_arg6) := Wc3_of_ne m ρ c main_arg6 (by decide)
    _ = Wc1 m ρ c (Proc.devRef .tc main_arg6) := Wc2_of_ne m ρ c main_arg6 (by decide)
    _ = Wc0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem Wc4_main_arg7 (c : Dev nD) : Wc4 m ρ c (Proc.devRef .tc main_arg7) = m ((c : Thread nD τ).loc main_arg7) :=
  calc Wc4 m ρ c (Proc.devRef .tc main_arg7)
    _ = Wc3 m ρ c (Proc.devRef .tc main_arg7) := Wc4_of_ne m ρ c main_arg7 (by decide)
    _ = Wc2 m ρ c (Proc.devRef .tc main_arg7) := Wc3_of_ne m ρ c main_arg7 (by decide)
    _ = Wc1 m ρ c (Proc.devRef .tc main_arg7) := Wc2_of_ne m ρ c main_arg7 (by decide)
    _ = Wc0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem Wc4_main_arg8 (c : Dev nD) : Wc4 m ρ c (Proc.devRef .tc main_arg8) = m ((c : Thread nD τ).loc main_arg8) :=
  calc Wc4 m ρ c (Proc.devRef .tc main_arg8)
    _ = Wc3 m ρ c (Proc.devRef .tc main_arg8) := Wc4_of_ne m ρ c main_arg8 (by decide)
    _ = Wc2 m ρ c (Proc.devRef .tc main_arg8) := Wc3_of_ne m ρ c main_arg8 (by decide)
    _ = Wc1 m ρ c (Proc.devRef .tc main_arg8) := Wc2_of_ne m ρ c main_arg8 (by decide)
    _ = Wc0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result buffer ends at the last region's output array. -/
theorem Wc4_main_v14 (c : Dev nD) : Wc4 m ρ c (Proc.devRef .tc main_v14) = (dat2 (Vr3 m ρ) c).arrAt 5 cfg2.N :=
  Wc4_arr m ρ c 5

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr3 m ρ) c
abbrev 𝒱H : Variants := Variants.none
abbrev LH : GSem nD τ sig → Finset Unit := fun _ => ∅
abbrev lvH : GSem nD τ sig → Unit → ℕ := fun _ _ => 0
/-- What rides beside the buffers: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wc4 m ρ c) ∗ ∃ r, prngReg c r)

/-- Region 2 keeps the class's invariant throughout. -/
theorem hin2 (V : (c : Dev nD) → (b : Ref sig .tc) → Buf (Elt F) ((c : Thread nD τ).loc b)) (c : Dev nD) : Pipeline.ΦA spec2 c ⊢ (dat2 V c).Φ 0 := by
  rw [show (dat2 V c).Φ 0 = Pipeline.ΦA spec2 c from rfl]
theorem hout2 (V : (c : Dev nD) → (b : Ref sig .tc) → Buf (Elt F) ((c : Thread nD τ).loc b)) (c : Dev nD) : (dat2 V c).Φ (Fin.last cfg2.N) ⊢ Pipeline.ΦA spec2 c := by
  rw [show (dat2 V c).Φ (Fin.last cfg2.N) = Pipeline.ΦA spec2 c from rfl]

/-! ## The regions as segments -/

set_option backward.isDefEq.respectTransparency.types false in
/-- Region 0 over the thread state: entered with every unscoped buffer at `Wc1`, left with them at `Wc2`. Its
    arrays are split out of the unscoped buffers and put back at their exit contents; the generator register and the
    scoped rest go into the region's invariant and come back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ LH lvH 0 fun _ _ => rfl
  pre c := iprop(StableHlo.held (c : Thread nD τ) (Pipeline.ucRefs τ sig) (Wc1 m ρ c) ∗ RH c)
  post c := iprop(StableHlo.held (c : Thread nD τ) (Pipeline.ucRefs τ sig) (Wc2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdatsH m ρ 0 c).Φ 0 := hin0 (Vr1 m ρ) c
    unfold Pipeline.ΦA at h
    iintro ⟨Hp, -, Hr⟩
    iapply h
    isplitl [Hr]; · iexact Hr
    iexact Hp
  hout c := by
    rw [Pipeline.ownSems0_none]
    have h : (pdatsH m ρ 0 c).Φ (Fin.last _) ⊢ Pipeline.ΦA spec0 c := hout0 (Vr1 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vr1 m ρ c) (Vr2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc2`, left with them at `Wc3`. Its
    arrays are split out of the unscoped buffers and put back at their exit contents; the generator register and the
    scoped rest go into the region's invariant and come back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ LH lvH 1 fun _ _ => rfl
  pre c := iprop(StableHlo.held (c : Thread nD τ) (Pipeline.ucRefs τ sig) (Wc2 m ρ c) ∗ RH c)
  post c := iprop(StableHlo.held (c : Thread nD τ) (Pipeline.ucRefs τ sig) (Wc3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdatsH m ρ 1 c).Φ 0 := hin1 (Vr2 m ρ) c
    unfold Pipeline.ΦA at h
    iintro ⟨Hp, -, Hr⟩
    iapply h
    isplitl [Hr]; · iexact Hr
    iexact Hp
  hout c := by
    rw [Pipeline.ownSems0_none]
    have h : (pdatsH m ρ 1 c).Φ (Fin.last _) ⊢ Pipeline.ΦA spec1 c := hout1 (Vr2 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vr2 m ρ c) (Vr3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wc3`, left with them at `Wc4`. Its
    arrays are split out of the unscoped buffers and put back at their exit contents; the generator register and the
    scoped rest go into the region's invariant and come back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ LH lvH 2 fun _ _ => rfl
  pre c := iprop(StableHlo.held (c : Thread nD τ) (Pipeline.ucRefs τ sig) (Wc3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdatsH m ρ 2 c).Φ 0 := hin2 (Vr3 m ρ) c
    unfold Pipeline.ΦA at h
    iintro ⟨Hp, -, Hr⟩
    iapply h
    isplitl [Hr]; · iexact Hr
    iexact Hp
  hout c := by
    rw [Pipeline.ownSems0_none]
    have h : (pdatsH m ρ 2 c).Φ (Fin.last _) ⊢ Pipeline.ΦA spec2 c := hout2 (Vr3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vr3 m ρ c) (Vr4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_freshH (Wc0 m ρ)),
    .region (reg0 m ρ),
    .region (reg1 m ρ),
    .region (reg2 m ρ) ]
theorem main_runH (c : Dev nD) : main (F := F) c = Pipeline.Seg.run (segsH m ρ) := (main_chain c).trans (by chain_rfl)

set_option backward.isDefEq.respectTransparency.types false in
/-- Every weakly fair run of the program from memory `m` terminates without a fault; at the end the result buffer
    holds the last region's output array and every argument what it held at launch. -/
theorem run_value : θ_run defs (onTc (τ := τ) (main (F := F))) ⟨m, fun _ => 0, ρ⟩ (fun r => ∀ c : Dev nD,
      r.2.mem ((c.tc : Thread nD τ).loc main_v14) = (dat2 (Vr3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wc0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wc0 m ρ c)
        from Pipeline.unscopedBufs_held c (Wc0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc4 m ρ c) s')
      isplitl [Hh] <;> iassumption)
    (hQ := fun s h c =>
      ⟨(h c _ (mem_ucH main_v14 (by decide))).trans (Wc4_main_v14 m ρ c),
       (h c _ (mem_ucH main_arg0 (by decide))).trans (Wc4_main_arg0 m ρ c),
       (h c _ (mem_ucH main_arg1 (by decide))).trans (Wc4_main_arg1 m ρ c),
       (h c _ (mem_ucH main_arg2 (by decide))).trans (Wc4_main_arg2 m ρ c),
       (h c _ (mem_ucH main_arg3 (by decide))).trans (Wc4_main_arg3 m ρ c),
       (h c _ (mem_ucH main_arg4 (by decide))).trans (Wc4_main_arg4 m ρ c),
       (h c _ (mem_ucH main_arg5 (by decide))).trans (Wc4_main_arg5 m ρ c),
       (h c _ (mem_ucH main_arg6 (by decide))).trans (Wc4_main_arg6 m ρ c),
       (h c _ (mem_ucH main_arg7 (by decide))).trans (Wc4_main_arg7 m ρ c),
       (h c _ (mem_ucH main_arg8 (by decide))).trans (Wc4_main_arg8 m ρ c)⟩)

/-- The frame: the program runs to the end and its arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.KernelIdeal.H

end
-- ==== Proof.K.Prefix.lean ====
import proofs.«121665_j13159779795462_2_alg».proof.Proof.Gen.Kernel.Launch
import Idealize.ShloMosaic.Lib.Pipeline.Kit
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Kernel.H

open Cert.Kernel Cert.Kernel.Gen
open Idealize.ShloMosaic Idealize.ShloMosaic.TcCoe Idealize.SL.Sem Idealize.ShloMosaic.ValueIdx

/-! # The buffer contents when the first region is entered: the launch memory after the host prefix

The prefix takes the signs of the two weight matrices, transposes them (and narrows their format, which changes
nothing on the extended reals), and reshapes the six parameter vectors to one-row matrices. -/

section
variable {F : FTy → Type} [BitOps F]
variable (m : (ℓ : Loc nD τ sig) → Buf (Elt F) ℓ) (ρ : Dev nD → PrngReg)

/-- Core `c`'s buffers at launch. -/
abbrev Wc0 : Dev nD → Valuation τ sig (Elt F) := fun c b => (s₀ m ρ).mem ((c : Dev nD), b)
/-- After the host prefix (region 0's entry). -/
abbrev Wc1 : Dev nD → Valuation τ sig (Elt F) := fun c => StableHlo.after hostOps0 (Wc0 m ρ c)
abbrev Vr1 : (c : Dev nD) → (b : Ref sig .tc) → Buf (Elt F) ((c : Thread nD τ).loc b) := fun c b => Wc1 m ρ c b
end

end Cert.Kernel.H

end
-- ==== Proof.K.Region0Runs.lean ====
import proofs.«121665_j13159779795462_2_alg».proof.Proof.Gen.Kernel.Launch
import proofs.«121665_j13159779795462_2_alg».proof.Proof.Gen.Kernel.Skeleton
import proofs.«121665_j13159779795462_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Region 0 (the first pass over the batch: column sums and sums of squares)

The body branches twice on the grid position: at the first block it zeroes its two carried rows, at the last block
it turns them into the mean and the variance and stores those.  Both conditions are decided over the 64 points. -/

/-- "This is the first block." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- "This is the last block." -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! The inputs are never idle; the two outputs are idle, and not written back, except at the last block. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- A staging buffer of each output window, through which its contents are stated. -/
abbrev VO0_3 : View sig .tc .vmem S1x3000 .f32 := (Memref.whole cc0_stg3_0 : Memref sig .tc .vmem S1x3000 .f32).view
abbrev VO0_4 : View sig .tc .vmem S1x3000 .f32 := (Memref.whole cc0_stg4_0 : Memref sig .tc .vmem S1x3000 .f32).view
/-- Each window's current staging memref at point `t`, and its wholeness. -/
abbrev ms0_0 (t : Fin cfg0.N) : Memref sig .tc .vmem S512x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S784x3000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3000 .f32 := win0_4.stage (cfg0.slots t 4)
abbrev hs0_4 (t : Fin cfg0.N) : (ms0_4 t).IsWhole := hstage0_4 ((cfg0.slots t 4).cast nbuf0_4)
/-- The two carried rows: the running column sums and sums of squares. -/
abbrev scM0_0 : Memref sig .tc .vmem S1x3000 .f32 := Memref.whole cc0_scratch0
abbrev scM0_1 : Memref sig .tc .vmem S1x3000 .f32 := Memref.whole cc0_scratch1
abbrev VS0_0 : View sig .tc .vmem S1x3000 .f32 := scM0_0.view
abbrev VS0_1 : View sig .tc .vmem S1x3000 .f32 := scM0_1.view

/-- The class invariant with the two carried rows named: each owned at some contents, beside the rest of the scoped
    buffers (unopened) and the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case -/

set_option maxHeartbeats 4000000 in
/-- Case A, the first block: the carried rows are zeroed, then this block's column sums are added. -/
noncomputable def kernelRun0_A (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) :
    Σ' (LS0 : List (View.Piece (Elt F) S1x3000 .f32)), { LS1 : List (View.Piece (Elt F) S1x3000 .f32) //
      ∀ (xi4 xi5 : Vec F S1x3000 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi4 ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, fun xi4 xi5 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf4; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg4.read_unread _
      iexact H4
    isplitl [H5]
    · iexists _; isplitr; · ipureintro; exact harg5.read_unread _
      iexact H5
    isplitl [HS0]
    · iexists _; iexact HS0
    iexists _; iexact HS1

set_option maxHeartbeats 4000000 in
/-- Case B, a middle block: this block's column sums are added to the carried rows. -/
noncomputable def kernelRun0_B (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 : Vec F S1x3000 .f32) (xs1 : Vec F S1x3000 .f32) :
    Σ' (LS0 : List (View.Piece (Elt F) S1x3000 .f32)), { LS1 : List (View.Piece (Elt F) S1x3000 .f32) //
      ∀ (xi4 xi5 : Vec F S1x3000 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi4 ∗ owns (c : Thread nD τ) arg5 fullShare xi5
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, fun xi4 xi5 E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg4.read_unread _
      iexact H4
    isplitl [H5]
    · iexists _; isplitr; · ipureintro; exact harg5.read_unread _
      iexact H5
    isplitl [HS0]
    · iexists _; iexact HS0
    iexists _; iexact HS1

set_option maxHeartbeats 4000000 in
/-- Case C, the last block: the sums are completed, and the mean and the variance are stored into the outputs. -/
noncomputable def kernelRun0_C (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 : Vec F S1x3000 .f32) (xs1 : Vec F S1x3000 .f32) :
    Σ' (L3 : List (View.Piece (Elt F) S1x3000 .f32)) (L4 : List (View.Piece (Elt F) S1x3000 .f32)) (LS0 : List (View.Piece (Elt F) S1x3000 .f32)), { LS1 : List (View.Piece (Elt F) S1x3000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7) K } := by
  refine ⟨?_, ?_, ?_, ?_, fun E K => ?run⟩
  case run =>
    simp only [cc0__stats1_kernel_eq_skeleton]; unfold cc0__stats1_kernel_skel
    unfold owns
    iintro ⟨⟨%f0, %hf0, H0⟩, ⟨%f1, %hf1, H1⟩, ⟨%f2, %hf2, H2⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    isplitl [H5]
    · iexists _; iexact H5
    isplitl [HS0]
    · iexists _; iexact HS0
    iexists _; iexact HS1

end Cert.Kernel.H

end
-- ==== Proof.K.Region0.lean ====
import proofs.«121665_j13159779795462_2_alg».proof.Proof.Gen.Kernel.Launch
import proofs.«121665_j13159779795462_2_alg».proof.Proof.Gen.Kernel.Skeleton
import proofs.«121665_j13159779795462_2_alg».proof.Proof.Gen.Kernel.Points
import proofs.«121665_j13159779795462_2_alg».proof.Proof.K.Region0Runs
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 0: what the carried rows and the outputs hold after each block, and the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pieces each case leaves cover the row they are stored into -/

theorem scover0_A_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) (y : S1x3000.Idx) :
    ∃ pc ∈ (kernelRun0_A c i arg1 harg1 arg2 harg2 arg3 harg3 arg4 harg4 arg5 harg5 arg6 harg6 arg7 harg7 hc0 hc1 x0 x1 x2).1, y ∈ pc.1.set :=
  View.cover_of_tiledL _ S1x3000.size (by sl_kernel_rfl) y
theorem scover0_A_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) (y : S1x3000.Idx) :
    ∃ pc ∈ (kernelRun0_A c i arg1 harg1 arg2 harg2 arg3 harg3 arg4 harg4 arg5 harg5 arg6 harg6 arg7 harg7 hc0 hc1 x0 x1 x2).2.1, y ∈ pc.1.set :=
  View.cover_of_tiledL _ S1x3000.size (by sl_kernel_rfl) y
theorem scover0_B_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_B c i arg1 harg1 arg2 harg2 arg3 harg3 arg4 harg4 arg5 harg5 arg6 harg6 arg7 harg7 hc0 hc1 x0 x1 x2 xs0 xs1).1, y ∈ pc.1.set :=
  View.cover_of_tiledL _ S1x3000.size (by sl_kernel_rfl) y
theorem scover0_B_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_B c i arg1 harg1 arg2 harg2 arg3 harg3 arg4 harg4 arg5 harg5 arg6 harg6 arg7 harg7 hc0 hc1 x0 x1 x2 xs0 xs1).2.1, y ∈ pc.1.set :=
  View.cover_of_tiledL _ S1x3000.size (by sl_kernel_rfl) y
theorem cover0_C_3 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).1, y ∈ pc.1.set :=
  View.cover_of_tiledL _ S1x3000.size (by sl_kernel_rfl) y
theorem cover0_C_4 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.1, y ∈ pc.1.set :=
  View.cover_of_tiledL _ S1x3000.size (by sl_kernel_rfl) y
theorem scover0_C_0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.2.1, y ∈ pc.1.set :=
  View.cover_of_tiledL _ S1x3000.size (by sl_kernel_rfl) y
theorem scover0_C_1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) (y : S1x3000.Idx) :
    ∃ pc ∈ (kernelRun0_C c i arg1 harg1 arg2 harg2 arg3 harg3 arg4 harg4 arg5 harg5 arg6 harg6 arg7 harg7 hc0 hc1 x0 x1 x2 xs0 xs1).2.2.2.1, y ∈ pc.1.set :=
  View.cover_of_tiledL _ S1x3000.size (by sl_kernel_rfl) y

/-! ## Each case's run at a grid point -/

/-- The first block's run at point `t`. -/
abbrev runA0 (c : Dev nD) (t : Fin cfg0.N) (h0 : t.val % 64 = 0) (h1 : ¬t.val % 64 = 63) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
/-- A middle block's run at point `t`, over what the carried rows held before it. -/
abbrev runB0 (c : Dev nD) (t : Fin cfg0.N) (h0 : ¬t.val % 64 = 0) (h1 : ¬t.val % 64 = 63) (xs0 xs1 : Vec F S1x3000 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
/-- The last block's run at point `t`. -/
abbrev runC0 (c : Dev nD) (t : Fin cfg0.N) (h0 : ¬t.val % 64 = 0) (h1 : t.val % 64 = 63) (xs0 xs1 : Vec F S1x3000 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1

/-- A list of whole-row pieces read back over unspecified contents, through a view of the row's shape. -/
abbrev readBack (v : View sig .tc .vmem S1x3000 .f32) (L : List (View.Piece (Elt F) S1x3000 .f32)) : Vec F S1x3000 .f32 :=
  v.read (Elt F) (v.writes (Elt F) v.junk L)

/-- What an idle output is said to hold (nothing consults it: the window is neither written back nor read there). -/
abbrev idleRow0 : Vec F S1x3000 .f32 := readBack (F := F) VO0_3 []

/-! ## What the outputs and the carried rows hold after each block -/

/-- After block `n`: (output 3, output 4, the running column sums, the running sums of squares). The first block
    starts the carried rows afresh; every later block continues from what the block before left; the last block also
    fills the outputs. -/
def outsAt0 (c : Dev nD) : (n : ℕ) → n < cfg0.N → Vec F S1x3000 .f32 × Vec F S1x3000 .f32 × Vec F S1x3000 .f32 × Vec F S1x3000 .f32
  | 0, hn => (idleRow0, idleRow0,
      readBack VS0_0 (runA0 V c ⟨0, hn⟩ (Nat.zero_mod _) (by show ¬(0 : ℕ) % 64 = 63; decide)).1,
      readBack VS0_1 (runA0 V c ⟨0, hn⟩ (Nat.zero_mod _) (by show ¬(0 : ℕ) % 64 = 63; decide)).2.1)
  | n + 1, hn =>
    have hN : n + 1 < 64 := lt_of_lt_of_eq hn (show cfg0.N = 64 from N_0)
    have h0 : ¬(n + 1) % 64 = 0 := by omega
    if h1 : (n + 1) % 64 = 63 then
      (readBack VO0_3 (runC0 V c ⟨n + 1, hn⟩ h0 h1 (outsAt0 c n (Nat.lt_of_succ_lt hn)).2.2.1 (outsAt0 c n (Nat.lt_of_succ_lt hn)).2.2.2).1,
       readBack VO0_4 (runC0 V c ⟨n + 1, hn⟩ h0 h1 (outsAt0 c n (Nat.lt_of_succ_lt hn)).2.2.1 (outsAt0 c n (Nat.lt_of_succ_lt hn)).2.2.2).2.1,
       readBack VS0_0 (runC0 V c ⟨n + 1, hn⟩ h0 h1 (outsAt0 c n (Nat.lt_of_succ_lt hn)).2.2.1 (outsAt0 c n (Nat.lt_of_succ_lt hn)).2.2.2).2.2.1,
       readBack VS0_1 (runC0 V c ⟨n + 1, hn⟩ h0 h1 (outsAt0 c n (Nat.lt_of_succ_lt hn)).2.2.1 (outsAt0 c n (Nat.lt_of_succ_lt hn)).2.2.2).2.2.2.1)
    else
      (idleRow0, idleRow0,
       readBack VS0_0 (runB0 V c ⟨n + 1, hn⟩ h0 h1 (outsAt0 c n (Nat.lt_of_succ_lt hn)).2.2.1 (outsAt0 c n (Nat.lt_of_succ_lt hn)).2.2.2).1,
       readBack VS0_1 (runB0 V c ⟨n + 1, hn⟩ h0 h1 (outsAt0 c n (Nat.lt_of_succ_lt hn)).2.2.1 (outsAt0 c n (Nat.lt_of_succ_lt hn)).2.2.2).2.1)

/-- What the carried rows held before point `t` (for `t` past the first). -/
abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 64 = 0) (h1 : ¬t.val % 64 = 63) :
    outsAt0 V c t.val t.isLt = (idleRow0, idleRow0, readBack VS0_0 (runA0 V c t h0 h1).1, readBack VS0_1 (runA0 V c t h0 h1).2.1) := by
  obtain ⟨n, hn⟩ := t
  have hN : n < 64 := lt_of_lt_of_eq hn (show cfg0.N = 64 from N_0)
  cases n with
  | zero => rfl
  | succ n => exfalso; dsimp only at h0; omega

theorem outsAt0_B (c : Dev nD) (t : Fin cfg0.N) (h0 : ¬t.val % 64 = 0) (h1 : ¬t.val % 64 = 63) :
    outsAt0 V c t.val t.isLt = (idleRow0, idleRow0,
      readBack VS0_0 (runB0 V c t h0 h1 (prev0 V c t).2.2.1 (prev0 V c t).2.2.2).1,
      readBack VS0_1 (runB0 V c t h0 h1 (prev0 V c t).2.2.1 (prev0 V c t).2.2.2).2.1) := by
  obtain ⟨n, hn⟩ := t
  cases n with
  | zero => exact absurd (Nat.zero_mod _) h0
  | succ n => exact (dif_neg h1).trans rfl

theorem outsAt0_C (c : Dev nD) (t : Fin cfg0.N) (h0 : ¬t.val % 64 = 0) (h1 : t.val % 64 = 63) :
    outsAt0 V c t.val t.isLt = (
      readBack VO0_3 (runC0 V c t h0 h1 (prev0 V c t).2.2.1 (prev0 V c t).2.2.2).1,
      readBack VO0_4 (runC0 V c t h0 h1 (prev0 V c t).2.2.1 (prev0 V c t).2.2.2).2.1,
      readBack VS0_0 (runC0 V c t h0 h1 (prev0 V c t).2.2.1 (prev0 V c t).2.2.2).2.2.1,
      readBack VS0_1 (runC0 V c t h0 h1 (prev0 V c t).2.2.1 (prev0 V c t).2.2.2).2.2.2.1) := by
  obtain ⟨n, hn⟩ := t
  cases n with
  | zero => exact absurd (Nat.zero_mod _) h0
  | succ n => exact (dif_pos h1).trans rfl

/-! ## The region invariant with the carried rows named -/

/-- Before block `n`: at the start the class's invariant (the carried rows at anything); afterwards the carried rows
    at what the block before left, the rest of the scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- Region 0's proof data on core `c`: the arrays as the region finds them; after block `t` each input's buffer at
    its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any block: the inputs' buffers hold their blocks; which case the block is in is decided by its
    number; the carried rows come in at what the block before left (at anything at the first block) and go out at
    this block's contents; an output the case does not store into is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h1 : t.val % 64 = 63
  · have h0 : ¬t.val % 64 = 0 := by omega
    have hz : t.val ≠ 0 := by omega
    rw [show (dat0 V c).leavesExact 3 t = owns (c : Thread nD τ) (ms0_3 t) fullShare ((dat0 V c).after 3 t) from by
        unfold Dat.leavesExact; rw [liveAt0_3 t ((hcond0_1 t).mpr h1)], after0_3]
    rw [show (dat0 V c).leavesExact 4 t = owns (c : Thread nD τ) (ms0_4 t) fullShare ((dat0 V c).after 4 t) from by
        unfold Dat.leavesExact; rw [liveAt0_4 t ((hcond0_1 t).mpr h1)], after0_4]
    rw [outsAt0_C V c t h0 h1]
    (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runC0 V c t h0 h1 _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 64 = 0
    · have hz : t.val = 0 := by omega
      rw [outsAt0_A V c t h0 h1]
      (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runA0 V c t h0 h1).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · have hz : t.val ≠ 0 := by omega
      rw [outsAt0_B V c t h0 h1]
      (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runB0 V c t h0 h1 _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any block the invariant gives the class's back: what the carried rows hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.H

end
-- ==== Proof.K.Region1Runs.lean ====
import proofs.«121665_j13159779795462_2_alg».proof.Proof.Gen.Kernel.Launch
import proofs.«121665_j13159779795462_2_alg».proof.Proof.Gen.Kernel.Skeleton
import proofs.«121665_j13159779795462_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 1 (the second pallas_call): what its three control cases share

The body runs on a 64-point grid. Windows 0–8 are inputs (window 0, the batch block, moves with the point; the other
eight are constant blocks), window 9 is an output stored at every point, windows 10 and 11 are outputs stored at the
last point only, and two scratch rows carry the running column sums and sums of squares from point to point. -/

section Entry
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: where it is not
    fetched its block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, in closed form over the grid -/

/-- The first conditional (the reset of the two running sums): its condition from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional (the division by the batch size and the two stores of the moments): its condition. -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point nothing is stored into output 10 and its block is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point output 10 is stored. -/
theorem liveAt1_10_C : ∀ t : Fin cfg1.N, cond1_1 (grid1.coords t) → cfg1.idle 10 (grid1.coords t) = false := by decide +kernel
/-- Away from the last point nothing is stored into output 11 and its block is not written back. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point output 11 is stored. -/
theorem liveAt1_11_C : ∀ t : Fin cfg1.N, cond1_1 (grid1.coords t) → cfg1.idle 11 (grid1.coords t) = false := by decide +kernel

/-! ## The memrefs the body is called with -/

/-- One staging buffer of each output window, through which its contents are stated (any choice reads the same). -/
abbrev VO1_9 : View sig .tc .vmem S512x10 .f32 := (Memref.whole cc1_stg9_0 : Memref sig .tc .vmem S512x10 .f32).view
abbrev VO1_10 : View sig .tc .vmem S1x10 .f32 := (Memref.whole cc1_stg10_0 : Memref sig .tc .vmem S1x10 .f32).view
abbrev VO1_11 : View sig .tc .vmem S1x10 .f32 := (Memref.whole cc1_stg11_0 : Memref sig .tc .vmem S1x10 .f32).view
abbrev ms1_0 (t : Fin cfg1.N) : Memref sig .tc .vmem S512x784 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S784x3000 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x3000 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x3000 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3000x10 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x10 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x10 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x10 .f32 := win1_11.stage (cfg1.slots t 11)
abbrev hs1_11 (t : Fin cfg1.N) : (ms1_11 t).IsWhole := hstage1_11 ((cfg1.slots t 11).cast nbuf1_11)
/-- The two scratch rows: whole scoped buffers of the call's own. -/
abbrev scM1_0 : Memref sig .tc .vmem S1x10 .f32 := Memref.whole cc1_scratch0
abbrev scM1_1 : Memref sig .tc .vmem S1x10 .f32 := Memref.whole cc1_scratch1
abbrev VS1_0 : View sig .tc .vmem S1x10 .f32 := scM1_0.view
abbrev VS1_1 : View sig .tc .vmem S1x10 .f32 := scM1_1.view

/-- The scoped rest of the call split at its two scratch rows, the remainder left unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f))
          ∗ Pipeline.scopedRestBut (Ix := Ix) (Name := Name) (U := U) (Lvl := Lvl) (Val := Val) spec1 c [cc1_scratch0, cc1_scratch1]) :=
  Pipeline.scopedRest_split_of_list spec1 c [cc1_scratch0, cc1_scratch1] (by decide) (by decide)

/-- The region's invariant at entry with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.H

end
-- ==== Proof.K.Region1RunA.lean ====
import proofs.«121665_j13159779795462_2_alg».proof.Proof.K.Region1Runs

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 1, the first block

The body at the first grid point: the reset condition holds and the last-point condition fails. It reads the nine input
blocks, sets the two running rows to zero, stores the block of second-layer values into output 9 and adds that block's
column sums (of the values, of their squares) to the running rows; outputs 10 and 11 are left as found. -/

set_option maxHeartbeats 4000000 in
/-- The body at the first point: the two running sums are reset, then this block's column sums are added; the moments are not stored. The pieces each written buffer ends with are the witness; the statement says that on whole
    memrefs — the inputs' at their contents, output 9's at anything, outputs 10 and 11 at contents handed back untouched, the scratch rows
    at anything — the body runs to the continuation holding the inputs as they were and each written buffer with its
    pieces written. -/
noncomputable def kernelRun1_A (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) :
    Σ' (L9 : List (View.Piece (Elt F) S512x10 .f32)) (LS0 : List (View.Piece (Elt F) S1x10 .f32)), { LS1 : List (View.Piece (Elt F) S1x10 .f32) //
      ∀ (xi10 xi11 : Vec F S1x10 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ owns (c : Thread nD τ) arg11 fullShare xi10
            ∗ owns (c : Thread nD τ) arg12 fullShare xi11
            ∗ (∃ d, owns (c : Thread nD τ) arg13 fullShare d)
            ∗ (∃ d, owns (c : Thread nD τ) arg14 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ owns (c : Thread nD τ) arg11 fullShare xi10
                ∗ owns (c : Thread nD τ) arg12 fullShare xi11
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.H

end
-- ==== Proof.K.Region1RunB.lean ====
import proofs.«121665_j13159779795462_2_alg».proof.Proof.K.Region1RunA

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 1, a middle block

The body at a grid point that is neither the first nor the last: both conditions fail. It reads the nine input blocks and
the two running rows, stores the block of second-layer values into output 9 and adds that block's column sums (of the
values, of their squares) to the running rows; outputs 10 and 11 are left as found. -/

set_option maxHeartbeats 4000000 in
/-- The body at a point that is neither the first nor the last: this block's column sums are added to the running sums; the moments are not stored. The pieces each written buffer ends with are the witness; the statement says that on whole
    memrefs — the inputs' at their contents, output 9's at anything, outputs 10 and 11 at contents handed back untouched, the scratch rows
    at what the point before left — the body runs to the continuation holding the inputs as they were and each written buffer with its
    pieces written. -/
noncomputable def kernelRun1_B (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    Σ' (L9 : List (View.Piece (Elt F) S512x10 .f32)) (LS0 : List (View.Piece (Elt F) S1x10 .f32)), { LS1 : List (View.Piece (Elt F) S1x10 .f32) //
      ∀ (xi10 xi11 : Vec F S1x10 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ owns (c : Thread nD τ) arg11 fullShare xi10
            ∗ owns (c : Thread nD τ) arg12 fullShare xi11
            ∗ owns (c : Thread nD τ) arg13 fullShare xs0
            ∗ owns (c : Thread nD τ) arg14 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ owns (c : Thread nD τ) arg11 fullShare xi10
                ∗ owns (c : Thread nD τ) arg12 fullShare xi11
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.H

end
-- ==== Proof.K.Region1RunC.lean ====
import proofs.«121665_j13159779795462_2_alg».proof.Proof.K.Region1RunB

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 1, the last block

The body at the last grid point: the reset condition fails and the last-point condition holds. It reads the nine input
blocks and the two running rows, stores the block of second-layer values into output 9, adds that block's column sums (of
the values, of their squares) to the running rows, and then stores the completed first row divided by the batch size into
output 10 and the completed second row divided by the batch size, less the square of the former, into output 11. -/

set_option maxHeartbeats 4000000 in
/-- The body at the last point: this block's column sums are added to the running sums, which are then divided by the batch size and stored as the two moments. The pieces each written buffer ends with are the witness; the statement says that on whole
    memrefs — the inputs' at their contents, output 9's at anything, outputs 10 and 11 at anything, the scratch rows
    at what the point before left — the body runs to the continuation holding the inputs as they were and each written buffer with its
    pieces written. -/
noncomputable def kernelRun1_C (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    Σ' (L9 : List (View.Piece (Elt F) S512x10 .f32)) (L10 : List (View.Piece (Elt F) S1x10 .f32)) (L11 : List (View.Piece (Elt F) S1x10 .f32)) (LS0 : List (View.Piece (Elt F) S1x10 .f32)), { LS1 : List (View.Piece (Elt F) S1x10 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare xs0
            ∗ owns (c : Thread nD τ) arg14 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.H

end
-- ==== Proof.K.Region1.lean ====
import proofs.«121665_j13159779795462_2_alg».proof.Proof.K.Region1RunC

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 1 (the second pallas_call): its half of the frame, at the entry contents `V`

What each written buffer holds after the body, case by case and then point by point (the two scratch rows carry the
running column sums of the second layer's pre-activations and of their squares from one point to the next); the
pipeline's proof data; the body obligation; and the invariant's entry and exit. -/

/-- Case A's pieces for output 9 (the block of second-layer pre-activations) tile it, so they cover it. -/
theorem cover1_A_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S512x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S512x10.size (by sl_kernel_rfl) y

/-- What case A leaves in output 9 (the block of second-layer pre-activations): its pieces read back. -/
def out1_A_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S512x10 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- Case A's pieces for the first scratch row (the running sum) tile it, so they cover it. -/
theorem scover1_A_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S1x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x10.size (by sl_kernel_rfl) y

/-- What case A leaves in the first scratch row (the running sum): its pieces read back. -/
def sout1_A_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S1x10 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- Case A's pieces for the second scratch row (the running sum of squares) tile it, so they cover it. -/
theorem scover1_A_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (y : S1x10.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x10.size (by sl_kernel_rfl) y

/-- What case A leaves in the second scratch row (the running sum of squares): its pieces read back. -/
def sout1_A_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) : Vec F S1x10 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- Case B's pieces for output 9 (the block of second-layer pre-activations) tile it, so they cover it. -/
theorem cover1_B_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S512x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S512x10.size (by sl_kernel_rfl) y

/-- What case B leaves in output 9 (the block of second-layer pre-activations): its pieces read back. -/
def out1_B_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S512x10 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

/-- Case B's pieces for the first scratch row (the running sum) tile it, so they cover it. -/
theorem scover1_B_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x10.size (by sl_kernel_rfl) y

/-- What case B leaves in the first scratch row (the running sum): its pieces read back. -/
def sout1_B_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

/-- Case B's pieces for the second scratch row (the running sum of squares) tile it, so they cover it. -/
theorem scover1_B_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x10.size (by sl_kernel_rfl) y

/-- What case B leaves in the second scratch row (the running sum of squares): its pieces read back. -/
def sout1_B_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

/-- Case C's pieces for output 9 (the block of second-layer pre-activations) tile it, so they cover it. -/
theorem cover1_C_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S512x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S512x10.size (by sl_kernel_rfl) y

/-- What case C leaves in output 9 (the block of second-layer pre-activations): its pieces read back. -/
def out1_C_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S512x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

/-- Case C's pieces for output 10 (the batch mean) tile it, so they cover it. -/
theorem cover1_C_10 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x10.size (by sl_kernel_rfl) y

/-- What case C leaves in output 10 (the batch mean): its pieces read back. -/
def out1_C_10 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

/-- Case C's pieces for output 11 (the batch variance) tile it, so they cover it. -/
theorem cover1_C_11 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x10.size (by sl_kernel_rfl) y

/-- What case C leaves in output 11 (the batch variance): its pieces read back. -/
def out1_C_11 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

/-- Case C's pieces for the first scratch row (the running sum) tile it, so they cover it. -/
theorem scover1_C_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x10.size (by sl_kernel_rfl) y

/-- What case C leaves in the first scratch row (the running sum): its pieces read back. -/
def sout1_C_0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

/-- Case C's pieces for the second scratch row (the running sum of squares) tile it, so they cover it. -/
theorem scover1_C_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x10.size (by sl_kernel_rfl) y

/-- What case C leaves in the second scratch row (the running sum of squares): its pieces read back. -/
def sout1_C_1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) : Vec F S1x10 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)

/-- Away from the last point outputs 10 and 11 are not stored, not written back and not read at the next point: what the
    proof data says of them there is a placeholder nothing consults. -/
def idle1_10 : Vec F S1x10 .f32 := VO1_10.read (Elt F) VO1_10.junk
def idle1_11 : Vec F S1x10 .f32 := VO1_11.read (Elt F) VO1_11.junk

section Entry
variable (V : (c : Dev nD) → (b : Ref sig .tc) → Buf (Elt F) ((c : Thread nD τ).loc b))

/-! ## What the written buffers hold after each point -/

/-- THE ACCUMULATION. What output 9, output 10, output 11 and the two scratch rows hold after the body at position `n`
    (a tuple, in that order): the first point's case at point 0, the last point's case at point 63 and the middle case
    between, each run at the point's memrefs and input blocks, the scratch rows at what the point before left. -/
def outsAt1 (c : Dev nD) : (n : ℕ) → n < cfg1.N → Vec F S512x10 .f32 × Vec F S1x10 .f32 × Vec F S1x10 .f32 × Vec F S1x10 .f32 × Vec F S1x10 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), idle1_10, idle1_11, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h1 : n + 1 = 63 then
      (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)
    else
      (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, idle1_10, idle1_11, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 63) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), idle1_10, idle1_11, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact absurd h0 (Nat.succ_ne_zero n)

/-- `outsAt1` at a middle point: the middle case over what the point before left in the scratch rows. -/
theorem outsAt1_B (c : Dev nD) (t : Fin cfg1.N) (h0 : ¬t.val = 0) (h1 : ¬t.val = 63) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, idle1_10, idle1_11, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: the last case over what the point before left in the scratch rows. -/
theorem outsAt1_C (c : Dev nD) (t : Fin cfg1.N) (h0 : ¬t.val = 0) (h1 : t.val = 63) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region's invariant, point by point -/

/-- Before position `n`: at the first point what the launch hands the region (every scratch at anything); afterwards the
    two scratch rows at what the point before left in them, the rest of the scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them; after the body at point `t` each
    input's buffer at its block and the outputs' at `outsAt1`'s components; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point: the inputs' memrefs hold their blocks; the point is the first, the last or one between,
    so one of the three runs applies; the invariant hands the body the scratch rows at what the point
    before left (at anything at the first point) and takes them back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val = 0
  · have h1 : ¬t.val = 63 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8 t], after1_8]
    rw [show (dat1 V c).leavesExact 9 t = owns (c : Thread nD τ) (ms1_9 t) fullShare ((dat1 V c).after 9 t) from by
      unfold Dat.leavesExact; rw [liveAt1_9 t], after1_9]
    rw [Dat.leavesExact_idle (dat1 V c) 10 t (idleAt1_10 t (fun h => h1 ((hcond1_1 t).mp h))) (noFlush1_10 t (fun h => h1 ((hcond1_1 t).mp h)))]
    rw [Dat.leavesExact_idle (dat1 V c) 11 t (idleAt1_11 t (fun h => h1 ((hcond1_1 t).mp h))) (noFlush1_11 t (fun h => h1 ((hcond1_1 t).mp h)))]
    rw [outsAt1_A V c t h0 h1]
    unfold out1_A_9 sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _ _ _ _ _ _ _ _)
    isplitl [H10]; · iexists _; iexact H10
    iexists _; iexact H11
  · by_cases h1 : t.val = 63
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10_C t ((hcond1_1 t).mpr h1)], after1_10]
      rw [show (dat1 V c).leavesExact 11 t = owns (c : Thread nD τ) (ms1_11 t) fullShare ((dat1 V c).after 11 t) from by
        unfold Dat.leavesExact; rw [liveAt1_11_C t ((hcond1_1 t).mpr h1)], after1_11]
      rw [outsAt1_C V c t h0 h1]
      unfold out1_C_9 out1_C_10 out1_C_11 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [Dat.leavesExact_idle (dat1 V c) 11 t (idleAt1_11 t (fun h => h1 ((hcond1_1 t).mp h))) (noFlush1_11 t (fun h => h1 ((hcond1_1 t).mp h)))]
      rw [outsAt1_B V c t h0 h1]
      unfold out1_B_9 sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the scratch rows hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Entry

end Cert.Kernel.H

end
-- ==== Proof.K.Region2.lean ====
/- REGION 2 of @main (custom_call 2, `cc2__finalize_kernel`, pipeline 2) at a PARAMETER `V` — the TensorCore's buffer
   contents when the region is entered. The body is of the plain class: it loads its five input windows' staging
   buffers whole (window 0 the [512,10] block of the raw second-layer output, windows 1–4 the [1,10] rows mean, variance,
   scale and shift), computes scale · (x − mean) · rsqrt(variance + ε) + shift, and stores the result over the whole of
   output window 5's staging buffer; nothing is carried from point to point. So what it leaves in the output buffer is a
   closed function of the input blocks at the point (`out2_5`), and the invariant is the class's at every point. -/
import proofs.«121665_j13159779795462_2_alg».proof.Proof.Gen.Kernel.Launch
import proofs.«121665_j13159779795462_2_alg».proof.Proof.Gen.Kernel.Skeleton
import proofs.«121665_j13159779795462_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a [512,10] buffer, and the whole of a [1,10] one. -/
abbrev r2_0 : Rect S512x10 := Rect.unit (s := S512x10) ![0, 0] S512x10.size inb_S512x10_S512x10_0_0
abbrev r2_1 : Rect S1x10 := Rect.unit (s := S1x10) ![0, 0] S1x10.size inb_S1x10_S1x10_0_0

/-! ## What the body leaves in the output window's buffer -/

/-- Window 5's staging buffer after the body, from the input windows' blocks `x0` (the raw output's block), `x1` (mean),
    `x2` (variance), `x3` (scale), `x4` (shift): its one store, over the whole buffer, of
    scale · (x0 − mean) · rsqrt(variance + ε) + shift. -/
def out2_5 (x0 : Vec F S512x10 .f32) (x1 x2 x3 x4 : Vec F S1x10 .f32) : Vec F S512x10 .f32 :=
  View.canon [⟨r2_0, k2_pay1 (View.ld x2 r2_1) (View.ld x3 r2_1) (View.ld x0 r2_0) (View.ld x1 r2_1) (View.ld x4 r2_1)⟩]

/-- Its store is of the whole buffer, so it covers it. -/
theorem cover2_5 (p0 : Vec F S512x10 .f32) (y : S512x10.Idx) :
    ∃ pc ∈ ([⟨r2_0, p0⟩] : List (View.Piece (Elt F) S512x10 .f32)), y ∈ pc.1.set :=
  View.cover_of_tiled [⟨r2_0, p0⟩] S512x10.size (by rfl) y

/-! ## The body's triple -/

set_option maxHeartbeats 4000000 in
/-- The kernel body on whole staging memrefs, the inputs' at read contents `xW` and the output's at anything, runs to
    the continuation holding the inputs' as they were and the output's at `out2_5` of the inputs'. -/
theorem sound_kernel2 (c : Dev nD) (E : Set ℕ) (i : grid2.Coords)
    (arg1 : Memref sig .tc .vmem S512x10 .f32) (harg1 : arg1.IsWhole) (arg2 : Memref sig .tc .vmem S1x10 .f32) (harg2 : arg2.IsWhole)
    (arg3 : Memref sig .tc .vmem S1x10 .f32) (harg3 : arg3.IsWhole) (arg4 : Memref sig .tc .vmem S1x10 .f32) (harg4 : arg4.IsWhole)
    (arg5 : Memref sig .tc .vmem S1x10 .f32) (harg5 : arg5.IsWhole) (arg6 : Memref sig .tc .vmem S512x10 .f32) (harg6 : arg6.IsWhole)
    (x0 : Vec F S512x10 .f32) (x1 x2 x3 x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__finalize_kernel i arg1 harg1 arg2 harg2 arg3 harg3 arg4 harg4 arg5 harg5 arg6 harg6) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Run.lean ====
import proofs.«121665_j13159779795462_2_alg».proof.Proof.Gen.Kernel.Launch
import proofs.«121665_j13159779795462_2_alg».proof.Proof.Gen.Kernel.Skeleton
import proofs.«121665_j13159779795462_2_alg».proof.Proof.Gen.Kernel.Points
import proofs.«121665_j13159779795462_2_alg».proof.Proof.K.Prefix
import proofs.«121665_j13159779795462_2_alg».proof.Proof.K.Region0
import proofs.«121665_j13159779795462_2_alg».proof.Proof.K.Region1
import proofs.«121665_j13159779795462_2_alg».proof.Proof.K.Region2
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # The whole program's run: the host prefix, then the three regions one after the other

The buffer contents at each boundary are a fold from the launch memory: the host operations' results, then each
region's arrays at what its write-backs leave (every other buffer as it was).  The run ends with every unscoped
buffer at the last fold; the arguments walk back through the fold to the launch memory, and the result buffer is
the last region's output array. -/

variable (m : (ℓ : Loc nD τ sig) → Buf (Elt F) ℓ) (ρ : Dev nD → PrngReg)

/-- At region 0's exit: its arrays at what the pipeline leaves, every other buffer as entered. -/
def Wc2 (c : Dev nD) : Valuation τ sig (Elt F) :=
  Pipeline.withArrays spec0 c (Wc1 m ρ c) fun w => (dat0 (Vr1 m ρ) c).arrAt w cfg0.N
theorem Wc2_arr (c : Dev nD) (w : Fin cfg0.W) :
    Wc2 m ρ c (Proc.devRef .tc (Pipeline.arrRef spec0 w)) = (dat0 (Vr1 m ρ) c).arrAt w cfg0.N := by
  unfold Wc2; exact Pipeline.withArrays_arr spec0 launch0.win.arr_inj c _ _ w
theorem Wc2_of_ne (c : Dev nD) (b : Ref sig .tc) (hb : ∀ w, Pipeline.arrRef spec0 w ≠ b) :
    Wc2 m ρ c (Proc.devRef .tc b) = Wc1 m ρ c (Proc.devRef .tc b) := by
  unfold Wc2; exact Pipeline.withArrays_of_ne spec0 c _ _ b hb
abbrev Vr2 : (c : Dev nD) → (b : Ref sig .tc) → Buf (Elt F) ((c : Thread nD τ).loc b) := fun c b => Wc2 m ρ c b
theorem hF0 (c : Dev nD) (w : Fin cfg0.W) : (dat0 (Vr1 m ρ) c).arrAt w cfg0.N = Vr2 m ρ c (Pipeline.arrRef spec0 w) :=
  (Wc2_arr m ρ c w).symm
theorem hrest0 (c : Dev nD) : ∀ b, b ∉ Finset.univ.image (Pipeline.arrRef spec0) → Vr2 m ρ c b = Vr1 m ρ c b :=
  fun b hb => Wc2_of_ne m ρ c b fun w e => hb (Finset.mem_image.mpr ⟨w, Finset.mem_univ _, e⟩)

/-- At region 1's exit: its arrays at what the pipeline leaves, every other buffer as entered. -/
def Wc3 (c : Dev nD) : Valuation τ sig (Elt F) :=
  Pipeline.withArrays spec1 c (Wc2 m ρ c) fun w => (dat1 (Vr2 m ρ) c).arrAt w cfg1.N
theorem Wc3_arr (c : Dev nD) (w : Fin cfg1.W) :
    Wc3 m ρ c (Proc.devRef .tc (Pipeline.arrRef spec1 w)) = (dat1 (Vr2 m ρ) c).arrAt w cfg1.N := by
  unfold Wc3; exact Pipeline.withArrays_arr spec1 launch1.win.arr_inj c _ _ w
theorem Wc3_of_ne (c : Dev nD) (b : Ref sig .tc) (hb : ∀ w, Pipeline.arrRef spec1 w ≠ b) :
    Wc3 m ρ c (Proc.devRef .tc b) = Wc2 m ρ c (Proc.devRef .tc b) := by
  unfold Wc3; exact Pipeline.withArrays_of_ne spec1 c _ _ b hb
abbrev Vr3 : (c : Dev nD) → (b : Ref sig .tc) → Buf (Elt F) ((c : Thread nD τ).loc b) := fun c b => Wc3 m ρ c b
theorem hF1 (c : Dev nD) (w : Fin cfg1.W) : (dat1 (Vr2 m ρ) c).arrAt w cfg1.N = Vr3 m ρ c (Pipeline.arrRef spec1 w) :=
  (Wc3_arr m ρ c w).symm
theorem hrest1 (c : Dev nD) : ∀ b, b ∉ Finset.univ.image (Pipeline.arrRef spec1) → Vr3 m ρ c b = Vr2 m ρ c b :=
  fun b hb => Wc3_of_ne m ρ c b fun w e => hb (Finset.mem_image.mpr ⟨w, Finset.mem_univ _, e⟩)

/-- At region 2's exit: its arrays at what the pipeline leaves, every other buffer as entered. -/
def Wc4 (c : Dev nD) : Valuation τ sig (Elt F) :=
  Pipeline.withArrays spec2 c (Wc3 m ρ c) fun w => (dat2 (Vr3 m ρ) c).arrAt w cfg2.N
theorem Wc4_arr (c : Dev nD) (w : Fin cfg2.W) :
    Wc4 m ρ c (Proc.devRef .tc (Pipeline.arrRef spec2 w)) = (dat2 (Vr3 m ρ) c).arrAt w cfg2.N := by
  unfold Wc4; exact Pipeline.withArrays_arr spec2 launch2.win.arr_inj c _ _ w
theorem Wc4_of_ne (c : Dev nD) (b : Ref sig .tc) (hb : ∀ w, Pipeline.arrRef spec2 w ≠ b) :
    Wc4 m ρ c (Proc.devRef .tc b) = Wc3 m ρ c (Proc.devRef .tc b) := by
  unfold Wc4; exact Pipeline.withArrays_of_ne spec2 c _ _ b hb
abbrev Vr4 : (c : Dev nD) → (b : Ref sig .tc) → Buf (Elt F) ((c : Thread nD τ).loc b) := fun c b => Wc4 m ρ c b
theorem hF2 (c : Dev nD) (w : Fin cfg2.W) : (dat2 (Vr3 m ρ) c).arrAt w cfg2.N = Vr4 m ρ c (Pipeline.arrRef spec2 w) :=
  (Wc4_arr m ρ c w).symm
theorem hrest2 (c : Dev nD) : ∀ b, b ∉ Finset.univ.image (Pipeline.arrRef spec2) → Vr4 m ρ c b = Vr3 m ρ c b :=
  fun b hb => Wc4_of_ne m ρ c b fun w e => hb (Finset.mem_image.mpr ⟨w, Finset.mem_univ _, e⟩)

/-! ### The arguments end as launched -/

theorem Wc4_main_arg0 (c : Dev nD) : Wc4 m ρ c (Proc.devRef .tc main_arg0) = m ((c : Thread nD τ).loc main_arg0) :=
  calc Wc4 m ρ c (Proc.devRef .tc main_arg0)
    _ = Wc3 m ρ c (Proc.devRef .tc main_arg0) := Wc4_of_ne m ρ c main_arg0 (by decide)
    _ = Wc2 m ρ c (Proc.devRef .tc main_arg0) := (Wc3_arr m ρ c 0).trans (((dat1 (Vr2 m ρ) c).arrAt_in 0 rfl _).trans (A_eq1 (Vr2 m ρ) c 0))
    _ = Wc1 m ρ c (Proc.devRef .tc main_arg0) := (Wc2_arr m ρ c 0).trans (((dat0 (Vr1 m ρ) c).arrAt_in 0 rfl _).trans (A_eq0 (Vr1 m ρ) c 0))
    _ = Wc0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wc4_main_arg1 (c : Dev nD) : Wc4 m ρ c (Proc.devRef .tc main_arg1) = m ((c : Thread nD τ).loc main_arg1) :=
  calc Wc4 m ρ c (Proc.devRef .tc main_arg1)
    _ = Wc3 m ρ c (Proc.devRef .tc main_arg1) := Wc4_of_ne m ρ c main_arg1 (by decide)
    _ = Wc2 m ρ c (Proc.devRef .tc main_arg1) := Wc3_of_ne m ρ c main_arg1 (by decide)
    _ = Wc1 m ρ c (Proc.devRef .tc main_arg1) := Wc2_of_ne m ρ c main_arg1 (by decide)
    _ = Wc0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wc4_main_arg2 (c : Dev nD) : Wc4 m ρ c (Proc.devRef .tc main_arg2) = m ((c : Thread nD τ).loc main_arg2) :=
  calc Wc4 m ρ c (Proc.devRef .tc main_arg2)
    _ = Wc3 m ρ c (Proc.devRef .tc main_arg2) := Wc4_of_ne m ρ c main_arg2 (by decide)
    _ = Wc2 m ρ c (Proc.devRef .tc main_arg2) := Wc3_of_ne m ρ c main_arg2 (by decide)
    _ = Wc1 m ρ c (Proc.devRef .tc main_arg2) := Wc2_of_ne m ρ c main_arg2 (by decide)
    _ = Wc0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wc4_main_arg3 (c : Dev nD) : Wc4 m ρ c (Proc.devRef .tc main_arg3) = m ((c : Thread nD τ).loc main_arg3) :=
  calc Wc4 m ρ c (Proc.devRef .tc main_arg3)
    _ = Wc3 m ρ c (Proc.devRef .tc main_arg3) := Wc4_of_ne m ρ c main_arg3 (by decide)
    _ = Wc2 m ρ c (Proc.devRef .tc main_arg3) := Wc3_of_ne m ρ c main_arg3 (by decide)
    _ = Wc1 m ρ c (Proc.devRef .tc main_arg3) := Wc2_of_ne m ρ c main_arg3 (by decide)
    _ = Wc0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wc4_main_arg4 (c : Dev nD) : Wc4 m ρ c (Proc.devRef .tc main_arg4) = m ((c : Thread nD τ).loc main_arg4) :=
  calc Wc4 m ρ c (Proc.devRef .tc main_arg4)
    _ = Wc3 m ρ c (Proc.devRef .tc main_arg4) := Wc4_of_ne m ρ c main_arg4 (by decide)
    _ = Wc2 m ρ c (Proc.devRef .tc main_arg4) := Wc3_of_ne m ρ c main_arg4 (by decide)
    _ = Wc1 m ρ c (Proc.devRef .tc main_arg4) := Wc2_of_ne m ρ c main_arg4 (by decide)
    _ = Wc0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wc4_main_arg5 (c : Dev nD) : Wc4 m ρ c (Proc.devRef .tc main_arg5) = m ((c : Thread nD τ).loc main_arg5) :=
  calc Wc4 m ρ c (Proc.devRef .tc main_arg5)
    _ = Wc3 m ρ c (Proc.devRef .tc main_arg5) := Wc4_of_ne m ρ c main_arg5 (by decide)
    _ = Wc2 m ρ c (Proc.devRef .tc main_arg5) := Wc3_of_ne m ρ c main_arg5 (by decide)
    _ = Wc1 m ρ c (Proc.devRef .tc main_arg5) := Wc2_of_ne m ρ c main_arg5 (by decide)
    _ = Wc0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem Wc4_main_arg6 (c : Dev nD) : Wc4 m ρ c (Proc.devRef .tc main_arg6) = m ((c : Thread nD τ).loc main_arg6) :=
  calc Wc4 m ρ c (Proc.devRef .tc main_arg6)
    _ = Wc3 m ρ c (Proc.devRef .tc main_arg6) := Wc4_of_ne m ρ c main_arg6 (by decide)
    _ = Wc2 m ρ c (Proc.devRef .tc main_arg6) := Wc3_of_ne m ρ c main_arg6 (by decide)
    _ = Wc1 m ρ c (Proc.devRef .tc main_arg6) := Wc2_of_ne m ρ c main_arg6 (by decide)
    _ = Wc0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem Wc4_main_arg7 (c : Dev nD) : Wc4 m ρ c (Proc.devRef .tc main_arg7) = m ((c : Thread nD τ).loc main_arg7) :=
  calc Wc4 m ρ c (Proc.devRef .tc main_arg7)
    _ = Wc3 m ρ c (Proc.devRef .tc main_arg7) := Wc4_of_ne m ρ c main_arg7 (by decide)
    _ = Wc2 m ρ c (Proc.devRef .tc main_arg7) := Wc3_of_ne m ρ c main_arg7 (by decide)
    _ = Wc1 m ρ c (Proc.devRef .tc main_arg7) := Wc2_of_ne m ρ c main_arg7 (by decide)
    _ = Wc0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem Wc4_main_arg8 (c : Dev nD) : Wc4 m ρ c (Proc.devRef .tc main_arg8) = m ((c : Thread nD τ).loc main_arg8) :=
  calc Wc4 m ρ c (Proc.devRef .tc main_arg8)
    _ = Wc3 m ρ c (Proc.devRef .tc main_arg8) := Wc4_of_ne m ρ c main_arg8 (by decide)
    _ = Wc2 m ρ c (Proc.devRef .tc main_arg8) := Wc3_of_ne m ρ c main_arg8 (by decide)
    _ = Wc1 m ρ c (Proc.devRef .tc main_arg8) := Wc2_of_ne m ρ c main_arg8 (by decide)
    _ = Wc0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result buffer ends at the last region's output array. -/
theorem Wc4_main_v14 (c : Dev nD) : Wc4 m ρ c (Proc.devRef .tc main_v14) = (dat2 (Vr3 m ρ) c).arrAt 5 cfg2.N :=
  Wc4_arr m ρ c 5

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr3 m ρ) c
abbrev 𝒱H : Variants := Variants.none
abbrev LH : GSem nD τ sig → Finset Unit := fun _ => ∅
abbrev lvH : GSem nD τ sig → Unit → ℕ := fun _ _ => 0
/-- What rides beside the buffers: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wc4 m ρ c) ∗ ∃ r, prngReg c r)

/-- Region 2 keeps the class's invariant throughout. -/
theorem hin2 (V : (c : Dev nD) → (b : Ref sig .tc) → Buf (Elt F) ((c : Thread nD τ).loc b)) (c : Dev nD) : Pipeline.ΦA spec2 c ⊢ (dat2 V c).Φ 0 := by
  rw [show (dat2 V c).Φ 0 = Pipeline.ΦA spec2 c from rfl]
theorem hout2 (V : (c : Dev nD) → (b : Ref sig .tc) → Buf (Elt F) ((c : Thread nD τ).loc b)) (c : Dev nD) : (dat2 V c).Φ (Fin.last cfg2.N) ⊢ Pipeline.ΦA spec2 c := by
  rw [show (dat2 V c).Φ (Fin.last cfg2.N) = Pipeline.ΦA spec2 c from rfl]

/-! ## The regions as segments -/

set_option backward.isDefEq.respectTransparency.types false in
/-- Region 0 over the thread state: entered with every unscoped buffer at `Wc1`, left with them at `Wc2`. Its
    arrays are split out of the unscoped buffers and put back at their exit contents; the generator register and the
    scoped rest go into the region's invariant and come back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ LH lvH 0 fun _ _ => rfl
  pre c := iprop(StableHlo.held (c : Thread nD τ) (Pipeline.ucRefs τ sig) (Wc1 m ρ c) ∗ RH c)
  post c := iprop(StableHlo.held (c : Thread nD τ) (Pipeline.ucRefs τ sig) (Wc2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdatsH m ρ 0 c).Φ 0 := hin0 (Vr1 m ρ) c
    unfold Pipeline.ΦA at h
    iintro ⟨Hp, -, Hr⟩
    iapply h
    isplitl [Hr]; · iexact Hr
    iexact Hp
  hout c := by
    rw [Pipeline.ownSems0_none]
    have h : (pdatsH m ρ 0 c).Φ (Fin.last _) ⊢ Pipeline.ΦA spec0 c := hout0 (Vr1 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vr1 m ρ c) (Vr2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wc2`, left with them at `Wc3`. Its
    arrays are split out of the unscoped buffers and put back at their exit contents; the generator register and the
    scoped rest go into the region's invariant and come back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ LH lvH 1 fun _ _ => rfl
  pre c := iprop(StableHlo.held (c : Thread nD τ) (Pipeline.ucRefs τ sig) (Wc2 m ρ c) ∗ RH c)
  post c := iprop(StableHlo.held (c : Thread nD τ) (Pipeline.ucRefs τ sig) (Wc3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdatsH m ρ 1 c).Φ 0 := hin1 (Vr2 m ρ) c
    unfold Pipeline.ΦA at h
    iintro ⟨Hp, -, Hr⟩
    iapply h
    isplitl [Hr]; · iexact Hr
    iexact Hp
  hout c := by
    rw [Pipeline.ownSems0_none]
    have h : (pdatsH m ρ 1 c).Φ (Fin.last _) ⊢ Pipeline.ΦA spec1 c := hout1 (Vr2 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vr2 m ρ c) (Vr3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wc3`, left with them at `Wc4`. Its
    arrays are split out of the unscoped buffers and put back at their exit contents; the generator register and the
    scoped rest go into the region's invariant and come back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ LH lvH 2 fun _ _ => rfl
  pre c := iprop(StableHlo.held (c : Thread nD τ) (Pipeline.ucRefs τ sig) (Wc3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdatsH m ρ 2 c).Φ 0 := hin2 (Vr3 m ρ) c
    unfold Pipeline.ΦA at h
    iintro ⟨Hp, -, Hr⟩
    iapply h
    isplitl [Hr]; · iexact Hr
    iexact Hp
  hout c := by
    rw [Pipeline.ownSems0_none]
    have h : (pdatsH m ρ 2 c).Φ (Fin.last _) ⊢ Pipeline.ΦA spec2 c := hout2 (Vr3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vr3 m ρ c) (Vr4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_freshH (Wc0 m ρ)),
    .region (reg0 m ρ),
    .region (reg1 m ρ),
    .region (reg2 m ρ) ]
theorem main_runH (c : Dev nD) : main (F := F) c = Pipeline.Seg.run (segsH m ρ) := (main_chain c).trans (by chain_rfl)

set_option backward.isDefEq.respectTransparency.types false in
/-- Every weakly fair run of the program from memory `m` terminates without a fault; at the end the result buffer
    holds the last region's output array and every argument what it held at launch. -/
theorem run_value : θ_run defs (onTc (τ := τ) (main (F := F))) ⟨m, fun _ => 0, ρ⟩ (fun r => ∀ c : Dev nD,
      r.2.mem ((c.tc : Thread nD τ).loc main_v14) = (dat2 (Vr3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wc0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wc0 m ρ c)
        from Pipeline.unscopedBufs_held c (Wc0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc4 m ρ c) s')
      isplitl [Hh] <;> iassumption)
    (hQ := fun s h c =>
      ⟨(h c _ (mem_ucH main_v14 (by decide))).trans (Wc4_main_v14 m ρ c),
       (h c _ (mem_ucH main_arg0 (by decide))).trans (Wc4_main_arg0 m ρ c),
       (h c _ (mem_ucH main_arg1 (by decide))).trans (Wc4_main_arg1 m ρ c),
       (h c _ (mem_ucH main_arg2 (by decide))).trans (Wc4_main_arg2 m ρ c),
       (h c _ (mem_ucH main_arg3 (by decide))).trans (Wc4_main_arg3 m ρ c),
       (h c _ (mem_ucH main_arg4 (by decide))).trans (Wc4_main_arg4 m ρ c),
       (h c _ (mem_ucH main_arg5 (by decide))).trans (Wc4_main_arg5 m ρ c),
       (h c _ (mem_ucH main_arg6 (by decide))).trans (Wc4_main_arg6 m ρ c),
       (h c _ (mem_ucH main_arg7 (by decide))).trans (Wc4_main_arg7 m ρ c),
       (h c _ (mem_ucH main_arg8 (by decide))).trans (Wc4_main_arg8 m ρ c)⟩)

/-- The frame: the program runs to the end and its arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.Kernel.H

end
-- ==== Proof.LibBatchMoments.lean ====
/-
  Batch statistics on the extended reals.

  A batch-normalisation layer needs the mean and the variance of a column of finite numbers.  Two spellings of
  the variance occur side by side: the one-pass form, (sum of squares)/n - mean^2, which a streaming kernel
  accumulates, and the two-pass form, (sum of squared deviations from the mean)/n, which a textbook program
  computes.  On real data they are the same number; on the extended reals the identity needs every entry to be
  a real (a single infinity breaks distributivity), so it is stated for coerced real data.  Division is the
  ideal instance's division `Ideal.div`, which for a nonzero real divisor is multiplication by the reciprocal.

  Also here: the straight-through spelling `x + (sign x - x)` of the sign of a real, and the sign written with
  two selections (`if 0 < |x| then (if x < 0 then -1 else 1) else x`), both equal to `Ideal.sign x`.
-/
import Idealize.ShloMosaic.PureOps.Ideal
import Mathlib.Algebra.BigOperators.Field
import Mathlib.Tactic.FieldSimp
import Mathlib.Tactic.Ring

noncomputable section

namespace Cert.Lib.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Ideal division of a real by a nonzero real is the real quotient. -/
theorem div_coe_coe (x n : ℝ) (hn : n ≠ 0) : Ideal.div (x : EReal) (n : EReal) = ((x / n : ℝ) : EReal) := by
  rw [Ideal.div_coe hn, ← EReal.coe_mul, mul_one_div]

/-- One-pass and two-pass variance agree on real data: with `S = ∑ h` and `n` the number of entries,
    `(∑ h²)/n - (S/n)² = (∑ (h - S/n)²)/n`. -/
theorem real_var {ι : Type*} [Fintype ι] (h : ι → ℝ) (n : ℝ) (hn : n ≠ 0) (hc : (Fintype.card ι : ℝ) = n) :
    (∑ i, h i * h i) / n - ((∑ i, h i) / n) * ((∑ i, h i) / n)
      = (∑ i, (h i - (∑ j, h j) / n) * (h i - (∑ j, h j) / n)) / n := by
  set S := ∑ i, h i with hS
  have e : ∀ i, (h i - S / n) * (h i - S / n) = h i * h i - 2 * (S / n) * h i + (S / n) * (S / n) := by
    intro i; ring
  simp_rw [e, Finset.sum_add_distrib, Finset.sum_sub_distrib, ← Finset.mul_sum, Finset.sum_const,
    Finset.card_univ, nsmul_eq_mul, hc, ← hS]
  field_simp
  ring

/-- The same on the extended reals, for coerced real data, in the ideal instance's operations: the one-pass
    variance `div (∑ h·h) n - div S n · div S n` is the two-pass variance `div (∑ (h - μ)·(h - μ)) n`,
    `μ = div S n`. -/
theorem ereal_var {ι : Type*} [Fintype ι] (h : ι → ℝ) (n : ℝ) (hn : n ≠ 0) (hc : (Fintype.card ι : ℝ) = n) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
            * ((h i : EReal) - Ideal.div (∑ j, (h j : EReal)) (n : EReal))) (n : EReal) := by
  simp only [← EReal.coe_mul, ← coe_sum, div_coe_coe _ _ hn, ← EReal.coe_sub]
  exact congrArg _ (real_var h n hn hc)

/-- The mean of coerced real data is a real: `div (∑ h) n = ((∑ h)/n : ℝ)`. -/
theorem ereal_mean {ι : Type*} [Fintype ι] (h : ι → ℝ) (n : ℝ) (hn : n ≠ 0) :
    Ideal.div (∑ i, (h i : EReal)) (n : EReal) = (((∑ i, h i) / n : ℝ) : EReal) := by
  rw [← coe_sum, div_coe_coe _ _ hn]

/-- The straight-through spelling of a function's value at a real: `x + (s - x) = s` for reals `x`, `s`. -/
theorem straight_through (x s : ℝ) : (x : EReal) + ((s : EReal) - (x : EReal)) = (s : EReal) := by
  rw [← EReal.coe_sub, ← EReal.coe_add]
  exact congrArg _ (by ring)

/-- The straight-through sign of a real is its sign. -/
theorem straight_through_sign (x : ℝ) :
    (x : EReal) + (Ideal.sign (x : EReal) - (x : EReal)) = Ideal.sign (x : EReal) := by
  rw [Ideal.sign_coe]
  exact straight_through x _

/-- The sign of an extended real written with two selections: where `0 < |x|` it is `-1` below zero and `1`
    above, and elsewhere (only at `0`) it is `x` itself. -/
theorem sign_by_selects (x : EReal) :
    (if 0 < max x (-x) then (if x < 0 then (-1 : EReal) else 1) else x) = Ideal.sign x := by
  induction x using EReal.rec with
  | bot => rw [Ideal.sign_bot]; simp
  | top => rw [Ideal.sign_top]; simp
  | coe r =>
    rw [Ideal.sign_coe]
    rcases lt_trichotomy r 0 with hr | hr | hr
    · have h1 : (0 : EReal) < max (r : EReal) (-(r : EReal)) := by
        rw [lt_max_iff]; right; rw [← EReal.coe_neg]; exact_mod_cast neg_pos.mpr hr
      have h2 : (r : EReal) < 0 := by exact_mod_cast hr
      rw [if_pos h1, if_pos h2, sign_neg hr]; simp
    · subst hr; simp
    · have h1 : (0 : EReal) < max (r : EReal) (-(r : EReal)) := by
        rw [lt_max_iff]; left; exact_mod_cast hr
      have h2 : ¬ (r : EReal) < 0 := by
        rw [not_lt]; exact_mod_cast hr.le
      rw [if_pos h1, if_neg h2, sign_pos hr]; simp

end Cert.Lib.BatchMoments

end
-- ==== Proof.RefStages.lean ====
/-
  The array program as a composition of named stages.

  The program's 115 operations compute, from the nine arguments, one 32768 × 10 array.  Read as functions of whole
  arrays they are few: the straight-through sign `w + (sign w - w)`; a product with a transposed matrix plus a bias
  repeated over the rows; the column mean (the sum over the rows from 0, divided by the batch size); the column
  variance as the program spells it (deviations from a separately computed mean, squared, summed, divided by the
  batch size minus an integer 0, under a selection on that divisor being positive); the normalisation with scale and
  shift; the clamp to [-1, 1].  This module names those stages and shows that the list of operations leaves, in its
  result buffer, their composition over the arguments.
-/
import proofs.«121665_j13159779795462_2_alg».proof.Proof.RefRun
import Idealize.ShloMosaic.PureOps.Ideal
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

/-! ## The stages of the program, as functions of whole arrays -/

/-- The straight-through spelling of the sign of an array: `w + (sign w - w)`. -/
def ste {s : Shape} (w : FVec Ideal s .f32) : FVec Ideal s .f32 := addf w (subf (Host.sign w) w)

/-- A vector of 3000 numbers repeated as every row of a 32768 × 3000 array. -/
def rows1 (v : FVec Ideal S3000 .f32) : FVec Ideal S32768x3000 .f32 :=
  broadcastInDim S32768x3000 ![0, 1] bcast_S1x3000_S32768x3000_0_1 (broadcastInDim S1x3000 ![1] bcast_S3000_S1x3000_1 v)

/-- A vector of 10 numbers repeated as every row of a 32768 × 10 array. -/
def rows2 (v : FVec Ideal S10 .f32) : FVec Ideal S32768x10 .f32 :=
  broadcastInDim S32768x10 ![0, 1] bcast_S1x10_S32768x10_0_1 (broadcastInDim S1x10 ![1] bcast_S10_S1x10_1 v)

/-- The first layer: the batch against the transposed straight-through signs of the weights, plus the bias. -/
def stageH (x : FVec Ideal S32768x784 .f32) (w1 : FVec Ideal S3000x784 .f32) (b1 : FVec Ideal S3000 .f32) :
    FVec Ideal S32768x3000 .f32 :=
  addf (Host.dotGeneral dot_S32768x784_S784x3000_S32768x3000_1_0_0_1_n_n none x
      (transpose S784x3000 [1, 0] (ste w1) transposes_S3000x784_S784x3000_1_0)) (rows1 b1)

/-- The number of rows minus the (zero) degrees-of-freedom correction: the variance's divisor. -/
def dof : FVec Ideal S_ .f32 := subf (constant S_ .f32 0x47000000#32) (sitofp .f32 (constantI S_ 32 0#32))

/-- Column means of a 32768 × 3000 array. -/
def mean1 (h : FVec Ideal S32768x3000 .f32) : FVec Ideal S3000 .f32 :=
  Host.divf (Host.reduceAdd h (constant S_ .f32 0x00000000#32) reducesTo_S32768x3000_S3000_d0 h_S_)
    (broadcastInDim S3000 ![] bcast_S_S3000 (constant S_ .f32 0x47000000#32))

/-- Deviations from the column means, the means kept as a one-row array. -/
def dev1 (h : FVec Ideal S32768x3000 .f32) : FVec Ideal S32768x3000 .f32 :=
  subf h (broadcastInDim S32768x3000 ![0, 1] bcast_S1x3000_S32768x3000_0_1
    (Host.divf (broadcastInDim S1x3000 ![1] bcast_S3000_S1x3000_1
        (Host.reduceAdd h (constant S_ .f32 0x00000000#32) reducesTo_S32768x3000_S3000_d0 h_S_))
      (broadcastInDim S1x3000 ![] bcast_S_S1x3000 (constant S_ .f32 0x47000000#32))))

/-- Column variances: the mean of the squared deviations where the divisor is positive, a fill value elsewhere. -/
def var1 (h : FVec Ideal S32768x3000 .f32) : FVec Ideal S3000 .f32 :=
  select (broadcastInDim S3000 ![] bcast_S_S3000 (cmpf .ogt dof (constant S_ .f32 0x00000000#32)))
    (Host.divf (Host.reduceAdd (mulf (dev1 h) (dev1 h)) (constant S_ .f32 0x00000000#32) reducesTo_S32768x3000_S3000_d0 h_S_)
      (broadcastInDim S3000 ![] bcast_S_S3000 dof))
    (broadcastInDim S3000 ![] bcast_S_S3000 (constant S_ .f32 0x7FC00000#32))

/-- Batch normalisation of a 32768 × 3000 array with scale `g` and shift `be`. -/
def bn1 (h : FVec Ideal S32768x3000 .f32) (g be : FVec Ideal S3000 .f32) : FVec Ideal S32768x3000 .f32 :=
  addf (mulf (mulf (rows1 g) (subf h (rows1 (mean1 h))))
      (rows1 (Host.rsqrt (addf (var1 h) (broadcastInDim S3000 ![] bcast_S_S3000 (constant S_ .f32 0x3727C5AC#32))))))
    (rows1 be)

/-- The clamp to [-1, 1]: the maximum with -1, then the minimum with 1. -/
def clamp (y : FVec Ideal S32768x3000 .f32) : FVec Ideal S32768x3000 .f32 :=
  minimumf (broadcastInDim S32768x3000 ![] bcast_S_S32768x3000 (constant S_ .f32 0x3F800000#32))
    (maximumf (broadcastInDim S32768x3000 ![] bcast_S_S32768x3000 (constant S_ .f32 0xBF800000#32)) y)

/-- The second layer: the activations against the transposed straight-through signs of the weights, plus the bias. -/
def stageO (a : FVec Ideal S32768x3000 .f32) (w2 : FVec Ideal S10x3000 .f32) (b2 : FVec Ideal S10 .f32) :
    FVec Ideal S32768x10 .f32 :=
  addf (Host.dotGeneral dot_S32768x3000_S3000x10_S32768x10_1_0_0_1_n_n none a
      (transpose S3000x10 [1, 0] (ste w2) transposes_S10x3000_S3000x10_1_0)) (rows2 b2)

/-- Column means of a 32768 × 10 array. -/
def mean2 (h : FVec Ideal S32768x10 .f32) : FVec Ideal S10 .f32 :=
  Host.divf (Host.reduceAdd h (constant S_ .f32 0x00000000#32) reducesTo_S32768x10_S10_d0 h_S_)
    (broadcastInDim S10 ![] bcast_S_S10 (constant S_ .f32 0x47000000#32))

/-- Deviations from the column means, the means kept as a one-row array. -/
def dev2 (h : FVec Ideal S32768x10 .f32) : FVec Ideal S32768x10 .f32 :=
  subf h (broadcastInDim S32768x10 ![0, 1] bcast_S1x10_S32768x10_0_1
    (Host.divf (broadcastInDim S1x10 ![1] bcast_S10_S1x10_1
        (Host.reduceAdd h (constant S_ .f32 0x00000000#32) reducesTo_S32768x10_S10_d0 h_S_))
      (broadcastInDim S1x10 ![] bcast_S_S1x10 (constant S_ .f32 0x47000000#32))))

/-- Column variances of a 32768 × 10 array. -/
def var2 (h : FVec Ideal S32768x10 .f32) : FVec Ideal S10 .f32 :=
  select (broadcastInDim S10 ![] bcast_S_S10 (cmpf .ogt dof (constant S_ .f32 0x00000000#32)))
    (Host.divf (Host.reduceAdd (mulf (dev2 h) (dev2 h)) (constant S_ .f32 0x00000000#32) reducesTo_S32768x10_S10_d0 h_S_)
      (broadcastInDim S10 ![] bcast_S_S10 dof))
    (broadcastInDim S10 ![] bcast_S_S10 (constant S_ .f32 0x7FC00000#32))

/-- Batch normalisation of a 32768 × 10 array with scale `g` and shift `be`. -/
def bn2 (h : FVec Ideal S32768x10 .f32) (g be : FVec Ideal S10 .f32) : FVec Ideal S32768x10 .f32 :=
  addf (mulf (mulf (rows2 g) (subf h (rows2 (mean2 h))))
      (rows2 (Host.rsqrt (addf (var2 h) (broadcastInDim S10 ![] bcast_S_S10 (constant S_ .f32 0x3727C5AC#32))))))
    (rows2 be)

/-- The whole program as one function of its nine arguments. -/
def whole (x : FVec Ideal S32768x784 .f32) (w1 : FVec Ideal S3000x784 .f32) (b1 g1 be1 : FVec Ideal S3000 .f32)
    (w2 : FVec Ideal S10x3000 .f32) (b2 g2 be2 : FVec Ideal S10 .f32) : FVec Ideal S32768x10 .f32 :=
  bn2 (stageO (ste (clamp (bn1 (stageH x w1 b1) g1 be1))) w2 b2) g2 be2

set_option maxRecDepth 16384 in
set_option maxHeartbeats 8000000 in
/-- The list of operations leaves, in the result buffer, the stages composed over the nine arguments. -/
theorem after_result (V : Valuation τ sig (Elt Ideal)) :
    after (ops (F := Ideal)) V (main_v57 : DevRef τ sig)
      = whole (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

end Cert.ReferenceIdeal.RefValue

end
-- ==== Proof.Spec.lean ====
/-
  The function both programs compute, index by index, on the extended reals.

  A batch `x` of 32768 rows of 784 numbers goes through a layer whose weights are the signs of `w1`, is normalised
  column by column with the batch's own mean and (two-pass) variance, clamped to [-1, 1] and replaced by its sign;
  the signs go through a second layer whose weights are the signs of `w2`, and the result is normalised the same
  way.  `ε` is the number the word 0x3727C5AC denotes (the single-precision neighbour of 10⁻⁵) and `n` the number
  32768, both as the ideal instance reads their words.  Sums are finite sums on the extended reals; division and the
  reciprocal square root are the ideal instance's.
-/
import Idealize.ShloMosaic.PureOps.Ideal

noncomputable section

namespace Cert.Spec

open Idealize.ShloMosaic

/-- The stabiliser added to a variance. -/
def eps : EReal := Ideal.ofBits .f32 0x3727C5AC#32
/-- The batch size, as a number. -/
def nB : EReal := Ideal.ofBits .f32 0x47000000#32

section
variable (x : Fin 32768 → Fin 784 → EReal) (w1 : Fin 3000 → Fin 784 → EReal) (b1 g1 be1 : Fin 3000 → EReal)
  (w2 : Fin 10 → Fin 3000 → EReal) (b2 g2 be2 : Fin 10 → EReal)

/-- First layer: row `b` against the signs of row `j` of `w1`, plus the bias. -/
def h (b : Fin 32768) (j : Fin 3000) : EReal := (∑ k : Fin 784, x b k * Ideal.sign (w1 j k)) + b1 j
/-- Column mean of the first layer. -/
def mean1 (j : Fin 3000) : EReal := Ideal.div (∑ b : Fin 32768, h x w1 b1 b j) nB
/-- Column variance of the first layer (mean of the squared deviations). -/
def var1 (j : Fin 3000) : EReal :=
  Ideal.div (∑ b : Fin 32768, (h x w1 b1 b j - mean1 x w1 b1 j) * (h x w1 b1 b j - mean1 x w1 b1 j)) nB
/-- Normalised and clamped. -/
def z (b : Fin 32768) (j : Fin 3000) : EReal :=
  min 1 (max (-1) (g1 j * (h x w1 b1 b j - mean1 x w1 b1 j) * Ideal.rsqrt (var1 x w1 b1 j + eps) + be1 j))
/-- Second layer on the signs. -/
def o (b : Fin 32768) (q : Fin 10) : EReal :=
  (∑ j : Fin 3000, Ideal.sign (z x w1 b1 g1 be1 b j) * Ideal.sign (w2 q j)) + b2 q
/-- Column mean of the second layer. -/
def mean2 (q : Fin 10) : EReal := Ideal.div (∑ b : Fin 32768, o x w1 b1 g1 be1 w2 b2 b q) nB
/-- Column variance of the second layer. -/
def var2 (q : Fin 10) : EReal :=
  Ideal.div (∑ b : Fin 32768, (o x w1 b1 g1 be1 w2 b2 b q - mean2 x w1 b1 g1 be1 w2 b2 q)
    * (o x w1 b1 g1 be1 w2 b2 b q - mean2 x w1 b1 g1 be1 w2 b2 q)) nB
/-- The result. -/
def out (b : Fin 32768) (q : Fin 10) : EReal :=
  g2 q * (o x w1 b1 g1 be1 w2 b2 b q - mean2 x w1 b1 g1 be1 w2 b2 q)
      * Ideal.rsqrt (var2 x w1 b1 g1 be1 w2 b2 q + eps) + be2 q
end

end Cert.Spec

end
-- ==== Proof.RefValue.lean ====
/-
  The reference's result, entry by entry.

  The composed stages (Proof/RefStages.lean) are read at an index: a product with a transposed matrix is the sum over
  the contracted coordinate; a sum over the rows from the zero word is the column's sum; a vector repeated over the
  rows reads its entry; a scalar repeated everywhere reads the scalar; the pointwise operations read through.  Four
  facts then join the program's spelling to the specification: `0 + s = s` for the zero initial values; the
  straight-through spelling `w + (sign w - w)` is `sign w` when `w` is a real — the weights by hypothesis, the clamped
  activation always, a number between -1 and 1 being a real; the variance's divisor, the batch size minus the integer
  0, is the batch size, which is positive, so the selection on it takes the quotient; and the clamp is the maximum
  with -1 followed by the minimum with 1.  The stabiliser and the batch size are the same words on both sides and are
  never evaluated, except to see that the batch size is positive.
-/
import proofs.«121665_j13159779795462_2_alg».proof.Proof.RefStages
import proofs.«121665_j13159779795462_2_alg».proof.Proof.Spec
import proofs.«121665_j13159779795462_2_alg».proof.Proof.LibBatchMoments
import Idealize.ShloMosaic.Lib.ValueIdx
import Idealize.ShloMosaic.Lib.IdealHost
import Idealize.ShloMosaic.Lib.StackMember
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx
open scoped BigOperators

/-! ## The constants -/

/-- The word 0xBF800000 denotes -1. -/
theorem neg_one_word : Ideal.ofBits .f32 0xBF800000#32 = -1 := IdealRules.sign_bit.ideal_negOnePat .f32

/-- The batch size is the real number 32768. -/
theorem nB_eq : Spec.nB = ((32768 : ℝ) : EReal) := by
  unfold Spec.nB
  simp [Ideal.ofBits, Ideal.ieee, -EReal.coe_mul]; norm_num

/-- The batch size is positive. -/
theorem nB_pos : (0 : EReal) < Spec.nB := by
  rw [nB_eq]; exact_mod_cast (by norm_num : (0 : ℝ) < 32768)

/-- The variance's divisor: the batch size minus the integer 0 read as a number. -/
theorem dof_apply (i : S_.Idx) : dof i = Spec.nB := by
  show Ideal.ofBits .f32 0x47000000#32 - (((0#32 : BitVec 32).toInt : ℝ) : EReal) = Ideal.ofBits .f32 0x47000000#32
  simp

/-- The divisor is above zero. -/
theorem dof_pos : cmpf .ogt dof (constant (F := Ideal) S_ .f32 0x00000000#32) ix0 = 1#1 := by
  rw [cmpf_apply, dof_apply, constant_apply, Ideal.ofBits_zero_f32]
  show Ideal.cmp .ogt Spec.nB 0 = 1#1
  simp [Ideal.cmp, nB_pos]

/-! ## The pointwise stages at an index -/

theorem hostRsqrt_apply {s : Shape} (v : FVec Ideal s .f32) (i : s.Idx) : Host.rsqrt v i = Ideal.rsqrt (v i) := rfl

/-- The straight-through sign at an index. -/
theorem ste_apply {s : Shape} (w : FVec Ideal s .f32) (i : s.Idx) : ste w i = w i + (Ideal.sign (w i) - w i) := rfl

/-- The clamp at an index. -/
theorem clamp_apply (y : FVec Ideal S32768x3000 .f32) (i : S32768x3000.Idx) : clamp y i = min 1 (max (-1) (y i)) := by
  unfold clamp
  rw [minimumf_apply, maximumf_apply, broadcastInDim_scalar_apply, broadcastInDim_scalar_apply, constant_apply, constant_apply,
    Ideal.ofBits_one_f32, neg_one_word]

/-! ### Batch statistics of a 32768 × 3000 array -/

/-- A vector repeated over the rows reads, at row `b` and column `j`, its entry `j`. -/
theorem rows1_apply (v : FVec Ideal S3000 .f32) (b : Fin 32768) (j : Fin 3000) : rows1 v (ix2 b j) = v (ix1 j) := by
  unfold rows1
  refine (broadcastInDim_apply _ _ _ (ix2 b j) (ix2 (0 : Fin 1) j) fun a => ?_).trans
    (broadcastInDim_apply _ _ _ (ix2 (0 : Fin 1) j) (ix1 j) fun a => ?_)
  · match a with | ⟨0, _⟩ => rfl | ⟨1, _⟩ => rfl
  · match a with | ⟨0, _⟩ => rfl

/-- The column reduction's shape fact in the form that names the index with the row put back. -/
theorem red1 : S32768x3000.Reduces [0] S3000 := by decide

/-- The sum over the rows from the zero initial value, at column `j`, is the sum of that column. -/
theorem colsum1_apply (h : FVec Ideal S32768x3000 .f32) (j : Fin 3000) :
    Host.reduceAdd h (constant (F := Ideal) S_ .f32 0x00000000#32) reducesTo_S32768x3000_S3000_d0 h_S_ (ix1 j)
      = ∑ b : Fin 32768, h (ix2 b j) := by
  rw [hostReduceAdd_apply, Ideal.hostReduceAdd_single reducesTo_S32768x3000_S3000_d0 red1, constant_apply,
    Ideal.ofBits_zero_f32, zero_add]
  refine Finset.sum_congr rfl fun b _ => congrArg h ?_
  funext a
  exact Fin.ext (by match a with | ⟨0, _⟩ => rfl | ⟨1, _⟩ => rfl)

/-- The column mean at column `j`. -/
theorem mean1_apply (h : FVec Ideal S32768x3000 .f32) (j : Fin 3000) :
    mean1 h (ix1 j) = Ideal.div (∑ b : Fin 32768, h (ix2 b j)) Spec.nB := by
  unfold mean1
  rw [hostDivf_apply, colsum1_apply, broadcastInDim_scalar_apply, constant_apply]
  rfl

/-- The deviation from the column mean at row `b`, column `j`. -/
theorem dev1_apply (h : FVec Ideal S32768x3000 .f32) (b : Fin 32768) (j : Fin 3000) :
    dev1 h (ix2 b j) = h (ix2 b j) - Ideal.div (∑ b' : Fin 32768, h (ix2 b' j)) Spec.nB := by
  unfold dev1
  rw [subf_apply]
  refine congrArg (h (ix2 b j) - ·) ?_
  refine (broadcastInDim_apply _ _ _ (ix2 b j) (ix2 (0 : Fin 1) j) fun a => ?_).trans ?_
  · match a with | ⟨0, _⟩ => rfl | ⟨1, _⟩ => rfl
  rw [hostDivf_apply, broadcastInDim_scalar_apply, constant_apply]
  refine congrArg (fun t => Ideal.div t Spec.nB) ?_
  refine (broadcastInDim_apply _ _ _ (ix2 (0 : Fin 1) j) (ix1 j) fun a => ?_).trans (colsum1_apply h j)
  match a with | ⟨0, _⟩ => rfl

/-- The column variance at column `j`: the divisor is positive, so the selection takes the quotient. -/
theorem var1_apply (h : FVec Ideal S32768x3000 .f32) (j : Fin 3000) :
    var1 h (ix1 j) = Ideal.div (∑ b : Fin 32768, dev1 h (ix2 b j) * dev1 h (ix2 b j)) Spec.nB := by
  unfold var1
  rw [select_apply, hostDivf_apply, colsum1_apply, broadcastInDim_scalar_apply, broadcastInDim_scalar_apply,
    broadcastInDim_scalar_apply, dof_pos, select_one, dof_apply]
  rfl

/-- The normalised array at row `b`, column `j`. -/
theorem bn1_apply (h : FVec Ideal S32768x3000 .f32) (g be : FVec Ideal S3000 .f32) (b : Fin 32768) (j : Fin 3000) :
    bn1 h g be (ix2 b j)
      = g (ix1 j) * (h (ix2 b j) - mean1 h (ix1 j)) * Ideal.rsqrt (var1 h (ix1 j) + Spec.eps) + be (ix1 j) := by
  unfold bn1
  simp only [addf_apply, mulf_apply, subf_apply, rows1_apply, hostRsqrt_apply, broadcastInDim_scalar_apply, constant_apply]
  rfl

/-! ### Batch statistics of a 32768 × 10 array -/

/-- A vector repeated over the rows reads, at row `b` and column `j`, its entry `j`. -/
theorem rows2_apply (v : FVec Ideal S10 .f32) (b : Fin 32768) (j : Fin 10) : rows2 v (ix2 b j) = v (ix1 j) := by
  unfold rows2
  refine (broadcastInDim_apply _ _ _ (ix2 b j) (ix2 (0 : Fin 1) j) fun a => ?_).trans
    (broadcastInDim_apply _ _ _ (ix2 (0 : Fin 1) j) (ix1 j) fun a => ?_)
  · match a with | ⟨0, _⟩ => rfl | ⟨1, _⟩ => rfl
  · match a with | ⟨0, _⟩ => rfl

/-- The column reduction's shape fact in the form that names the index with the row put back. -/
theorem red2 : S32768x10.Reduces [0] S10 := by decide

/-- The sum over the rows from the zero initial value, at column `j`, is the sum of that column. -/
theorem colsum2_apply (h : FVec Ideal S32768x10 .f32) (j : Fin 10) :
    Host.reduceAdd h (constant (F := Ideal) S_ .f32 0x00000000#32) reducesTo_S32768x10_S10_d0 h_S_ (ix1 j)
      = ∑ b : Fin 32768, h (ix2 b j) := by
  rw [hostReduceAdd_apply, Ideal.hostReduceAdd_single reducesTo_S32768x10_S10_d0 red2, constant_apply,
    Ideal.ofBits_zero_f32, zero_add]
  refine Finset.sum_congr rfl fun b _ => congrArg h ?_
  funext a
  exact Fin.ext (by match a with | ⟨0, _⟩ => rfl | ⟨1, _⟩ => rfl)

/-- The column mean at column `j`. -/
theorem mean2_apply (h : FVec Ideal S32768x10 .f32) (j : Fin 10) :
    mean2 h (ix1 j) = Ideal.div (∑ b : Fin 32768, h (ix2 b j)) Spec.nB := by
  unfold mean2
  rw [hostDivf_apply, colsum2_apply, broadcastInDim_scalar_apply, constant_apply]
  rfl

/-- The deviation from the column mean at row `b`, column `j`. -/
theorem dev2_apply (h : FVec Ideal S32768x10 .f32) (b : Fin 32768) (j : Fin 10) :
    dev2 h (ix2 b j) = h (ix2 b j) - Ideal.div (∑ b' : Fin 32768, h (ix2 b' j)) Spec.nB := by
  unfold dev2
  rw [subf_apply]
  refine congrArg (h (ix2 b j) - ·) ?_
  refine (broadcastInDim_apply _ _ _ (ix2 b j) (ix2 (0 : Fin 1) j) fun a => ?_).trans ?_
  · match a with | ⟨0, _⟩ => rfl | ⟨1, _⟩ => rfl
  rw [hostDivf_apply, broadcastInDim_scalar_apply, constant_apply]
  refine congrArg (fun t => Ideal.div t Spec.nB) ?_
  refine (broadcastInDim_apply _ _ _ (ix2 (0 : Fin 1) j) (ix1 j) fun a => ?_).trans (colsum2_apply h j)
  match a with | ⟨0, _⟩ => rfl

/-- The column variance at column `j`: the divisor is positive, so the selection takes the quotient. -/
theorem var2_apply (h : FVec Ideal S32768x10 .f32) (j : Fin 10) :
    var2 h (ix1 j) = Ideal.div (∑ b : Fin 32768, dev2 h (ix2 b j) * dev2 h (ix2 b j)) Spec.nB := by
  unfold var2
  rw [select_apply, hostDivf_apply, colsum2_apply, broadcastInDim_scalar_apply, broadcastInDim_scalar_apply,
    broadcastInDim_scalar_apply, dof_pos, select_one, dof_apply]
  rfl

/-- The normalised array at row `b`, column `j`. -/
theorem bn2_apply (h : FVec Ideal S32768x10 .f32) (g be : FVec Ideal S10 .f32) (b : Fin 32768) (j : Fin 10) :
    bn2 h g be (ix2 b j)
      = g (ix1 j) * (h (ix2 b j) - mean2 h (ix1 j)) * Ideal.rsqrt (var2 h (ix1 j) + Spec.eps) + be (ix1 j) := by
  unfold bn2
  simp only [addf_apply, mulf_apply, subf_apply, rows2_apply, hostRsqrt_apply, broadcastInDim_scalar_apply, constant_apply]
  rfl

/-! ## The two products at an index -/

/-- The first layer at row `b`, column `j`: the row of `x` against row `j` of the straight-through weights, plus the bias. -/
theorem stageH_apply (x : FVec Ideal S32768x784 .f32) (w1 : FVec Ideal S3000x784 .f32) (b1 : FVec Ideal S3000 .f32)
    (b : Fin 32768) (j : Fin 3000) :
    stageH x w1 b1 (ix2 b j)
      = (∑ k : Fin 784, x (ix2 b k) * (w1 (ix2 j k) + (Ideal.sign (w1 (ix2 j k)) - w1 (ix2 j k)))) + b1 (ix1 j) := by
  unfold stageH
  rw [addf_apply, rows1_apply]
  refine congrArg (· + b1 (ix1 j)) ?_
  refine (StackMember.dotGeneral_plain_apply (m := 32768) (k := 784) (n := 3000) none x _ b j).trans ?_
  refine Finset.sum_congr rfl fun k _ => ?_
  rw [transpose_ix2_apply]
  rfl

/-- The second layer at row `b`, column `q`. -/
theorem stageO_apply (a : FVec Ideal S32768x3000 .f32) (w2 : FVec Ideal S10x3000 .f32) (b2 : FVec Ideal S10 .f32)
    (b : Fin 32768) (q : Fin 10) :
    stageO a w2 b2 (ix2 b q)
      = (∑ j : Fin 3000, a (ix2 b j) * (w2 (ix2 q j) + (Ideal.sign (w2 (ix2 q j)) - w2 (ix2 q j)))) + b2 (ix1 q) := by
  unfold stageO
  rw [addf_apply, rows2_apply]
  refine congrArg (· + b2 (ix1 q)) ?_
  refine (StackMember.dotGeneral_plain_apply (m := 32768) (k := 3000) (n := 10) none a _ b q).trans ?_
  refine Finset.sum_congr rfl fun j _ => ?_
  rw [transpose_ix2_apply]
  rfl

/-! ## From the program's spelling to the specification -/

/-- A clamped number is a real, whatever was clamped: it lies between -1 and 1. -/
theorem clamp_real (y : EReal) : ∃ r : ℝ, min 1 (max (-1) y) = (r : EReal) := by
  have h1 : min 1 (max (-1) y) ≤ 1 := min_le_left _ _
  have h0 : (-1 : EReal) ≤ 1 := by
    have h : ((-1 : ℝ) : EReal) ≤ ((1 : ℝ) : EReal) := EReal.coe_le_coe_iff.mpr (by norm_num)
    simpa using h
  have h2 : (-1 : EReal) ≤ min 1 (max (-1) y) := le_min h0 (le_max_left _ _)
  have h3 : (1 : EReal) ≠ ⊤ := by rw [← EReal.coe_one]; exact EReal.coe_ne_top 1
  refine ⟨(min 1 (max (-1) y)).toReal, (EReal.coe_toReal ?_ ?_).symm⟩
  · intro e; rw [e] at h1; simp at h1; exact h3 h1
  · intro e; rw [e] at h2; simp at h2; exact h3 h2

/-- The straight-through spelling of the sign of a real is its sign. -/
theorem ste_of_real {x : EReal} (hx : ∃ r : ℝ, x = (r : EReal)) : x + (Ideal.sign x - x) = Ideal.sign x := by
  obtain ⟨r, rfl⟩ := hx
  exact Cert.Lib.BatchMoments.straight_through_sign r

/-- The composed stages, at row `b` and column `q`, are the specification of the arguments' entries, provided the
    two weight matrices have real entries: then the straight-through signs of the weights are their signs; the
    clamped activation is a real whatever the normalisation gave, so its straight-through sign is its sign too;
    the variance's divisor is the batch size and its selection takes the quotient; sums start from 0. -/
theorem whole_apply (x : FVec Ideal S32768x784 .f32) (w1 : FVec Ideal S3000x784 .f32) (b1 g1 be1 : FVec Ideal S3000 .f32)
    (w2 : FVec Ideal S10x3000 .f32) (b2 g2 be2 : FVec Ideal S10 .f32)
    (X : Fin 32768 → Fin 784 → EReal) (W1 : Fin 3000 → Fin 784 → EReal) (B1 G1 BE1 : Fin 3000 → EReal)
    (W2 : Fin 10 → Fin 3000 → EReal) (B2 G2 BE2 : Fin 10 → EReal)
    (hx : ∀ b k, x (ix2 b k) = X b k) (hW1 : ∀ j k, w1 (ix2 j k) = W1 j k) (hb1 : ∀ j, b1 (ix1 j) = B1 j)
    (hg1 : ∀ j, g1 (ix1 j) = G1 j) (hbe1 : ∀ j, be1 (ix1 j) = BE1 j) (hW2 : ∀ q j, w2 (ix2 q j) = W2 q j)
    (hb2 : ∀ q, b2 (ix1 q) = B2 q) (hg2 : ∀ q, g2 (ix1 q) = G2 q) (hbe2 : ∀ q, be2 (ix1 q) = BE2 q)
    (hr1 : ∀ j k, ∃ r : ℝ, W1 j k = (r : EReal)) (hr2 : ∀ q j, ∃ r : ℝ, W2 q j = (r : EReal))
    (b : Fin 32768) (q : Fin 10) :
    whole x w1 b1 g1 be1 w2 b2 g2 be2 (ix2 b q) = Spec.out X W1 B1 G1 BE1 W2 B2 G2 BE2 b q := by
  unfold whole
  have hH : ∀ (b : Fin 32768) (j : Fin 3000), stageH x w1 b1 (ix2 b j) = Spec.h X W1 B1 b j := fun b j => by
    rw [stageH_apply, hb1]
    unfold Spec.h
    refine congrArg (· + B1 j) (Finset.sum_congr rfl fun k _ => ?_)
    rw [hx, hW1, ste_of_real (hr1 j k)]
  generalize stageH x w1 b1 = H at hH ⊢
  have hm1 : ∀ j : Fin 3000, mean1 H (ix1 j) = Spec.mean1 X W1 B1 j := fun j => by
    rw [mean1_apply]; unfold Spec.mean1; simp only [hH]
  have hv1 : ∀ j : Fin 3000, var1 H (ix1 j) = Spec.var1 X W1 B1 j := fun j => by
    rw [var1_apply]; unfold Spec.var1 Spec.mean1; simp only [dev1_apply, hH]
  have hz : ∀ (b : Fin 32768) (j : Fin 3000), clamp (bn1 H g1 be1) (ix2 b j) = Spec.z X W1 B1 G1 BE1 b j := fun b j => by
    rw [clamp_apply, bn1_apply, hm1, hv1, hH, hg1, hbe1]; rfl
  generalize clamp (bn1 H g1 be1) = Z at hz ⊢
  have ha : ∀ (b : Fin 32768) (j : Fin 3000), ste Z (ix2 b j) = Ideal.sign (Spec.z X W1 B1 G1 BE1 b j) := fun b j => by
    rw [ste_apply, hz]; exact ste_of_real (clamp_real _)
  generalize ste Z = A at ha ⊢
  have hO : ∀ (b : Fin 32768) (q : Fin 10), stageO A w2 b2 (ix2 b q) = Spec.o X W1 B1 G1 BE1 W2 B2 b q := fun b q => by
    rw [stageO_apply, hb2]
    unfold Spec.o
    refine congrArg (· + B2 q) (Finset.sum_congr rfl fun j _ => ?_)
    rw [ha, hW2, ste_of_real (hr2 q j)]
  generalize stageO A w2 b2 = O at hO ⊢
  rw [bn2_apply, mean2_apply, var2_apply, hg2, hbe2]
  unfold Spec.out Spec.var2 Spec.mean2
  simp only [dev2_apply, hO]

/-- The reference's result, entry by entry, is the specification of its arguments' entries, for weight matrices with
    real entries. -/
theorem ref_value (V : Valuation τ sig (Elt Ideal))
    (hw1 : ∀ j : Fin 3000, ∀ k : Fin 784, ∃ r : ℝ, (V (main_arg1 : DevRef τ sig) : S3000x784.Idx → EReal) (ix2 j k) = (r : EReal))
    (hw2 : ∀ q : Fin 10, ∀ j : Fin 3000, ∃ r : ℝ, (V (main_arg5 : DevRef τ sig) : S10x3000.Idx → EReal) (ix2 q j) = (r : EReal))
    (b : Fin 32768) (q : Fin 10) :
    (StableHlo.after (Cert.ReferenceIdeal.RefRun.ops (F := Ideal)) V (main_v57 : DevRef τ sig) : S32768x10.Idx → EReal) (ix2 b q)
      = Cert.Spec.out (fun b k => (V (main_arg0 : DevRef τ sig) : S32768x784.Idx → EReal) (ix2 b k))
          (fun j k => (V (main_arg1 : DevRef τ sig) : S3000x784.Idx → EReal) (ix2 j k))
          (fun j => (V (main_arg2 : DevRef τ sig) : S3000.Idx → EReal) (ix1 j))
          (fun j => (V (main_arg3 : DevRef τ sig) : S3000.Idx → EReal) (ix1 j))
          (fun j => (V (main_arg4 : DevRef τ sig) : S3000.Idx → EReal) (ix1 j))
          (fun q j => (V (main_arg5 : DevRef τ sig) : S10x3000.Idx → EReal) (ix2 q j))
          (fun q => (V (main_arg6 : DevRef τ sig) : S10.Idx → EReal) (ix1 q))
          (fun q => (V (main_arg7 : DevRef τ sig) : S10.Idx → EReal) (ix1 q))
          (fun q => (V (main_arg8 : DevRef τ sig) : S10.Idx → EReal) (ix1 q)) b q := by
  rw [after_result]
  exact whole_apply _ _ _ _ _ _ _ _ _ _ _ _ _ _ _ _ _ _ (fun _ _ => rfl) (fun _ _ => rfl) (fun _ => rfl) (fun _ => rfl)
    (fun _ => rfl) (fun _ _ => rfl) (fun _ => rfl) (fun _ => rfl) (fun _ => rfl) hw1 hw2 b q

end Cert.ReferenceIdeal.RefValue

end
-- ==== Proof.Finite.lean ====
/-
  From the finiteness test to real entries.

  The precondition is the conjunction, over the nine argument arrays, of "every entry has absolute value below
  +∞": each test is the comparison of |a| with the word 0x7F800000 (which denotes +∞), reduced over all axes by
  "and" from the constant 1.  On the extended reals |x| = max x (-x), and |x| < +∞ fails exactly at the two
  infinities, so a test that comes out 1 says that every entry of its array is a real number.
-/
import proofs.«121665_j13159779795462_2_alg».proof.Defs
import proofs.«121665_j13159779795462_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem Idealize.ShloMosaic.ValueIdx Cert.Pre_finite_inputs Cert.Pre_finite_inputs.Gen

/-- The scalar shape has one index. -/
instance : Subsingleton S_.Idx := ⟨fun a b => funext fun d => d.elim0⟩

/-- The word 0x7F800000 denotes +∞. -/
theorem inf_word : Ideal.ofBits .f32 0x7F800000#32 = ⊤ := by simp [Ideal.ofBits, Ideal.ieee]

/-- An extended real whose absolute value is below +∞ is a real. -/
theorem real_of_abs_lt_inf (x : EReal)
    (hx : Ideal.cmp .olt (max x (-x)) (Ideal.ofBits .f32 0x7F800000#32) = 1#1) : ∃ r : ℝ, x = (r : EReal) := by
  rw [inf_word] at hx
  induction x using EReal.rec with
  | bot => simp [Ideal.cmp] at hx
  | top => simp [Ideal.cmp] at hx
  | coe r => exact ⟨r, rfl⟩

/-- One test: if "all |a| < +∞" is 1 then every entry of `a` is a real. -/
theorem reals_of_all {s : Shape} {axes : List (Fin s.rank)} (a : FVec Ideal s .f32)
    (hb : S_.BroadcastsInDim s (![] : Fin 0 → Fin s.rank)) (hr : s.ReducesTo axes S_) (hS : 0 < S_.numel)
    (e : Host.reduce IntOp.andi (cmpf .olt (Host.absf a) (broadcastInDim s ![] hb (constant (F := Ideal) S_ .f32 0x7F800000#32)))
        (constantI S_ 1 1#1) hr hS ix0 = 1#1) (i : s.Idx) : ∃ r : ℝ, a i = (r : EReal) :=
  real_of_abs_lt_inf (a i) (Host.reduce_andi_all _ _ hr hS ix0 e i)

/-- The printed test on nine arrays: if it is all ones, every entry of every array is a real. -/
theorem fn_reals (a0 : FVec Ideal S32768x784 .f32) (a1 : FVec Ideal S3000x784 .f32) (a2 a3 a4 : FVec Ideal S3000 .f32)
    (a5 : FVec Ideal S10x3000 .f32) (a6 a7 a8 : FVec Ideal S10 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [fn, fn_part1, fn_part2] at h0
  simp only [Idealize.ShloMosaic.andi, IntOp.andi_eq_one] at h0
  obtain ⟨⟨⟨⟨⟨⟨⟨⟨e0, e1⟩, e2⟩, e3⟩, e4⟩, e5⟩, e6⟩, e7⟩, e8⟩ := h0
  exact ⟨reals_of_all a0 _ _ _ e0, reals_of_all a1 _ _ _ e1, reals_of_all a2 _ _ _ e2, reals_of_all a3 _ _ _ e3,
    reals_of_all a4 _ _ _ e4, reals_of_all a5 _ _ _ e5, reals_of_all a6 _ _ _ e6, reals_of_all a7 _ _ _ e7,
    reals_of_all a8 _ _ _ e8⟩

/-- Under the precondition every entry of every argument array of the idealised program is a real, on every device. -/
theorem reals_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, ((m ((c.tc : Thread Cert.KernelIdeal.nD Cert.KernelIdeal.τ).loc Cert.KernelIdeal.main_arg0)) : S32768x784.Idx → EReal) i = (r : EReal))
      ∧ (∀ i, ∃ r : ℝ, ((m ((c.tc : Thread Cert.KernelIdeal.nD Cert.KernelIdeal.τ).loc Cert.KernelIdeal.main_arg1)) : S3000x784.Idx → EReal) i = (r : EReal))
      ∧ (∀ i, ∃ r : ℝ, ((m ((c.tc : Thread Cert.KernelIdeal.nD Cert.KernelIdeal.τ).loc Cert.KernelIdeal.main_arg2)) : S3000.Idx → EReal) i = (r : EReal))
      ∧ (∀ i, ∃ r : ℝ, ((m ((c.tc : Thread Cert.KernelIdeal.nD Cert.KernelIdeal.τ).loc Cert.KernelIdeal.main_arg3)) : S3000.Idx → EReal) i = (r : EReal))
      ∧ (∀ i, ∃ r : ℝ, ((m ((c.tc : Thread Cert.KernelIdeal.nD Cert.KernelIdeal.τ).loc Cert.KernelIdeal.main_arg4)) : S3000.Idx → EReal) i = (r : EReal))
      ∧ (∀ i, ∃ r : ℝ, ((m ((c.tc : Thread Cert.KernelIdeal.nD Cert.KernelIdeal.τ).loc Cert.KernelIdeal.main_arg5)) : S10x3000.Idx → EReal) i = (r : EReal))
      ∧ (∀ i, ∃ r : ℝ, ((m ((c.tc : Thread Cert.KernelIdeal.nD Cert.KernelIdeal.τ).loc Cert.KernelIdeal.main_arg6)) : S10.Idx → EReal) i = (r : EReal))
      ∧ (∀ i, ∃ r : ℝ, ((m ((c.tc : Thread Cert.KernelIdeal.nD Cert.KernelIdeal.τ).loc Cert.KernelIdeal.main_arg7)) : S10.Idx → EReal) i = (r : EReal))
      ∧ (∀ i, ∃ r : ℝ, ((m ((c.tc : Thread Cert.KernelIdeal.nD Cert.KernelIdeal.τ).loc Cert.KernelIdeal.main_arg8)) : S10.Idx → EReal) i = (r : EReal)) :=
  fn_reals _ _ _ _ _ _ _ _ _ (h c)

end Cert.Finite

end
-- ==== Proof.Consts.lean ====
/-
  The float words the two programs spell, as the extended reals they denote: zero, one, minus one and the batch
  size 32768.
-/
import proofs.«121665_j13159779795462_2_alg».proof.Proof.Spec

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_neg_one : Ideal.ofBits .f32 0xBF800000#32 = -1 := by
  simp [Ideal.ofBits, Ideal.ieee, -EReal.coe_mul]; norm_num
/-- The batch size is the real number 32768. -/
theorem nB_eq : Cert.Spec.nB = ((32768 : ℝ) : EReal) := by
  unfold Cert.Spec.nB
  simp [Ideal.ofBits, Ideal.ieee, -EReal.coe_mul]; norm_num

end Cert.Consts

end
-- ==== Proof.SpecBridge.lean ====
/-
  One-pass and two-pass batch statistics give the same network output on finite data.

  The streaming computation keeps, per column, the sum and the sum of squares, and takes the variance as
  (sum of squares)/n - mean²; the textbook computation takes the mean of the squared deviations.  For a column of
  real numbers the two agree (LibBatchMoments.ereal_var), and every column that is normalised here is real: an entry
  of the first layer is a finite sum of products of a real input with a sign (which is -1, 0 or 1) plus a real
  bias; an entry of the second layer is a finite sum of products of two signs plus a real bias.
-/
import proofs.«121665_j13159779795462_2_alg».proof.Proof.Spec
import proofs.«121665_j13159779795462_2_alg».proof.Proof.Consts
import proofs.«121665_j13159779795462_2_alg».proof.Proof.LibBatchMoments

noncomputable section

namespace Cert.Spec

open Idealize.ShloMosaic Cert.Lib.BatchMoments

/-- The one-pass variance of a column: (sum of squares)/n - mean². -/
def varOne (f : Fin 32768 → EReal) : EReal :=
  Ideal.div (∑ b : Fin 32768, f b * f b) nB - Ideal.div (∑ b : Fin 32768, f b) nB * Ideal.div (∑ b : Fin 32768, f b) nB
/-- The two-pass variance of a column: the mean of the squared deviations from the mean. -/
def varTwo (f : Fin 32768 → EReal) : EReal :=
  Ideal.div (∑ b : Fin 32768, (f b - Ideal.div (∑ b' : Fin 32768, f b') nB) * (f b - Ideal.div (∑ b' : Fin 32768, f b') nB)) nB

/-- On a real column the two variances agree. -/
theorem varOne_eq_varTwo (f : Fin 32768 → EReal) (hf : ∀ b, ∃ r : ℝ, f b = (r : EReal)) : varOne f = varTwo f := by
  choose g hg using hf
  have e : f = fun b => ((g b : ℝ) : EReal) := funext hg
  subst e
  unfold varOne varTwo
  rw [Cert.Consts.nB_eq]
  exact ereal_var g 32768 (by norm_num) (by simp)

/-- A sign is a real number. -/
theorem sign_real (y : EReal) : ∃ r : ℝ, Ideal.sign y = (r : EReal) := by
  induction y using EReal.rec with
  | bot => exact ⟨-1, by rw [Ideal.sign_bot]; norm_num⟩
  | top => exact ⟨1, by rw [Ideal.sign_top]; norm_num⟩
  | coe r => exact ⟨_, Ideal.sign_coe r⟩

/-- A finite sum of products of reals plus a real is a real. -/
theorem affine_real {ι : Type*} [Fintype ι] (a b : ι → EReal) (c : EReal) (ha : ∀ i, ∃ r : ℝ, a i = (r : EReal))
    (hb : ∀ i, ∃ r : ℝ, b i = (r : EReal)) (hc : ∃ r : ℝ, c = (r : EReal)) :
    ∃ r : ℝ, (∑ i, a i * b i) + c = (r : EReal) := by
  choose a' ha' using ha
  choose b' hb' using hb
  obtain ⟨c', rfl⟩ := hc
  refine ⟨(∑ i, a' i * b' i) + c', ?_⟩
  rw [EReal.coe_add, coe_sum]
  congr 1
  exact Finset.sum_congr rfl fun i _ => by rw [ha', hb', EReal.coe_mul]

section
variable (x : Fin 32768 → Fin 784 → EReal) (w1 : Fin 3000 → Fin 784 → EReal) (b1 g1 be1 : Fin 3000 → EReal)
  (w2 : Fin 10 → Fin 3000 → EReal) (b2 g2 be2 : Fin 10 → EReal)

/-- The streaming form of the first normalisation: the variance taken in one pass. -/
def zOne (b : Fin 32768) (j : Fin 3000) : EReal :=
  min 1 (max (-1) (g1 j * (h x w1 b1 b j - mean1 x w1 b1 j) * Ideal.rsqrt (varOne (fun b' => h x w1 b1 b' j) + eps) + be1 j))
/-- The second layer over the streaming form. -/
def oOne (b : Fin 32768) (q : Fin 10) : EReal :=
  (∑ j : Fin 3000, Ideal.sign (zOne x w1 b1 g1 be1 b j) * Ideal.sign (w2 q j)) + b2 q
/-- The streaming form of the result. -/
def outOne (b : Fin 32768) (q : Fin 10) : EReal :=
  g2 q * (oOne x w1 b1 g1 be1 w2 b2 b q - Ideal.div (∑ b' : Fin 32768, oOne x w1 b1 g1 be1 w2 b2 b' q) nB)
      * Ideal.rsqrt (varOne (fun b' => oOne x w1 b1 g1 be1 w2 b2 b' q) + eps) + be2 q

theorem var1_eq_varTwo (j : Fin 3000) : var1 x w1 b1 j = varTwo (fun b => h x w1 b1 b j) := rfl
theorem var2_eq_varTwo (q : Fin 10) : var2 x w1 b1 g1 be1 w2 b2 q = varTwo (fun b => o x w1 b1 g1 be1 w2 b2 b q) := rfl

variable (hx : ∀ b k, ∃ r : ℝ, x b k = (r : EReal)) (hb1 : ∀ j, ∃ r : ℝ, b1 j = (r : EReal)) (hb2 : ∀ q, ∃ r : ℝ, b2 q = (r : EReal))

include hx hb1 in
theorem h_real (b : Fin 32768) (j : Fin 3000) : ∃ r : ℝ, h x w1 b1 b j = (r : EReal) :=
  affine_real _ _ _ (fun k => hx b k) (fun k => sign_real _) (hb1 j)

include hx hb1 in
theorem zOne_eq (b : Fin 32768) (j : Fin 3000) : zOne x w1 b1 g1 be1 b j = z x w1 b1 g1 be1 b j := by
  unfold zOne z
  rw [varOne_eq_varTwo _ (fun b' => h_real x w1 b1 hx hb1 b' j), ← var1_eq_varTwo]

include hx hb1 in
theorem oOne_eq (b : Fin 32768) (q : Fin 10) : oOne x w1 b1 g1 be1 w2 b2 b q = o x w1 b1 g1 be1 w2 b2 b q := by
  unfold oOne o
  simp only [zOne_eq x w1 b1 g1 be1 hx hb1]

include hb2 in
theorem o_real (b : Fin 32768) (q : Fin 10) : ∃ r : ℝ, o x w1 b1 g1 be1 w2 b2 b q = (r : EReal) :=
  affine_real _ _ _ (fun j => sign_real _) (fun j => sign_real _) (hb2 q)

include hx hb1 hb2 in
/-- On finite data the streaming form of the result is the specification. -/
theorem outOne_eq (b : Fin 32768) (q : Fin 10) :
    outOne x w1 b1 g1 be1 w2 b2 g2 be2 b q = out x w1 b1 g1 be1 w2 b2 g2 be2 b q := by
  unfold outOne out mean2
  simp only [oOne_eq x w1 b1 g1 be1 w2 b2 hx hb1]
  rw [varOne_eq_varTwo _ (fun b' => o_real x w1 b1 g1 be1 w2 b2 hb2 b' q), ← var2_eq_varTwo]

end

end Cert.Spec

end
-- ==== Proof.KI.ValueDefs.lean ====
import proofs.«121665_j13159779795462_2_alg».proof.Proof.Gen.KernelIdeal.Launch
import proofs.«121665_j13159779795462_2_alg».proof.Proof.Spec
import Idealize.ShloMosaic.Lib.ValueIdx

noncomputable section

namespace Cert.KernelIdeal.H

open Cert.KernelIdeal Cert.KernelIdeal.Gen
open Idealize.ShloMosaic Idealize.ShloMosaic.TcCoe Idealize.SL.Sem Idealize.ShloMosaic.ValueIdx

/-! # What the kernels compute, entry by entry, from the arrays a region finds

`V` is the TensorCore's buffer contents at a region's entry.  The first layer reads the batch, the transposed sign
matrix and the bias row; the normalised and clamped activation reads the mean and variance rows the first region
left, the scale and shift rows; the second layer reads the second transposed sign matrix and bias row. -/

/-- An array read at an index, as an extended real. -/
abbrev rd (S : Shape) (x : S.Idx → EReal) (i : S.Idx) : EReal := x i

variable (V : (c : Dev nD) → (b : Ref sig .tc) → Buf (Elt Ideal) ((c : Thread nD τ).loc b)) (c : Dev nD)

/-- First layer at batch row `b`, column `j`. -/
def hK (b : Fin 32768) (j : Fin 3000) : EReal :=
  (∑ k : Fin 784, rd S32768x784 (V c main_arg0) (ix2 b k) * rd S784x3000 (V c main_v2) (ix2 k j)) + rd S1x3000 (V c main_v6) (ix2 (0 : Fin 1) j)

/-- Normalised with the stored mean and variance rows, scaled, shifted and clamped to [-1, 1]. -/
def zK (b : Fin 32768) (j : Fin 3000) : EReal :=
  min 1 (max (-1) (rd S1x3000 (V c main_v7) (ix2 (0 : Fin 1) j) * (hK V c b j - rd S1x3000 (V c main_v12_0) (ix2 (0 : Fin 1) j))
    * Ideal.rsqrt (rd S1x3000 (V c main_v12_1) (ix2 (0 : Fin 1) j) + Cert.Spec.eps) + rd S1x3000 (V c main_v8) (ix2 (0 : Fin 1) j)))

/-- Second layer on the signs of the clamped activations. -/
def oK (b : Fin 32768) (q : Fin 10) : EReal :=
  (∑ j : Fin 3000, Ideal.sign (zK V c b j) * rd S3000x10 (V c main_v5) (ix2 j q)) + rd S1x10 (V c main_v9) (ix2 (0 : Fin 1) q)

end Cert.KernelIdeal.H

end
-- ==== Proof.KI.Value2.lean ====
/- REGION 2's VALUE on the extended reals: what the output array of the third pallas_call holds after its run, index by
   index, as a function of the five arrays the region finds at its entry. Every grid point writes back the block
   scale · (x − mean) · rsqrt(variance + ε) + shift of its rows; the 64 blocks of 512 rows tile the 32768 rows, so the
   array ends as that one function of the entry arrays at every index. -/
import proofs.«121665_j13159779795462_2_alg».proof.Proof.KI.Region2
import proofs.«121665_j13159779795462_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

/-! ## The normalisation of one number -/

/-- scale · (x − mean) · rsqrt(variance + ε) + shift, of five extended reals: `g` the scale, `x` the number, `mu` the
    mean, `v` the variance, `be` the shift — in the body's own association. -/
def sc2 (g x mu v be : EReal) : EReal := g * (x - mu) * Ideal.rsqrt (v + Cert.Spec.eps) + be

theorem sc2_def (g x mu v be : EReal) : sc2 g x mu v be = g * (x - mu) * Ideal.rsqrt (v + Cert.Spec.eps) + be := rfl

/-! ## The payload at an index -/

/-- The body's one stored value at row `p`, column `q` of the block: the block's number there normalised by the four
    rows read at column `q` (`v0` the variance row, `v5` the scale, `v7` the block, `v9` the mean, `v17` the shift). -/
theorem pay2_5_apply (v0 v5 v9 v17 : Vec Ideal S1x10 .f32) (v7 : Vec Ideal S512x10 .f32) (p : Fin 512) (q : Fin 10) :
    k2_pay1 v0 v5 v7 v9 v17 (ix2 p q)
      = sc2 (v5 (ix2 (0 : Fin 1) q)) (v7 (ix2 p q)) (v9 (ix2 (0 : Fin 1) q)) (v0 (ix2 (0 : Fin 1) q)) (v17 (ix2 (0 : Fin 1) q)) := by
  unfold k2_pay1
  simp only [shapeCast_self]
  simp only [addf_apply, mulf_apply, subf_apply, broadcastTo_1b_ab_apply]
  rfl

/-! ## The output array as one function of the entry arrays -/

/-- The value at row `b`, column `q`: `a0` the raw second-layer output, `a1` its column means, `a2` its column
    variances, `a3` the scale, `a4` the shift. -/
def val2 (a0 : S32768x10.Idx → EReal) (a1 a2 a3 a4 : S1x10.Idx → EReal) (b : Fin 32768) (q : Fin 10) : EReal :=
  sc2 (a3 (ix2 (0 : Fin 1) q)) (a0 (ix2 b q)) (a1 (ix2 (0 : Fin 1) q)) (a2 (ix2 (0 : Fin 1) q)) (a4 (ix2 (0 : Fin 1) q))

/-- The same over the array's own indices. -/
def G2 (a0 : S32768x10.Idx → EReal) (a1 a2 a3 a4 : S1x10.Idx → EReal) : S32768x10.Idx → EReal :=
  fun i => val2 a0 a1 a2 a3 a4 (i 0) (i 1)

theorem hz2 : (![0, 0] : Fin 2 → Nat) = fun _ => 0 := funext fun a => by fin_cases a <;> rfl

/-- The printed index maps, decided over the 64 points: the raw output's block and the result's block are the point's own
    block of rows; the four rows are always block (0, 0). -/
theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of `G2` of the arrays as the region finds them: the block's row `p` is the
    array's row 512·t + p, and each of the four rows is read whole at every point. -/
theorem flushed2_5_eq (c : Dev nD) (t : Fin cfg2.N) :
    (dat2 (F := Ideal) V c).flushed 5 t = ((cfg2.win 5).blk t).view.read (Elt Ideal)
      (G2 (V c main_v13_0) (V c main_v13_1) (V c main_v13_2) (V c main_v10) (V c main_v11)) := by
  show (cfg2.win 5).cut (grid2.coords t) ((dat2 (F := Ideal) V c).after 5 t) = _
  rw [after2_5]
  unfold out2_5
  rw [View.canon_unit_zero hz2]
  simp only [View.ld_unit_zero (S := S512x10) hz2, View.ld_unit_zero (S := S1x10) hz2]
  obtain ⟨e00, e01, e50, e51, e10, e11, e20, e21, e30, e31, e40, e41⟩ := idx_facts2 t
  have ht : t.val < 64 := lt_of_lt_of_eq t.isLt N_2
  funext j
  obtain ⟨p, q, rfl⟩ : ∃ (p : Fin 512) (q : Fin 10), j = ix2 p q := ⟨j 0, j 1, eq_ix2 j⟩
  show k2_pay1 (iblk2 V c 2 t) (iblk2 V c 3 t) (iblk2 V c 0 t) (iblk2 V c 1 t) (iblk2 V c 4 t) (ix2 p q) = _
  refine (pay2_5_apply _ _ _ _ _ p q).trans ?_
  show sc2 (V c main_v10 (((cfg2.win 3).blk t).view.emb (ix2 (0 : Fin 1) q)))
        (V c main_v13_0 (((cfg2.win 0).blk t).view.emb (ix2 p q)))
        (V c main_v13_1 (((cfg2.win 1).blk t).view.emb (ix2 (0 : Fin 1) q)))
        (V c main_v13_2 (((cfg2.win 2).blk t).view.emb (ix2 (0 : Fin 1) q)))
        (V c main_v11 (((cfg2.win 4).blk t).view.emb (ix2 (0 : Fin 1) q)))
      = G2 (V c main_v13_0) (V c main_v13_1) (V c main_v13_2) (V c main_v10) (V c main_v11) (((cfg2.win 5).blk t).view.emb (ix2 p q))
  have hp : p.val < 512 := p.isLt
  have h5 : ((cfg2.win 5).blk t).view.emb (ix2 p q) = ix2 (⟨t.val * 512 + p.val, by omega⟩ : Fin 32768) q := by
    funext a; apply Fin.ext
    match a with
    | ⟨0, _⟩ => show win2_5.index t (0 : Fin 2) * 512 + 1 * p.val = t.val * 512 + p.val; omega
    | ⟨1, _⟩ => show win2_5.index t (1 : Fin 2) * 10 + 1 * q.val = q.val; omega
  have h0 : ((cfg2.win 0).blk t).view.emb (ix2 p q) = ix2 (⟨t.val * 512 + p.val, by omega⟩ : Fin 32768) q := by
    funext a; apply Fin.ext
    match a with
    | ⟨0, _⟩ => show win2_0.index t (0 : Fin 2) * 512 + 1 * p.val = t.val * 512 + p.val; omega
    | ⟨1, _⟩ => show win2_0.index t (1 : Fin 2) * 10 + 1 * q.val = q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 10 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 10 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 10 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 10 + 1 * q.val = q.val; omega
  rw [h0, h1, h2, h3, h4, h5]
  rfl

/-- An index of the array is in point `t`'s block iff each coordinate is in the block's range on its axis. -/
theorem mem_blk2_5 (t : Fin cfg2.N) (i : S32768x10.Idx) :
    i ∈ ((cfg2.win 5).blk t).view.set ↔ ∀ a : Fin 2, win2_5.index t a * S512x10.size a ≤ (i a).val ∧ (i a).val < win2_5.index t a * S512x10.size a + S512x10.size a := by
  show i ∈ ((View.whole main_v14).slice (win2_5.rect t)).set ↔ _
  rw [View.set_slice_whole, Rect.mem_set_unit]
  exact Iff.rfl

/-- The 64 blocks of 512 rows tile the array: row `r` is in the block of point `r / 512`. -/
theorem arr_cover2_5 (i : S32768x10.Idx) : ∃ t : Fin cfg2.N, (cfg2.win 5).flush t = true ∧ i ∈ ((cfg2.win 5).blk t).view.set := by
  have hi0 : (i 0).val < 32768 := (i 0).isLt
  have hi1 : (i 1).val < 10 := (i 1).isLt
  have hN : (i 0).val / 512 < cfg2.N := lt_of_lt_of_eq (show (i 0).val / 512 < 64 by omega) N_2.symm
  obtain ⟨-, -, e50, e51, -⟩ := idx_facts2 ⟨(i 0).val / 512, hN⟩
  refine ⟨⟨(i 0).val / 512, hN⟩, flush2_5 _, ?_⟩
  rw [mem_blk2_5]
  intro a
  match a with
  | ⟨0, _⟩ =>
    show win2_5.index ⟨(i 0).val / 512, hN⟩ (0 : Fin 2) * 512 ≤ (i 0).val ∧ (i 0).val < win2_5.index ⟨(i 0).val / 512, hN⟩ (0 : Fin 2) * 512 + 512
    have e : win2_5.index ⟨(i 0).val / 512, hN⟩ (0 : Fin 2) = (i 0).val / 512 := e50
    omega
  | ⟨1, _⟩ =>
    show win2_5.index ⟨(i 0).val / 512, hN⟩ (1 : Fin 2) * 10 ≤ (i 1).val ∧ (i 1).val < win2_5.index ⟨(i 0).val / 512, hN⟩ (1 : Fin 2) * 10 + 10
    omega

/-- The output array after the region's run is `G2` of the entry arrays. -/
theorem arr2_5_eq (c : Dev nD) :
    (dat2 (F := Ideal) V c).arrAt 5 cfg2.N = G2 (V c main_v13_0) (V c main_v13_1) (V c main_v13_2) (V c main_v10) (V c main_v11) :=
  (dat2 (F := Ideal) V c).arrAt_eq_of_cover 5 (G2 (V c main_v13_0) (V c main_v13_1) (V c main_v13_2) (V c main_v10) (V c main_v11))
    (fun t _ => flushed2_5_eq V c t) arr_cover2_5

/-- REGION 2's VALUE: after the run the output array at row `b`, column `q` holds the raw output's number there
    normalised by the entry arrays' rows at column `q`: scale · (x − mean) · rsqrt(variance + ε) + shift (`sc2`). -/
theorem value2 (c : Dev nD) (b : Fin 32768) (q : Fin 10) :
    (dat2 (F := Ideal) V c).arrAt 5 cfg2.N (ix2 b q)
      = sc2 (V c main_v10 (ix2 (0 : Fin 1) q)) (V c main_v13_0 (ix2 b q)) (V c main_v13_1 (ix2 (0 : Fin 1) q))
          (V c main_v13_2 (ix2 (0 : Fin 1) q)) (V c main_v11 (ix2 (0 : Fin 1) q)) := by
  rw [arr2_5_eq V c]
  rfl

end Cert.KernelIdeal.H

end
-- ==== Proof.KI.Value0Pay.lean ====
/- REGION 0's payloads read at an index, on the extended reals: the block's first-layer values as sums over the 784
   contracted places plus the bias; the two running rows as what they held plus the block's column sums (of the values,
   of their squares); the mean and the variance as the completed rows divided by the batch size. -/
import proofs.«121665_j13159779795462_2_alg».proof.Proof.Gen.KernelIdeal.Skeleton
import proofs.«121665_j13159779795462_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.ValueIdx

/-! ## The first layer on a block of rows -/

/-- Row `r` of a block of `n` rows against column `j` of the weights, plus the bias: `a0` the rows, `a1` the weights
    (784 by 3000), `a2` the bias row. -/
def hrow {n : ℕ} (a0 : (⟨2, ![n, 784]⟩ : Shape).Idx → EReal) (a1 : S784x3000.Idx → EReal) (a2 : S1x3000.Idx → EReal)
    (r : Fin n) (j : Fin 3000) : EReal :=
  (∑ k : Fin 784, a0 (ix2 r k) * a1 (ix2 k j)) + a2 (ix2 (0 : Fin 1) j)

/-- Two such values agree when the entries they read agree. -/
theorem hrow_congr {n n' : ℕ} {a0 : (⟨2, ![n, 784]⟩ : Shape).Idx → EReal} {a0' : (⟨2, ![n', 784]⟩ : Shape).Idx → EReal}
    {a1 a1' : S784x3000.Idx → EReal} {a2 a2' : S1x3000.Idx → EReal} {r : Fin n} {r' : Fin n'} {j : Fin 3000}
    (h0 : ∀ k : Fin 784, a0 (ix2 r k) = a0' (ix2 r' k)) (h1 : ∀ k : Fin 784, a1 (ix2 k j) = a1' (ix2 k j))
    (h2 : a2 (ix2 (0 : Fin 1) j) = a2' (ix2 (0 : Fin 1) j)) : hrow a0 a1 a2 r j = hrow a0' a1' a2' r' j := by
  unfold hrow
  rw [h2]
  exact congrArg (· + a2' (ix2 (0 : Fin 1) j)) (Finset.sum_congr rfl fun k _ => by rw [h0 k, h1 k])

/-- The block's matrix product read at an index: the sum over the 784 contracted places. -/
theorem matmul0_apply (l : FVec Ideal S512x784 .bf16) (w : FVec Ideal S784x3000 .bf16) (r : Fin 512) (j : Fin 3000) :
    matmul dot_S512x784_S784x3000_S512x3000_1_0_0_1_n_n none l w (constant S512x3000 .f32 0x00000000#32) (ix2 r j) = ∑ k : Fin 784, l (ix2 r k) * w (ix2 k j) := by
  show FloatOps.matmul dot_S512x784_S784x3000_S512x3000_1_0_0_1_n_n none l w (constant S512x3000 .f32 0x00000000#32) (ix2 r j) = _
  rw [Ideal.matmul_constant_zero_apply, ← Equiv.sum_comp (contrEquiv1 dot_S512x784_S784x3000_S512x3000_1_0_0_1_n_n 784 rfl rfl).symm]
  refine Finset.sum_congr rfl fun k _ => ?_
  have c2 := contrEquiv1_symm_val dot_S512x784_S784x3000_S512x3000_1_0_0_1_n_n 784 rfl rfl k
  have l2 : (dot_S512x784_S784x3000_S512x3000_1_0_0_1_n_n).lhsIdx (ix2 r j) ((contrEquiv1 _ 784 rfl rfl).symm k) = ix2 r k := by
    funext ax; apply Fin.ext
    match ax with
    | ⟨0, _⟩ => simp [DotDims.lhsIdx, dot_S512x784_S784x3000_S512x3000_1_0_0_1_n_n]; rfl
    | ⟨1, _⟩ => simp [DotDims.lhsIdx, dot_S512x784_S784x3000_S512x3000_1_0_0_1_n_n]; exact c2
  have r2 : (dot_S512x784_S784x3000_S512x3000_1_0_0_1_n_n).rhsIdx (ix2 r j) ((contrEquiv1 _ 784 rfl rfl).symm k) = ix2 k j := by
    funext ax; apply Fin.ext
    match ax with
    | ⟨0, _⟩ => simp [DotDims.rhsIdx, dot_S512x784_S784x3000_S512x3000_1_0_0_1_n_n]; exact c2
    | ⟨1, _⟩ => simp [DotDims.rhsIdx, dot_S512x784_S784x3000_S512x3000_1_0_0_1_n_n]; rfl
  rw [l2, r2]

/-- The block's first-layer value at row `r`, column `j`. -/
theorem pay3_apply (x0 : FVec Ideal S512x784 .f32) (x1 : FVec Ideal S784x3000 .bf16) (x2 : FVec Ideal S1x3000 .f32) (r : Fin 512) (j : Fin 3000) :
    k0_pay3 (F := Ideal) x0 x1 x2 (ix2 r j) = hrow x0 x1 x2 r j := by
  unfold k0_pay3
  simp only [shapeCast_self]
  show matmul dot_S512x784_S784x3000_S512x3000_1_0_0_1_n_n none (truncf .bf16 x0 bitsLt_bf16_f32) x1 (constant S512x3000 .f32 0x00000000#32) (ix2 r j)
      + broadcastTo S512x3000 x2 broadcasts_S1x3000_S512x3000 (ix2 r j) = _
  unfold hrow
  rw [matmul0_apply, broadcastTo_1b_ab_apply]
  rfl

/-! ## A column sum of a block -/

/-- The body's sum over the 512 rows of a block, read at column `j`. -/
theorem colsum_apply (src : FVec Ideal S512x3000 .f32) (hacc : (0x00000000#32 : BitVec 32) = 0x00000000#32) (j : Fin 3000) :
    multiReduction .add [0] S3000 src 0x00000000#32 reduces_S512x3000_S3000 (.inl rfl) hacc (ix1 j) = ∑ r : Fin 512, src (ix2 r j) := by
  refine (Ideal.multiReduction_add_single src 0x00000000#32 reduces_S512x3000_S3000 (.inl rfl) hacc (ix1 j)).trans ?_
  refine Finset.sum_congr rfl fun r _ => congrArg src ?_
  funext ax; apply Fin.ext
  match ax with
  | ⟨0, _⟩ => rfl
  | ⟨1, _⟩ => rfl

/-- The first running row after a block: what it held plus the block's column sums. -/
theorem pay4_apply (x0 : FVec Ideal S512x784 .f32) (x1 : FVec Ideal S784x3000 .bf16) (x2 xs : FVec Ideal S1x3000 .f32) (j : Fin 3000) :
    k0_pay4 (F := Ideal) x0 x1 x2 xs (ix2 (0 : Fin 1) j) = xs (ix2 (0 : Fin 1) j) + ∑ r : Fin 512, hrow x0 x1 x2 r j := by
  unfold k0_pay4
  simp only [shapeCast_self]
  show xs (ix2 (0 : Fin 1) j) + shapeCast S1x3000 (multiReduction .add [0] S3000 (k0_pay3 (F := Ideal) x0 x1 x2) 0x00000000#32 reduces_S512x3000_S3000 (.inl rfl) rfl) shapeCasts_S3000_S1x3000 (ix2 (0 : Fin 1) j) = _
  refine congrArg (xs (ix2 (0 : Fin 1) j) + ·) ?_
  refine (shapeCast_a_1a_apply _ shapeCasts_S3000_S1x3000 0 j).trans ?_
  refine (colsum_apply _ rfl j).trans ?_
  exact Finset.sum_congr rfl fun r _ => pay3_apply x0 x1 x2 r j

/-- The second running row after a block: what it held plus the column sums of the squares. -/
theorem pay5_apply (x0 : FVec Ideal S512x784 .f32) (x1 : FVec Ideal S784x3000 .bf16) (x2 xs : FVec Ideal S1x3000 .f32) (j : Fin 3000) :
    k0_pay5 (F := Ideal) x0 x1 x2 xs (ix2 (0 : Fin 1) j) = xs (ix2 (0 : Fin 1) j) + ∑ r : Fin 512, hrow x0 x1 x2 r j * hrow x0 x1 x2 r j := by
  unfold k0_pay5
  simp only [shapeCast_self]
  show xs (ix2 (0 : Fin 1) j) + shapeCast S1x3000 (multiReduction .add [0] S3000 (mulf (k0_pay3 (F := Ideal) x0 x1 x2) (k0_pay3 (F := Ideal) x0 x1 x2)) 0x00000000#32 reduces_S512x3000_S3000 (.inl rfl) rfl) shapeCasts_S3000_S1x3000 (ix2 (0 : Fin 1) j) = _
  refine congrArg (xs (ix2 (0 : Fin 1) j) + ·) ?_
  refine (shapeCast_a_1a_apply _ shapeCasts_S3000_S1x3000 0 j).trans ?_
  refine (colsum_apply _ rfl j).trans ?_
  refine Finset.sum_congr rfl fun r _ => ?_
  show k0_pay3 (F := Ideal) x0 x1 x2 (ix2 r j) * k0_pay3 (F := Ideal) x0 x1 x2 (ix2 r j) = _
  rw [pay3_apply]

/-- The rows start from zero. -/
theorem pay1_apply (j : Fin 3000) : k0_pay1 (F := Ideal) (ix2 (0 : Fin 1) j) = 0 := by
  unfold k0_pay1
  simp only [shapeCast_self]
  show Ideal.ofBits .f32 0x00000000#32 = 0
  exact Ideal.ofBits_zero_f32
theorem pay2_apply (j : Fin 3000) : k0_pay2 (F := Ideal) (ix2 (0 : Fin 1) j) = 0 := by
  unfold k0_pay2
  simp only [shapeCast_self]
  show Ideal.ofBits .f32 0x00000000#32 = 0
  exact Ideal.ofBits_zero_f32

/-- The mean: the completed first row divided by the batch size. -/
theorem pay6_apply (v : FVec Ideal S1x3000 .f32) (j : Fin 3000) :
    k0_pay6 (F := Ideal) v (ix2 (0 : Fin 1) j) = Ideal.div (v (ix2 (0 : Fin 1) j)) Cert.Spec.nB := rfl

/-- The variance: the completed second row divided by the batch size, less the mean's square. -/
theorem pay7_apply (v w : FVec Ideal S1x3000 .f32) (j : Fin 3000) :
    k0_pay7 (F := Ideal) v w (ix2 (0 : Fin 1) j)
      = Ideal.div (w (ix2 (0 : Fin 1) j)) Cert.Spec.nB - Ideal.div (v (ix2 (0 : Fin 1) j)) Cert.Spec.nB * Ideal.div (v (ix2 (0 : Fin 1) j)) Cert.Spec.nB := rfl

end Cert.KernelIdeal.H
end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.KI.Value0Blocks.lean ====
/- REGION 0's VALUE, the parts that do not look at the body's runs: a block's rows are 512 consecutive rows of the batch,
   the weights and the bias row are read whole at every point; the sums over the 64 blocks of 512 rows are the sums
   over the batch; only the last point writes the two output rows back, and its write-back fills the whole row. -/
import proofs.«121665_j13159779795462_2_alg».proof.Proof.KI.Region0
import proofs.«121665_j13159779795462_2_alg».proof.Proof.KI.Value0Pay
import proofs.«121665_j13159779795462_2_alg».proof.Proof.KI.ValueDefs
import proofs.«121665_j13159779795462_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The first layer as the sum over the contracted places plus the bias, with the three arrays as arguments. -/
theorem hK_eq_hrow (c : Dev nD) (b : Fin 32768) (j : Fin 3000) :
    hK V c b j = hrow (n := 32768) (V c main_arg0) (V c main_v2) (V c main_v6) b j := rfl

/-- The same at a natural row number: zero past the batch (never read). -/
def hKn (c : Dev nD) (b : ℕ) (j : Fin 3000) : EReal := if h : b < 32768 then hK V c ⟨b, h⟩ j else 0
/-- Block `s`'s column sum at column `j`, -/
def colsum (c : Dev nD) (s : ℕ) (j : Fin 3000) : EReal := ∑ r : Fin 512, hKn V c (r.val + 512 * s) j
/-- and its column sum of squares. -/
def colsq (c : Dev nD) (s : ℕ) (j : Fin 3000) : EReal := ∑ r : Fin 512, hKn V c (r.val + 512 * s) j * hKn V c (r.val + 512 * s) j

/-- The printed index maps, decided over the 64 points: the batch's block is the point's own block of rows; every other
    window is always block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## A block's rows are rows of the batch -/

/-- Row `r` of block `t` is row 512·t + r of the batch; the weights and the bias row are read whole at every point. -/
theorem hrow_blk (c : Dev nD) (t : Fin cfg0.N) (r : Fin 512) (j : Fin 3000) :
    hrow (n := 512) (iblk0 V c 0 t) (iblk0 V c 1 t) (iblk0 V c 2 t) r j = hKn V c (r.val + 512 * t.val) j := by
  obtain ⟨e00, e01, e10, e11, e20, e21, -⟩ := idx_facts0 t
  have ht : t.val < 64 := lt_of_lt_of_eq t.isLt N_0
  have hr : r.val < 512 := r.isLt
  have hb : r.val + 512 * t.val < 32768 := by omega
  unfold hKn; rw [dif_pos hb, hK_eq_hrow]
  refine hrow_congr (fun k => ?_) (fun k => ?_) ?_
  · show V c main_arg0 (((cfg0.win 0).blk t).view.emb (ix2 r k)) = V c main_arg0 (ix2 (⟨r.val + 512 * t.val, hb⟩ : Fin 32768) k)
    refine congrArg (V c main_arg0) ?_
    funext a; apply Fin.ext
    match a with
    | ⟨0, _⟩ => show win0_0.index t (0 : Fin 2) * 512 + 1 * r.val = r.val + 512 * t.val; omega
    | ⟨1, _⟩ => show win0_0.index t (1 : Fin 2) * 784 + 1 * k.val = k.val; omega
  · show V c main_v2 (((cfg0.win 1).blk t).view.emb (ix2 k j)) = V c main_v2 (ix2 k j)
    refine congrArg (V c main_v2) ?_
    funext a; apply Fin.ext
    match a with
    | ⟨0, _⟩ => show win0_1.index t (0 : Fin 2) * 784 + 1 * k.val = k.val; omega
    | ⟨1, _⟩ => show win0_1.index t (1 : Fin 2) * 3000 + 1 * j.val = j.val; omega
  · show V c main_v6 (((cfg0.win 2).blk t).view.emb (ix2 (0 : Fin 1) j)) = V c main_v6 (ix2 (0 : Fin 1) j)
    refine congrArg (V c main_v6) ?_
    funext a; apply Fin.ext
    match a with
    | ⟨0, _⟩ => show win0_2.index t (0 : Fin 2) * 1 + 1 * 0 = 0; omega
    | ⟨1, _⟩ => show win0_2.index t (1 : Fin 2) * 3000 + 1 * j.val = j.val; omega

theorem colsum_blk (c : Dev nD) (t : Fin cfg0.N) (j : Fin 3000) :
    ∑ r : Fin 512, hrow (n := 512) (iblk0 V c 0 t) (iblk0 V c 1 t) (iblk0 V c 2 t) r j = colsum V c t.val j :=
  Finset.sum_congr rfl fun r _ => hrow_blk V c t r j
theorem colsq_blk (c : Dev nD) (t : Fin cfg0.N) (j : Fin 3000) :
    ∑ r : Fin 512, hrow (n := 512) (iblk0 V c 0 t) (iblk0 V c 1 t) (iblk0 V c 2 t) r j * hrow (n := 512) (iblk0 V c 0 t) (iblk0 V c 1 t) (iblk0 V c 2 t) r j
      = colsq V c t.val j :=
  Finset.sum_congr rfl fun r _ => by rw [hrow_blk V c t r j]

theorem h63 : 63 < cfg0.N := lt_of_lt_of_eq (by decide : 63 < 64) N_0.symm
abbrev t63 : Fin cfg0.N := ⟨63, h63⟩

/-! ## The sums over the blocks are the sums over the batch -/

theorem sum_blocks (f : ℕ → EReal) : ∑ s ∈ Finset.range 64, ∑ r : Fin 512, f (r.val + 512 * s) = ∑ b : Fin 32768, f b.val := by
  rw [Finset.sum_range (fun s => ∑ r : Fin 512, f (r.val + 512 * s))]
  exact (Cert.Lib.BlockSum.sum_fin_mul 64 512 f).symm

theorem total_sum (c : Dev nD) (j : Fin 3000) : ∑ s ∈ Finset.range 64, colsum V c s j = ∑ b : Fin 32768, hK V c b j := by
  unfold colsum
  rw [sum_blocks (fun b => hKn V c b j)]
  exact Finset.sum_congr rfl fun b _ => by unfold hKn; rw [dif_pos b.isLt]
theorem total_sq (c : Dev nD) (j : Fin 3000) : ∑ s ∈ Finset.range 64, colsq V c s j = ∑ b : Fin 32768, hK V c b j * hK V c b j := by
  unfold colsq
  rw [sum_blocks (fun b => hKn V c b j * hKn V c b j)]
  exact Finset.sum_congr rfl fun b _ => by unfold hKn; rw [dif_pos b.isLt]

/-! ## The output arrays after the run -/

/-- Only the last point writes the outputs back. -/
theorem flush_last_3 (t : Fin cfg0.N) (hf : (cfg0.win 3).flush t = true) : t = t63 := by
  have h := (flush0_3 t).mp hf
  have ht : t.val < 64 := lt_of_lt_of_eq t.isLt N_0
  exact Fin.ext (by show t.val = 63; omega)
theorem flush_last_4 (t : Fin cfg0.N) (hf : (cfg0.win 4).flush t = true) : t = t63 := by
  have h := (flush0_4 t).mp hf
  have ht : t.val < 64 := lt_of_lt_of_eq t.isLt N_0
  exact Fin.ext (by show t.val = 63; omega)

/-- The last point's block of an output is the whole row. -/
theorem emb_last_3 (u : Fin 1) (j : Fin 3000) : ((cfg0.win 3).blk t63).view.emb (ix2 u j) = ix2 u j := by
  obtain ⟨-, -, -, -, -, -, e30, e31, -⟩ := idx_facts0 t63
  have hu : u.val = 0 := by omega
  funext a; apply Fin.ext
  match a with
  | ⟨0, _⟩ => show win0_3.index t63 (0 : Fin 2) * 1 + 1 * u.val = u.val; omega
  | ⟨1, _⟩ => show win0_3.index t63 (1 : Fin 2) * 3000 + 1 * j.val = j.val; omega
theorem emb_last_4 (u : Fin 1) (j : Fin 3000) : ((cfg0.win 4).blk t63).view.emb (ix2 u j) = ix2 u j := by
  obtain ⟨-, -, -, -, -, -, -, -, e40, e41⟩ := idx_facts0 t63
  have hu : u.val = 0 := by omega
  funext a; apply Fin.ext
  match a with
  | ⟨0, _⟩ => show win0_4.index t63 (0 : Fin 2) * 1 + 1 * u.val = u.val; omega
  | ⟨1, _⟩ => show win0_4.index t63 (1 : Fin 2) * 3000 + 1 * j.val = j.val; omega

theorem mem_blk0_3 (t : Fin cfg0.N) (i : S1x3000.Idx) :
    i ∈ ((cfg0.win 3).blk t).view.set ↔ ∀ a : Fin 2, win0_3.index t a * S1x3000.size a ≤ (i a).val ∧ (i a).val < win0_3.index t a * S1x3000.size a + S1x3000.size a := by
  show i ∈ ((View.whole main_v12_0).slice (win0_3.rect t)).set ↔ _
  rw [View.set_slice_whole, Rect.mem_set_unit]
  exact Iff.rfl
theorem mem_blk0_4 (t : Fin cfg0.N) (i : S1x3000.Idx) :
    i ∈ ((cfg0.win 4).blk t).view.set ↔ ∀ a : Fin 2, win0_4.index t a * S1x3000.size a ≤ (i a).val ∧ (i a).val < win0_4.index t a * S1x3000.size a + S1x3000.size a := by
  show i ∈ ((View.whole main_v12_1).slice (win0_4.rect t)).set ↔ _
  rw [View.set_slice_whole, Rect.mem_set_unit]
  exact Iff.rfl

/-- An output row after the run is what the last block left in its staging buffer (`G`): that block's one write-back
    fills the whole row. -/
theorem arr0_3_of (c : Dev nD) (G : Vec Ideal S1x3000 .f32) (hG : (dat0 (F := Ideal) V c).after 3 t63 = G) :
    (dat0 (F := Ideal) V c).arrAt 3 cfg0.N = G := by
  refine (dat0 (F := Ideal) V c).arrAt_eq_of_cover 3 G (fun t hf => ?_) (fun i => ?_)
  · obtain rfl := flush_last_3 t hf
    show (cfg0.win 3).cut (grid0.coords t63) ((dat0 (F := Ideal) V c).after 3 t63) = _
    rw [hG]
    funext y
    obtain ⟨u, j, rfl⟩ : ∃ (u : Fin 1) (j : Fin 3000), y = ix2 u j := ⟨y 0, y 1, eq_ix2 y⟩
    show G (ix2 u j) = G (((cfg0.win 3).blk t63).view.emb (ix2 u j))
    rw [emb_last_3]
  · obtain ⟨-, -, -, -, -, -, e30, e31, -⟩ := idx_facts0 t63
    have hi0 : (i 0).val < 1 := (i 0).isLt
    have hi1 : (i 1).val < 3000 := (i 1).isLt
    refine ⟨t63, (flush0_3 t63).mpr (by show (63 : ℕ) % 64 = 63; decide), ?_⟩
    rw [mem_blk0_3]
    intro a
    match a with
    | ⟨0, _⟩ => show win0_3.index t63 (0 : Fin 2) * 1 ≤ (i 0).val ∧ (i 0).val < win0_3.index t63 (0 : Fin 2) * 1 + 1; omega
    | ⟨1, _⟩ => show win0_3.index t63 (1 : Fin 2) * 3000 ≤ (i 1).val ∧ (i 1).val < win0_3.index t63 (1 : Fin 2) * 3000 + 3000; omega

theorem arr0_4_of (c : Dev nD) (G : Vec Ideal S1x3000 .f32) (hG : (dat0 (F := Ideal) V c).after 4 t63 = G) :
    (dat0 (F := Ideal) V c).arrAt 4 cfg0.N = G := by
  refine (dat0 (F := Ideal) V c).arrAt_eq_of_cover 4 G (fun t hf => ?_) (fun i => ?_)
  · obtain rfl := flush_last_4 t hf
    show (cfg0.win 4).cut (grid0.coords t63) ((dat0 (F := Ideal) V c).after 4 t63) = _
    rw [hG]
    funext y
    obtain ⟨u, j, rfl⟩ : ∃ (u : Fin 1) (j : Fin 3000), y = ix2 u j := ⟨y 0, y 1, eq_ix2 y⟩
    show G (ix2 u j) = G (((cfg0.win 4).blk t63).view.emb (ix2 u j))
    rw [emb_last_4]
  · obtain ⟨-, -, -, -, -, -, -, -, e40, e41⟩ := idx_facts0 t63
    have hi0 : (i 0).val < 1 := (i 0).isLt
    have hi1 : (i 1).val < 3000 := (i 1).isLt
    refine ⟨t63, (flush0_4 t63).mpr (by show (63 : ℕ) % 64 = 63; decide), ?_⟩
    rw [mem_blk0_4]
    intro a
    match a with
    | ⟨0, _⟩ => show win0_4.index t63 (0 : Fin 2) * 1 ≤ (i 0).val ∧ (i 0).val < win0_4.index t63 (0 : Fin 2) * 1 + 1; omega
    | ⟨1, _⟩ => show win0_4.index t63 (1 : Fin 2) * 3000 ≤ (i 1).val ∧ (i 1).val < win0_4.index t63 (1 : Fin 2) * 3000 + 3000; omega

end Cert.KernelIdeal.H

end
-- ==== Proof.KI.Value0Pieces.lean ====
/- REGION 0, piece by piece: what each of the body's three cases leaves in the two carried rows and in the two outputs,
   as a term of the point's three input blocks and of what the carried rows held before — the body's own payloads
   (column sums added to the running row; the mean and the variance from the completed rows). Generic in the arithmetic. -/
import proofs.«121665_j13159779795462_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz_row : (![0, 0] : Fin 2 → Nat) = fun _ => 0 := funext fun a => by fin_cases a <;> rfl

/-- The first block leaves in the first carried row the block's column sums added to the zero row, -/
theorem pieceA0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) :
    readBack VS0_0 (kernelRun0_A c i arg1 harg1 arg2 harg2 arg3 harg3 arg4 harg4 arg5 harg5 arg6 harg6 arg7 harg7 hc0 hc1 x0 x1 x2).1 = k0_pay4 x0 x1 x2 k0_pay1 := by
  unfold readBack
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero hz_row, View.readCov_unit_zero _ hz_row]
  simp only [View.readAt_eq_ld, harg1.read_unread, harg2.read_unread, harg3.read_unread,
    View.ld_unit_zero (S := S512x784) hz_row, View.ld_unit_zero (S := S784x3000) hz_row, View.ld_unit_zero (S := S1x3000) hz_row]

/-- and in the second the column sums of the squares added to the zero row. -/
theorem pieceA1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : cond0_0 i) (hc1 : ¬cond0_1 i)
    (x0 : Vec F S512x784 .f32) (x1 : Vec F S784x3000 .bf16) (x2 : Vec F S1x3000 .f32) :
    readBack VS0_1 (kernelRun0_A c i arg1 harg1 arg2 harg2 arg3 harg3 arg4 harg4 arg5 harg5 arg6 harg6 arg7 harg7 hc0 hc1 x0 x1 x2).2.1 = k0_pay5 x0 x1 x2 k0_pay2 := by
  unfold readBack
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero hz_row, View.readCov_unit_zero _ hz_row]
  simp only [View.readAt_eq_ld, harg1.read_unread, harg2.read_unread, harg3.read_unread,
    View.ld_unit_zero (S := S512x784) hz_row, View.ld_unit_zero (S := S784x3000) hz_row, View.ld_unit_zero (S := S1x3000) hz_row]

/-- A middle block adds its column sums to what the first carried row held, -/
theorem pieceB0 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) :
    readBack VS0_0 (kernelRun0_B c i arg1 harg1 arg2 harg2 arg3 harg3 arg4 harg4 arg5 harg5 arg6 harg6 arg7 harg7 hc0 hc1 x0 x1 x2 xs0 xs1).1 = k0_pay4 x0 x1 x2 xs0 := by
  unfold readBack
  rw [View.read_writes_eq_canon _ _ _ (scover0_B_0 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero hz_row]
  simp only [View.readAt_eq_ld, harg1.read_unread, harg2.read_unread, harg3.read_unread, harg6.read_unread, harg7.read_unread,
    View.ld_unit_zero (S := S512x784) hz_row, View.ld_unit_zero (S := S784x3000) hz_row, View.ld_unit_zero (S := S1x3000) hz_row]

/-- and the column sums of its squares to what the second held. -/
theorem pieceB1 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : ¬cond0_1 i)
    (x0 : Vec F S512x784 .f32) (x1 : Vec F S784x3000 .bf16) (x2 : Vec F S1x3000 .f32) (xs0 xs1 : Vec F S1x3000 .f32) :
    readBack VS0_1 (kernelRun0_B c i arg1 harg1 arg2 harg2 arg3 harg3 arg4 harg4 arg5 harg5 arg6 harg6 arg7 harg7 hc0 hc1 x0 x1 x2 xs0 xs1).2.1 = k0_pay5 x0 x1 x2 xs1 := by
  unfold readBack
  rw [View.read_writes_eq_canon _ _ _ (scover0_B_1 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero hz_row]
  simp only [View.readAt_eq_ld, harg1.read_unread, harg2.read_unread, harg3.read_unread, harg6.read_unread, harg7.read_unread,
    View.ld_unit_zero (S := S512x784) hz_row, View.ld_unit_zero (S := S784x3000) hz_row, View.ld_unit_zero (S := S1x3000) hz_row]

/-- The last block completes the rows the same way and stores the mean: the completed sums divided by the batch size, -/
theorem pieceC3 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) :
    readBack VO0_3 (kernelRun0_C c i arg1 harg1 arg2 harg2 arg3 harg3 arg4 harg4 arg5 harg5 arg6 harg6 arg7 harg7 hc0 hc1 x0 x1 x2 xs0 xs1).1 = k0_pay6 (k0_pay4 x0 x1 x2 xs0) := by
  unfold readBack
  rw [View.read_writes_eq_canon _ _ _ (cover0_C_3 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz_row, View.readCov_unit_zero _ hz_row]
  simp only [View.readAt_eq_ld, harg1.read_unread, harg2.read_unread, harg3.read_unread, harg6.read_unread, harg7.read_unread,
    View.ld_unit_zero (S := S512x784) hz_row, View.ld_unit_zero (S := S784x3000) hz_row, View.ld_unit_zero (S := S1x3000) hz_row]

/-- and the variance: the completed sums of squares divided by the batch size, less the mean's square. -/
theorem pieceC4 (c : Dev nD) (i : grid0.Coords)
    (arg1 : Memref sig .tc .vmem S512x784 .f32) (harg1 : arg1.IsWhole) (arg2 : Memref sig .tc .vmem S784x3000 .bf16) (harg2 : arg2.IsWhole)
    (arg3 : Memref sig .tc .vmem S1x3000 .f32) (harg3 : arg3.IsWhole) (arg4 : Memref sig .tc .vmem S1x3000 .f32) (harg4 : arg4.IsWhole)
    (arg5 : Memref sig .tc .vmem S1x3000 .f32) (harg5 : arg5.IsWhole) (arg6 : Memref sig .tc .vmem S1x3000 .f32) (harg6 : arg6.IsWhole)
    (arg7 : Memref sig .tc .vmem S1x3000 .f32) (harg7 : arg7.IsWhole) (hc0 : ¬cond0_0 i) (hc1 : cond0_1 i)
    (x0 : Vec F S512x784 .f32) (x1 : Vec F S784x3000 .bf16) (x2 : Vec F S1x3000 .f32) (xs0 xs1 : Vec F S1x3000 .f32) :
    readBack VO0_4 (kernelRun0_C c i arg1 harg1 arg2 harg2 arg3 harg3 arg4 harg4 arg5 harg5 arg6 harg6 arg7 harg7 hc0 hc1 x0 x1 x2 xs0 xs1).2.1 = k0_pay7 (k0_pay4 x0 x1 x2 xs0) (k0_pay5 x0 x1 x2 xs1) := by
  unfold readBack
  rw [View.read_writes_eq_canon _ _ _ (cover0_C_4 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero hz_row, View.readCov_unit_zero _ hz_row, View.readCov_unit_zero _ hz_row]
  simp only [View.readAt_eq_ld, harg1.read_unread, harg2.read_unread, harg3.read_unread, harg6.read_unread, harg7.read_unread,
    View.ld_unit_zero (S := S512x784) hz_row, View.ld_unit_zero (S := S784x3000) hz_row, View.ld_unit_zero (S := S1x3000) hz_row]

end Cert.KernelIdeal.H
end
-- ==== Proof.KI.Value0.lean ====
/- REGION 0's VALUE on the extended reals: after the first pallas_call's run its two output rows hold, column by column,
   the mean of the first layer over the whole batch and the mean of its squares less the mean's square. The two carried
   rows hold after block n the column sums (of the values, of their squares) over blocks 0 … n, by induction on the
   block; the last block completes the sums, divides by the batch size and stores; its write-back fills the row. -/
import proofs.«121665_j13159779795462_2_alg».proof.Proof.KI.Value0Blocks
import proofs.«121665_j13159779795462_2_alg».proof.Proof.KI.Value0Pieces

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The pieces at a grid point -/

set_option maxHeartbeats 1000000 in
theorem pieceA0_at (c : Dev nD) (t : Fin cfg0.N) (h0 : t.val % 64 = 0) (h1 : ¬t.val % 64 = 63) :
    readBack VS0_0 (runA0 (F := Ideal) V c t h0 h1).1 = k0_pay4 (F := Ideal) (iblk0 V c 0 t) (iblk0 V c 1 t) (iblk0 V c 2 t) (k0_pay1 (F := Ideal)) :=
  pieceA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
set_option maxHeartbeats 1000000 in
theorem pieceA1_at (c : Dev nD) (t : Fin cfg0.N) (h0 : t.val % 64 = 0) (h1 : ¬t.val % 64 = 63) :
    readBack VS0_1 (runA0 (F := Ideal) V c t h0 h1).2.1 = k0_pay5 (F := Ideal) (iblk0 V c 0 t) (iblk0 V c 1 t) (iblk0 V c 2 t) (k0_pay2 (F := Ideal)) :=
  pieceA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
set_option maxHeartbeats 1000000 in
theorem pieceB0_at (c : Dev nD) (t : Fin cfg0.N) (h0 : ¬t.val % 64 = 0) (h1 : ¬t.val % 64 = 63) (xs0 xs1 : Vec Ideal S1x3000 .f32) :
    readBack VS0_0 (runB0 (F := Ideal) V c t h0 h1 xs0 xs1).1 = k0_pay4 (F := Ideal) (iblk0 V c 0 t) (iblk0 V c 1 t) (iblk0 V c 2 t) xs0 :=
  pieceB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
set_option maxHeartbeats 1000000 in
theorem pieceB1_at (c : Dev nD) (t : Fin cfg0.N) (h0 : ¬t.val % 64 = 0) (h1 : ¬t.val % 64 = 63) (xs0 xs1 : Vec Ideal S1x3000 .f32) :
    readBack VS0_1 (runB0 (F := Ideal) V c t h0 h1 xs0 xs1).2.1 = k0_pay5 (F := Ideal) (iblk0 V c 0 t) (iblk0 V c 1 t) (iblk0 V c 2 t) xs1 :=
  pieceB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
set_option maxHeartbeats 1000000 in
theorem pieceC3_at (c : Dev nD) (t : Fin cfg0.N) (h0 : ¬t.val % 64 = 0) (h1 : t.val % 64 = 63) (xs0 xs1 : Vec Ideal S1x3000 .f32) :
    readBack VO0_3 (runC0 (F := Ideal) V c t h0 h1 xs0 xs1).1 = k0_pay6 (F := Ideal) (k0_pay4 (F := Ideal) (iblk0 V c 0 t) (iblk0 V c 1 t) (iblk0 V c 2 t) xs0) :=
  pieceC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1
set_option maxHeartbeats 1000000 in
theorem pieceC4_at (c : Dev nD) (t : Fin cfg0.N) (h0 : ¬t.val % 64 = 0) (h1 : t.val % 64 = 63) (xs0 xs1 : Vec Ideal S1x3000 .f32) :
    readBack VO0_4 (runC0 (F := Ideal) V c t h0 h1 xs0 xs1).2.1
      = k0_pay7 (F := Ideal) (k0_pay4 (F := Ideal) (iblk0 V c 0 t) (iblk0 V c 1 t) (iblk0 V c 2 t) xs0) (k0_pay5 (F := Ideal) (iblk0 V c 0 t) (iblk0 V c 1 t) (iblk0 V c 2 t) xs1) :=
  pieceC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1

/-! ## The carried rows after each block -/

/-- The same block number, the same contents. -/
theorem outsAt0_congr (c : Dev nD) {n m : ℕ} (hn : n < cfg0.N) (hm : m < cfg0.N) (e : n = m) :
    outsAt0 (F := Ideal) V c n hn = outsAt0 (F := Ideal) V c m hm := by
  subst e; rfl

/-- After the first block the rows hold that block's column sums. -/
theorem rows_first (c : Dev nD) (t : Fin cfg0.N) (h0 : t.val % 64 = 0) (h1 : ¬t.val % 64 = 63) (j : Fin 3000) :
    (outsAt0 (F := Ideal) V c t.val t.isLt).2.2.1 (ix2 (0 : Fin 1) j) = colsum V c t.val j
    ∧ (outsAt0 (F := Ideal) V c t.val t.isLt).2.2.2 (ix2 (0 : Fin 1) j) = colsq V c t.val j := by
  rw [outsAt0_A (F := Ideal) V c t h0 h1]
  dsimp only
  rw [pieceA0_at V c t h0 h1, pieceA1_at V c t h0 h1]
  refine ⟨?_, ?_⟩
  · refine (pay4_apply (iblk0 V c 0 t) (iblk0 V c 1 t) (iblk0 V c 2 t) (k0_pay1 (F := Ideal)) j).trans ?_
    rw [pay1_apply, zero_add, colsum_blk]
  · refine (pay5_apply (iblk0 V c 0 t) (iblk0 V c 1 t) (iblk0 V c 2 t) (k0_pay2 (F := Ideal)) j).trans ?_
    rw [pay2_apply, zero_add, colsq_blk]

/-- A middle block adds its column sums to what the rows held. -/
theorem rows_step (c : Dev nD) (t : Fin cfg0.N) (h0 : ¬t.val % 64 = 0) (h1 : ¬t.val % 64 = 63) (j : Fin 3000) :
    (outsAt0 (F := Ideal) V c t.val t.isLt).2.2.1 (ix2 (0 : Fin 1) j) = (prev0 (F := Ideal) V c t).2.2.1 (ix2 (0 : Fin 1) j) + colsum V c t.val j
    ∧ (outsAt0 (F := Ideal) V c t.val t.isLt).2.2.2 (ix2 (0 : Fin 1) j) = (prev0 (F := Ideal) V c t).2.2.2 (ix2 (0 : Fin 1) j) + colsq V c t.val j := by
  rw [outsAt0_B (F := Ideal) V c t h0 h1]
  dsimp only
  rw [pieceB0_at V c t h0 h1, pieceB1_at V c t h0 h1]
  refine ⟨?_, ?_⟩
  · refine (pay4_apply (iblk0 V c 0 t) (iblk0 V c 1 t) (iblk0 V c 2 t) _ j).trans ?_
    rw [colsum_blk]
  · refine (pay5_apply (iblk0 V c 0 t) (iblk0 V c 1 t) (iblk0 V c 2 t) _ j).trans ?_
    rw [colsq_blk]

/-- So after block `n` (short of the last) the rows hold the column sums over blocks 0 … n. -/
theorem rows_upto (c : Dev nD) (j : Fin 3000) : ∀ (n : ℕ) (hn : n < cfg0.N), n ≤ 62 →
    (outsAt0 (F := Ideal) V c n hn).2.2.1 (ix2 (0 : Fin 1) j) = ∑ s ∈ Finset.range (n + 1), colsum V c s j
    ∧ (outsAt0 (F := Ideal) V c n hn).2.2.2 (ix2 (0 : Fin 1) j) = ∑ s ∈ Finset.range (n + 1), colsq V c s j
  | 0, hn, _ => by
    have h := rows_first V c ⟨0, hn⟩ (Nat.zero_mod _) (by show ¬(0 : ℕ) % 64 = 63; decide) j
    rw [Finset.sum_range_one, Finset.sum_range_one]
    exact h
  | n + 1, hn, hle => by
    have ih := rows_upto c j n (Nat.lt_of_succ_lt hn) (by omega)
    have h := rows_step V c ⟨n + 1, hn⟩ (by show ¬(n + 1) % 64 = 0; omega) (by show ¬(n + 1) % 64 = 63; omega) j
    have hp : prev0 (F := Ideal) V c ⟨n + 1, hn⟩ = outsAt0 (F := Ideal) V c n (Nat.lt_of_succ_lt hn) :=
      outsAt0_congr V c _ _ (by show n + 1 - 1 = n; omega)
    rw [hp, ih.1, ih.2] at h
    rw [Finset.sum_range_succ _ (n + 1), Finset.sum_range_succ _ (n + 1)]
    exact h

/-! ## The last block's outputs -/

/-- What the last block stores: the mean and the variance of the first layer over the whole batch. -/
theorem outs_last (c : Dev nD) (j : Fin 3000) :
    (outsAt0 (F := Ideal) V c t63.val t63.isLt).1 (ix2 (0 : Fin 1) j) = Ideal.div (∑ b : Fin 32768, hK V c b j) Cert.Spec.nB
    ∧ (outsAt0 (F := Ideal) V c t63.val t63.isLt).2.1 (ix2 (0 : Fin 1) j)
        = Ideal.div (∑ b : Fin 32768, hK V c b j * hK V c b j) Cert.Spec.nB
          - Ideal.div (∑ b : Fin 32768, hK V c b j) Cert.Spec.nB * Ideal.div (∑ b : Fin 32768, hK V c b j) Cert.Spec.nB := by
  have h0 : ¬(t63.val % 64 = 0) := by show ¬(63 : ℕ) % 64 = 0; decide
  have h1 : t63.val % 64 = 63 := by show (63 : ℕ) % 64 = 63; decide
  have hp : prev0 (F := Ideal) V c t63 = outsAt0 (F := Ideal) V c 62 (Nat.lt_of_succ_lt h63) :=
    outsAt0_congr V c _ _ (by show 63 - 1 = 62; decide)
  obtain ⟨r0, r1⟩ := rows_upto V c j 62 (Nat.lt_of_succ_lt h63) (le_refl _)
  have s0 : (prev0 (F := Ideal) V c t63).2.2.1 (ix2 (0 : Fin 1) j) + colsum V c t63.val j = ∑ b : Fin 32768, hK V c b j := by
    rw [hp, r0]
    show ∑ s ∈ Finset.range (62 + 1), colsum V c s j + colsum V c 63 j = _
    rw [← Finset.sum_range_succ (fun s => colsum V c s j) 63]; exact total_sum V c j
  have s1 : (prev0 (F := Ideal) V c t63).2.2.2 (ix2 (0 : Fin 1) j) + colsq V c t63.val j = ∑ b : Fin 32768, hK V c b j * hK V c b j := by
    rw [hp, r1]
    show ∑ s ∈ Finset.range (62 + 1), colsq V c s j + colsq V c 63 j = _
    rw [← Finset.sum_range_succ (fun s => colsq V c s j) 63]; exact total_sq V c j
  have q4 := (pay4_apply (iblk0 V c 0 t63) (iblk0 V c 1 t63) (iblk0 V c 2 t63) (prev0 (F := Ideal) V c t63).2.2.1 j).trans
    ((congrArg ((prev0 (F := Ideal) V c t63).2.2.1 (ix2 (0 : Fin 1) j) + ·) (colsum_blk V c t63 j)).trans s0)
  have q5 := (pay5_apply (iblk0 V c 0 t63) (iblk0 V c 1 t63) (iblk0 V c 2 t63) (prev0 (F := Ideal) V c t63).2.2.2 j).trans
    ((congrArg ((prev0 (F := Ideal) V c t63).2.2.2 (ix2 (0 : Fin 1) j) + ·) (colsq_blk V c t63 j)).trans s1)
  rw [outsAt0_C (F := Ideal) V c t63 h0 h1]
  dsimp only
  rw [pieceC3_at V c t63 h0 h1, pieceC4_at V c t63 h0 h1]
  refine ⟨?_, ?_⟩
  · refine (pay6_apply _ j).trans ?_
    rw [q4]
  · refine (pay7_apply _ _ j).trans ?_
    rw [q4, q5]

/-- REGION 0's mean row: the first layer's column mean over the whole batch. -/
theorem value0_mean (c : Dev nD) (j : Fin 3000) :
    (dat0 (F := Ideal) V c).arrAt 3 cfg0.N (ix2 (0 : Fin 1) j) = Ideal.div (∑ b : Fin 32768, hK V c b j) Cert.Spec.nB := by
  rw [arr0_3_of V c _ (after0_3 V c t63)]
  exact (outs_last V c j).1

/-- REGION 0's variance row: the column mean of the squares less the square of the column mean. -/
theorem value0_var (c : Dev nD) (j : Fin 3000) :
    (dat0 (F := Ideal) V c).arrAt 4 cfg0.N (ix2 (0 : Fin 1) j)
      = Ideal.div (∑ b : Fin 32768, hK V c b j * hK V c b j) Cert.Spec.nB
        - Ideal.div (∑ b : Fin 32768, hK V c b j) Cert.Spec.nB * Ideal.div (∑ b : Fin 32768, hK V c b j) Cert.Spec.nB := by
  rw [arr0_4_of V c _ (after0_4 V c t63)]
  exact (outs_last V c j).2

end Cert.KernelIdeal.H

end
-- ==== Proof.KI.Value1Pieces.lean ====
import proofs.«121665_j13159779795462_2_alg».proof.Proof.KI.Region1
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 1, piece by piece

What each of the body's three cases leaves in output 9, in the two carried rows and (the last case) in outputs 10 and 11,
as a term of the point's nine input blocks and of what the carried rows held before: the body's own payloads. Generic in
the arithmetic. -/

variable {F : FTy → Type} [FloatOps F]

theorem hz1 : (![0, 0] : Fin 2 → Nat) = fun _ => 0 := funext fun a => by fin_cases a <;> rfl

/-- The first block leaves in output 9 the second layer's values on the block's rows. -/
theorem piece1_A_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) :
    out1_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay1 (k1_pay8 x0 x1 x2 x4 x5 x3 x6) x7 x8 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- The first block leaves in the first carried row its column sums added to the zero row, -/
theorem piece1_A_s0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) :
    sout1_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay2 (k1_pay8 x0 x1 x2 x4 x5 x3 x6) x7 x8 k1_pay6 := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- and in the second the column sums of the squares added to the zero row. -/
theorem piece1_A_s1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) :
    sout1_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k1_pay3 (k1_pay8 x0 x1 x2 x4 x5 x3 x6) x7 x8 k1_pay7 := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- A middle block leaves in output 9 the second layer's values on its rows, -/
theorem piece1_B_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    out1_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay1 (k1_pay8 x0 x1 x2 x4 x5 x3 x6) x7 x8 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- adds its column sums to what the first carried row held, -/
theorem piece1_B_s0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    sout1_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay2 (k1_pay8 x0 x1 x2 x4 x5 x3 x6) x7 x8 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- and the column sums of its squares to what the second held. -/
theorem piece1_B_s1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : ¬cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    sout1_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay3 (k1_pay8 x0 x1 x2 x4 x5 x3 x6) x7 x8 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- The last block leaves in output 9 the second layer's values on its rows, -/
theorem piece1_C_9 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    out1_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay1 (k1_pay8 x0 x1 x2 x4 x5 x3 x6) x7 x8 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- completes the first carried row, -/
theorem piece1_C_s0 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    sout1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay2 (k1_pay8 x0 x1 x2 x4 x5 x3 x6) x7 x8 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- completes the second, -/
theorem piece1_C_s1 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    sout1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay3 (k1_pay8 x0 x1 x2 x4 x5 x3 x6) x7 x8 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- stores the mean: the completed sums divided by the batch size, -/
theorem piece1_C_10 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    out1_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay4 (k1_pay2 (k1_pay8 x0 x1 x2 x4 x5 x3 x6) x7 x8 xs0) := by
  unfold out1_C_10
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

/-- and the variance: the completed sums of squares divided by the batch size, less the mean's square. -/
theorem piece1_C_11 (c : Dev nD) (i : grid1.Coords)
    (arg1 : Memref sig .tc .vmem S512x784 .f32) (harg1 : arg1.IsWhole) (arg2 : Memref sig .tc .vmem S784x3000 .bf16) (harg2 : arg2.IsWhole) (arg3 : Memref sig .tc .vmem S1x3000 .f32) (harg3 : arg3.IsWhole) (arg4 : Memref sig .tc .vmem S1x3000 .f32) (harg4 : arg4.IsWhole) (arg5 : Memref sig .tc .vmem S1x3000 .f32) (harg5 : arg5.IsWhole) (arg6 : Memref sig .tc .vmem S1x3000 .f32) (harg6 : arg6.IsWhole) (arg7 : Memref sig .tc .vmem S1x3000 .f32) (harg7 : arg7.IsWhole) (arg8 : Memref sig .tc .vmem S3000x10 .bf16) (harg8 : arg8.IsWhole) (arg9 : Memref sig .tc .vmem S1x10 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S1x10 .f32) (harg12 : arg12.IsWhole) (arg13 : Memref sig .tc .vmem S1x10 .f32) (harg13 : arg13.IsWhole) (arg14 : Memref sig .tc .vmem S1x10 .f32) (harg14 : arg14.IsWhole)
    (hc0 : ¬cond1_0 i) (hc1 : cond1_1 i)
    (x0 : Vec F S512x784 .f32) (x1 : Vec F S784x3000 .bf16) (x2 : Vec F S1x3000 .f32) (x3 : Vec F S1x3000 .f32) (x4 : Vec F S1x3000 .f32) (x5 : Vec F S1x3000 .f32) (x6 : Vec F S1x3000 .f32) (x7 : Vec F S3000x10 .bf16) (x8 : Vec F S1x10 .f32) (xs0 xs1 : Vec F S1x10 .f32) :
    out1_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k1_pay5 (k1_pay2 (k1_pay8 x0 x1 x2 x4 x5 x3 x6) x7 x8 xs0) (k1_pay3 (k1_pay8 x0 x1 x2 x4 x5 x3 x6) x7 x8 xs1) := by
  unfold out1_C_11
  rw [View.read_writes_eq_canon _ _ _ (cover1_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_cons_unit_zero hz1]
  repeat rw [View.readCov_unit_zero _ hz1]
  simp only [View.readAt_eq_ld, harg1.read_unread, harg2.read_unread, harg3.read_unread, harg4.read_unread, harg5.read_unread,
    harg6.read_unread, harg7.read_unread, harg8.read_unread, harg9.read_unread, harg13.read_unread, harg14.read_unread,
    View.ld_unit_zero (S := S512x784) hz1, View.ld_unit_zero (S := S784x3000) hz1, View.ld_unit_zero (S := S1x3000) hz1,
    View.ld_unit_zero (S := S3000x10) hz1, View.ld_unit_zero (S := S1x10) hz1]

end Cert.KernelIdeal.H

end
-- ==== Proof.KI.Value1Pay.lean ====
/- REGION 1's payloads read at an index, on the extended reals: the block's first-layer values normalised with the stored
   mean and variance rows and clamped; the second layer on their signs; the two running rows as what they held plus the
   block's column sums (of the second layer's values, of their squares); the mean and the variance as the completed rows
   divided by the batch size. -/
import proofs.«121665_j13159779795462_2_alg».proof.Proof.Gen.KernelIdeal.Skeleton
import proofs.«121665_j13159779795462_2_alg».proof.Proof.Spec
import proofs.«121665_j13159779795462_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.ValueIdx

/-! ## The two layers on a block of rows -/

/-- Row `r` of a block of `n` rows against column `j` of the first weights, plus the bias. -/
def hrow1 {n : ℕ} (a0 : (⟨2, ![n, 784]⟩ : Shape).Idx → EReal) (w1 : S784x3000.Idx → EReal) (b1 : S1x3000.Idx → EReal)
    (r : Fin n) (j : Fin 3000) : EReal :=
  (∑ k : Fin 784, a0 (ix2 r k) * w1 (ix2 k j)) + b1 (ix2 (0 : Fin 1) j)

/-- The same normalised with the mean row `mu` and the variance row `va`, scaled by `g`, shifted by `be` and clamped to
    [-1, 1], in the body's own association. -/
def zrow1 {n : ℕ} (a0 : (⟨2, ![n, 784]⟩ : Shape).Idx → EReal) (w1 : S784x3000.Idx → EReal) (b1 mu va g be : S1x3000.Idx → EReal)
    (r : Fin n) (j : Fin 3000) : EReal :=
  min 1 (max (-1) (g (ix2 (0 : Fin 1) j) * (hrow1 a0 w1 b1 r j - mu (ix2 (0 : Fin 1) j))
    * Ideal.rsqrt (va (ix2 (0 : Fin 1) j) + Cert.Spec.eps) + be (ix2 (0 : Fin 1) j)))

/-- The second layer on the signs of a block of clamped values `z`: row `r` against column `q` of the second weights,
    plus the bias. -/
def orow1 {n : ℕ} (z : Fin n → Fin 3000 → EReal) (w2 : S3000x10.Idx → EReal) (b2 : S1x10.Idx → EReal) (r : Fin n) (q : Fin 10) : EReal :=
  (∑ j : Fin 3000, Ideal.sign (z r j) * w2 (ix2 j q)) + b2 (ix2 (0 : Fin 1) q)

/-- The first matrix product read at an index: the sum over the 784 contracted places. -/
theorem mm1a_apply (l : FVec Ideal S512x784 .bf16) (w : FVec Ideal S784x3000 .bf16) (r : Fin 512) (j : Fin 3000) :
    matmul dot_S512x784_S784x3000_S512x3000_1_0_0_1_n_n none l w (constant S512x3000 .f32 0x00000000#32) (ix2 r j) = ∑ k : Fin 784, l (ix2 r k) * w (ix2 k j) := by
  show FloatOps.matmul dot_S512x784_S784x3000_S512x3000_1_0_0_1_n_n none l w (constant S512x3000 .f32 0x00000000#32) (ix2 r j) = _
  rw [Ideal.matmul_constant_zero_apply, ← Equiv.sum_comp (contrEquiv1 dot_S512x784_S784x3000_S512x3000_1_0_0_1_n_n 784 rfl rfl).symm]
  refine Finset.sum_congr rfl fun k _ => ?_
  have c2 := contrEquiv1_symm_val dot_S512x784_S784x3000_S512x3000_1_0_0_1_n_n 784 rfl rfl k
  have l2 : (dot_S512x784_S784x3000_S512x3000_1_0_0_1_n_n).lhsIdx (ix2 r j) ((contrEquiv1 _ 784 rfl rfl).symm k) = ix2 r k := by
    funext ax; apply Fin.ext
    match ax with
    | ⟨0, _⟩ => simp [DotDims.lhsIdx, dot_S512x784_S784x3000_S512x3000_1_0_0_1_n_n]; rfl
    | ⟨1, _⟩ => simp [DotDims.lhsIdx, dot_S512x784_S784x3000_S512x3000_1_0_0_1_n_n]; exact c2
  have r2 : (dot_S512x784_S784x3000_S512x3000_1_0_0_1_n_n).rhsIdx (ix2 r j) ((contrEquiv1 _ 784 rfl rfl).symm k) = ix2 k j := by
    funext ax; apply Fin.ext
    match ax with
    | ⟨0, _⟩ => simp [DotDims.rhsIdx, dot_S512x784_S784x3000_S512x3000_1_0_0_1_n_n]; exact c2
    | ⟨1, _⟩ => simp [DotDims.rhsIdx, dot_S512x784_S784x3000_S512x3000_1_0_0_1_n_n]; rfl
  rw [l2, r2]

/-- The second matrix product read at an index: the sum over the 3000 contracted places. -/
theorem mm1b_apply (l : FVec Ideal S512x3000 .bf16) (w : FVec Ideal S3000x10 .bf16) (r : Fin 512) (q : Fin 10) :
    matmul dot_S512x3000_S3000x10_S512x10_1_0_0_1_n_n none l w (constant S512x10 .f32 0x00000000#32) (ix2 r q) = ∑ j : Fin 3000, l (ix2 r j) * w (ix2 j q) := by
  show FloatOps.matmul dot_S512x3000_S3000x10_S512x10_1_0_0_1_n_n none l w (constant S512x10 .f32 0x00000000#32) (ix2 r q) = _
  rw [Ideal.matmul_constant_zero_apply, ← Equiv.sum_comp (contrEquiv1 dot_S512x3000_S3000x10_S512x10_1_0_0_1_n_n 3000 rfl rfl).symm]
  refine Finset.sum_congr rfl fun k _ => ?_
  have c2 := contrEquiv1_symm_val dot_S512x3000_S3000x10_S512x10_1_0_0_1_n_n 3000 rfl rfl k
  have l2 : (dot_S512x3000_S3000x10_S512x10_1_0_0_1_n_n).lhsIdx (ix2 r q) ((contrEquiv1 _ 3000 rfl rfl).symm k) = ix2 r k := by
    funext ax; apply Fin.ext
    match ax with
    | ⟨0, _⟩ => simp [DotDims.lhsIdx, dot_S512x3000_S3000x10_S512x10_1_0_0_1_n_n]; rfl
    | ⟨1, _⟩ => simp [DotDims.lhsIdx, dot_S512x3000_S3000x10_S512x10_1_0_0_1_n_n]; exact c2
  have r2 : (dot_S512x3000_S3000x10_S512x10_1_0_0_1_n_n).rhsIdx (ix2 r q) ((contrEquiv1 _ 3000 rfl rfl).symm k) = ix2 k q := by
    funext ax; apply Fin.ext
    match ax with
    | ⟨0, _⟩ => simp [DotDims.rhsIdx, dot_S512x3000_S3000x10_S512x10_1_0_0_1_n_n]; exact c2
    | ⟨1, _⟩ => simp [DotDims.rhsIdx, dot_S512x3000_S3000x10_S512x10_1_0_0_1_n_n]; rfl
  rw [l2, r2]

/-- The block's clamped first-layer value at row `r`, column `j` (the payload's arguments in the order the body reads
    them: the block, the first weights, the bias, the variance row, the scale, the mean row, the shift). -/
theorem pay1_8_apply (x : FVec Ideal S512x784 .f32) (w1 : FVec Ideal S784x3000 .bf16) (b1 va g mu be : FVec Ideal S1x3000 .f32) (r : Fin 512) (j : Fin 3000) :
    k1_pay8 (F := Ideal) x w1 b1 va g mu be (ix2 r j) = zrow1 x w1 b1 mu va g be r j := by
  unfold k1_pay8
  simp only [shapeCast_self]
  simp only [minimumf_apply, maximumf_apply, addf_apply, mulf_apply, subf_apply, broadcastTo_1b_ab_apply, broadcast_apply, mm1a_apply]
  unfold zrow1 hrow1
  exact congrArg₂ min Cert.Consts.ofBits_one (congrArg₂ max Cert.Consts.ofBits_neg_one rfl)

/-- The second layer's value at row `r`, column `q` of the block, from the block's clamped values `z`: the body's two
    selections are the sign. -/
theorem pay1_1_apply (z : FVec Ideal S512x3000 .f32) (w2 : FVec Ideal S3000x10 .bf16) (b2 : FVec Ideal S1x10 .f32) (r : Fin 512) (q : Fin 10) :
    k1_pay1 (F := Ideal) z w2 b2 (ix2 r q) = orow1 (fun r j => z (ix2 r j)) w2 b2 r q := by
  unfold k1_pay1
  simp only [shapeCast_self]
  show matmul dot_S512x3000_S3000x10_S512x10_1_0_0_1_n_n none (truncf .bf16 (select (cmpf .ogt (absf z) (broadcast S512x3000 (Scalar.ofBits .f32 0x00000000#32))) (select (cmpf .olt z (constant S512x3000 .f32 0x00000000#32)) (constant S512x3000 .f32 0xBF800000#32) (constant S512x3000 .f32 0x3F800000#32)) z) bitsLt_bf16_f32) w2 (constant S512x10 .f32 0x00000000#32) (ix2 r q)
      + broadcastTo S512x10 b2 broadcasts_S1x10_S512x10 (ix2 r q) = _
  unfold orow1
  rw [mm1b_apply, broadcastTo_1b_ab_apply]
  refine congrArg (· + b2 (ix2 (0 : Fin 1) q)) (Finset.sum_congr rfl fun j _ => ?_)
  exact congrArg (· * w2 (ix2 j q)) (Ideal.jnp_sign_eq_sign_f32 (z (ix2 r j)))

/-! ## A column sum of a block -/

/-- The body's sum over the 512 rows of a block, read at column `q`. -/
theorem colsum1_apply (src : FVec Ideal S512x10 .f32) (hacc : (0x00000000#32 : BitVec 32) = 0x00000000#32) (q : Fin 10) :
    multiReduction .add [0] S10 src 0x00000000#32 reduces_S512x10_S10 (.inl rfl) hacc (ix1 q) = ∑ r : Fin 512, src (ix2 r q) := by
  refine (Ideal.multiReduction_add_single src 0x00000000#32 reduces_S512x10_S10 (.inl rfl) hacc (ix1 q)).trans ?_
  refine Finset.sum_congr rfl fun r _ => congrArg src ?_
  funext ax; apply Fin.ext
  match ax with
  | ⟨0, _⟩ => rfl
  | ⟨1, _⟩ => rfl

/-- The first running row after a block: what it held plus the block's column sums. -/
theorem pay1_2_apply (z : FVec Ideal S512x3000 .f32) (w2 : FVec Ideal S3000x10 .bf16) (b2 xs : FVec Ideal S1x10 .f32) (q : Fin 10) :
    k1_pay2 (F := Ideal) z w2 b2 xs (ix2 (0 : Fin 1) q) = xs (ix2 (0 : Fin 1) q) + ∑ r : Fin 512, orow1 (fun r j => z (ix2 r j)) w2 b2 r q := by
  unfold k1_pay2
  simp only [shapeCast_self]
  show xs (ix2 (0 : Fin 1) q) + shapeCast S1x10 (multiReduction .add [0] S10 (k1_pay1 (F := Ideal) z w2 b2) 0x00000000#32 reduces_S512x10_S10 (.inl rfl) rfl) shapeCasts_S10_S1x10 (ix2 (0 : Fin 1) q) = _
  refine congrArg (xs (ix2 (0 : Fin 1) q) + ·) ?_
  refine (shapeCast_a_1a_apply _ shapeCasts_S10_S1x10 0 q).trans ?_
  refine (colsum1_apply _ rfl q).trans ?_
  exact Finset.sum_congr rfl fun r _ => pay1_1_apply z w2 b2 r q

/-- The second running row after a block: what it held plus the column sums of the squares. -/
theorem pay1_3_apply (z : FVec Ideal S512x3000 .f32) (w2 : FVec Ideal S3000x10 .bf16) (b2 xs : FVec Ideal S1x10 .f32) (q : Fin 10) :
    k1_pay3 (F := Ideal) z w2 b2 xs (ix2 (0 : Fin 1) q)
      = xs (ix2 (0 : Fin 1) q) + ∑ r : Fin 512, orow1 (fun r j => z (ix2 r j)) w2 b2 r q * orow1 (fun r j => z (ix2 r j)) w2 b2 r q := by
  unfold k1_pay3
  simp only [shapeCast_self]
  show xs (ix2 (0 : Fin 1) q) + shapeCast S1x10 (multiReduction .add [0] S10 (mulf (k1_pay1 (F := Ideal) z w2 b2) (k1_pay1 (F := Ideal) z w2 b2)) 0x00000000#32 reduces_S512x10_S10 (.inl rfl) rfl) shapeCasts_S10_S1x10 (ix2 (0 : Fin 1) q) = _
  refine congrArg (xs (ix2 (0 : Fin 1) q) + ·) ?_
  refine (shapeCast_a_1a_apply _ shapeCasts_S10_S1x10 0 q).trans ?_
  refine (colsum1_apply _ rfl q).trans ?_
  refine Finset.sum_congr rfl fun r _ => ?_
  show k1_pay1 (F := Ideal) z w2 b2 (ix2 r q) * k1_pay1 (F := Ideal) z w2 b2 (ix2 r q) = _
  rw [pay1_1_apply]

/-- The rows start from zero. -/
theorem pay1_6_apply (q : Fin 10) : k1_pay6 (F := Ideal) (ix2 (0 : Fin 1) q) = 0 := by
  unfold k1_pay6
  simp only [shapeCast_self]
  show Ideal.ofBits .f32 0x00000000#32 = 0
  exact Ideal.ofBits_zero_f32
theorem pay1_7_apply (q : Fin 10) : k1_pay7 (F := Ideal) (ix2 (0 : Fin 1) q) = 0 := by
  unfold k1_pay7
  simp only [shapeCast_self]
  show Ideal.ofBits .f32 0x00000000#32 = 0
  exact Ideal.ofBits_zero_f32

/-- The mean: the completed first row divided by the batch size. -/
theorem pay1_4_apply (v : FVec Ideal S1x10 .f32) (q : Fin 10) :
    k1_pay4 (F := Ideal) v (ix2 (0 : Fin 1) q) = Ideal.div (v (ix2 (0 : Fin 1) q)) Cert.Spec.nB := rfl

/-- The variance: the completed second row divided by the batch size, less the mean's square. -/
theorem pay1_5_apply (v w : FVec Ideal S1x10 .f32) (q : Fin 10) :
    k1_pay5 (F := Ideal) v w (ix2 (0 : Fin 1) q)
      = Ideal.div (w (ix2 (0 : Fin 1) q)) Cert.Spec.nB - Ideal.div (v (ix2 (0 : Fin 1) q)) Cert.Spec.nB * Ideal.div (v (ix2 (0 : Fin 1) q)) Cert.Spec.nB := rfl

end Cert.KernelIdeal.H
end
-- ==== Proof.KI.Value1.lean ====
/- REGION 1's VALUE on the extended reals: what the three output arrays of the second pallas_call hold after its run, index
   by index, as functions of the nine arrays the region finds at its entry. Every grid point writes back its block of
   second-layer values; the 64 blocks of 512 rows tile the 32768 rows. The two carried rows hold, after point n, the
   column sums (of the values, of their squares) over the blocks 0 … n; at the last point they are the sums over the whole
   batch, and the mean and variance rows written back there are those sums divided by the batch size (the variance less
   the mean's square). -/
import proofs.«121665_j13159779795462_2_alg».proof.Proof.KI.Value1Pieces
import proofs.«121665_j13159779795462_2_alg».proof.Proof.KI.Value1Pay
import proofs.«121665_j13159779795462_2_alg».proof.Proof.KI.ValueDefs
import proofs.«121665_j13159779795462_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

/-! ## The printed index maps, decided over the 64 points -/

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx1_9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx1_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)

variable (V : (c : Dev nD) → (b : Ref sig .tc) → Buf (Elt Ideal) ((c : Thread nD τ).loc b))

/-! ## The blocks a point reads -/

/-- Row `r` of the batch block at point `t` is the batch's row `r + 512·t`. -/
theorem blk1_0 (c : Dev nD) (t : Fin cfg1.N) (r : Fin 512) (k : Fin 784) (h : r.val + 512 * t.val < 32768) :
    (iblk1 V c 0 t : FVec Ideal S512x784 .f32) (ix2 r k) = rd S32768x784 (V c main_arg0) (ix2 (⟨r.val + 512 * t.val, h⟩ : Fin 32768) k) := by
  show V c main_arg0 (((cfg1.win 0).blk t).view.emb (ix2 r k)) = V c main_arg0 (ix2 (⟨r.val + 512 * t.val, h⟩ : Fin 32768) k)
  refine congrArg (V c main_arg0) ?_
  obtain ⟨e0, e1⟩ := idx1_0 t
  funext a; apply Fin.ext
  match a with
  | ⟨0, _⟩ => show win1_0.index t (0 : Fin 2) * 512 + 1 * r.val = r.val + 512 * t.val; omega
  | ⟨1, _⟩ => show win1_0.index t (1 : Fin 2) * 784 + 1 * k.val = k.val; omega

/-- Window 1's block is its whole array at every point. -/
theorem blk1_1 (c : Dev nD) (t : Fin cfg1.N) (a : Fin 784) (b : Fin 3000) :
    (iblk1 V c 1 t : FVec Ideal S784x3000 .bf16) (ix2 a b) = rd S784x3000 (V c main_v2) (ix2 a b) := by
  show V c main_v2 (((cfg1.win 1).blk t).view.emb (ix2 a b)) = V c main_v2 (ix2 a b)
  refine congrArg (V c main_v2) ?_
  obtain ⟨e0, e1⟩ := idx1_1 t
  funext x; apply Fin.ext
  match x with
  | ⟨0, _⟩ => show win1_1.index t (0 : Fin 2) * 784 + 1 * a.val = a.val; omega
  | ⟨1, _⟩ => show win1_1.index t (1 : Fin 2) * 3000 + 1 * b.val = b.val; omega

/-- Window 2's block is its whole array at every point. -/
theorem blk1_2 (c : Dev nD) (t : Fin cfg1.N) (a : Fin 1) (b : Fin 3000) :
    (iblk1 V c 2 t : FVec Ideal S1x3000 .f32) (ix2 a b) = rd S1x3000 (V c main_v6) (ix2 a b) := by
  show V c main_v6 (((cfg1.win 2).blk t).view.emb (ix2 a b)) = V c main_v6 (ix2 a b)
  refine congrArg (V c main_v6) ?_
  obtain ⟨e0, e1⟩ := idx1_2 t
  funext x; apply Fin.ext
  match x with
  | ⟨0, _⟩ => show win1_2.index t (0 : Fin 2) * 1 + 1 * a.val = a.val; omega
  | ⟨1, _⟩ => show win1_2.index t (1 : Fin 2) * 3000 + 1 * b.val = b.val; omega

/-- Window 3's block is its whole array at every point. -/
theorem blk1_3 (c : Dev nD) (t : Fin cfg1.N) (a : Fin 1) (b : Fin 3000) :
    (iblk1 V c 3 t : FVec Ideal S1x3000 .f32) (ix2 a b) = rd S1x3000 (V c main_v12_0) (ix2 a b) := by
  show V c main_v12_0 (((cfg1.win 3).blk t).view.emb (ix2 a b)) = V c main_v12_0 (ix2 a b)
  refine congrArg (V c main_v12_0) ?_
  obtain ⟨e0, e1⟩ := idx1_3 t
  funext x; apply Fin.ext
  match x with
  | ⟨0, _⟩ => show win1_3.index t (0 : Fin 2) * 1 + 1 * a.val = a.val; omega
  | ⟨1, _⟩ => show win1_3.index t (1 : Fin 2) * 3000 + 1 * b.val = b.val; omega

/-- Window 4's block is its whole array at every point. -/
theorem blk1_4 (c : Dev nD) (t : Fin cfg1.N) (a : Fin 1) (b : Fin 3000) :
    (iblk1 V c 4 t : FVec Ideal S1x3000 .f32) (ix2 a b) = rd S1x3000 (V c main_v12_1) (ix2 a b) := by
  show V c main_v12_1 (((cfg1.win 4).blk t).view.emb (ix2 a b)) = V c main_v12_1 (ix2 a b)
  refine congrArg (V c main_v12_1) ?_
  obtain ⟨e0, e1⟩ := idx1_4 t
  funext x; apply Fin.ext
  match x with
  | ⟨0, _⟩ => show win1_4.index t (0 : Fin 2) * 1 + 1 * a.val = a.val; omega
  | ⟨1, _⟩ => show win1_4.index t (1 : Fin 2) * 3000 + 1 * b.val = b.val; omega

/-- Window 5's block is its whole array at every point. -/
theorem blk1_5 (c : Dev nD) (t : Fin cfg1.N) (a : Fin 1) (b : Fin 3000) :
    (iblk1 V c 5 t : FVec Ideal S1x3000 .f32) (ix2 a b) = rd S1x3000 (V c main_v7) (ix2 a b) := by
  show V c main_v7 (((cfg1.win 5).blk t).view.emb (ix2 a b)) = V c main_v7 (ix2 a b)
  refine congrArg (V c main_v7) ?_
  obtain ⟨e0, e1⟩ := idx1_5 t
  funext x; apply Fin.ext
  match x with
  | ⟨0, _⟩ => show win1_5.index t (0 : Fin 2) * 1 + 1 * a.val = a.val; omega
  | ⟨1, _⟩ => show win1_5.index t (1 : Fin 2) * 3000 + 1 * b.val = b.val; omega

/-- Window 6's block is its whole array at every point. -/
theorem blk1_6 (c : Dev nD) (t : Fin cfg1.N) (a : Fin 1) (b : Fin 3000) :
    (iblk1 V c 6 t : FVec Ideal S1x3000 .f32) (ix2 a b) = rd S1x3000 (V c main_v8) (ix2 a b) := by
  show V c main_v8 (((cfg1.win 6).blk t).view.emb (ix2 a b)) = V c main_v8 (ix2 a b)
  refine congrArg (V c main_v8) ?_
  obtain ⟨e0, e1⟩ := idx1_6 t
  funext x; apply Fin.ext
  match x with
  | ⟨0, _⟩ => show win1_6.index t (0 : Fin 2) * 1 + 1 * a.val = a.val; omega
  | ⟨1, _⟩ => show win1_6.index t (1 : Fin 2) * 3000 + 1 * b.val = b.val; omega

/-- Window 7's block is its whole array at every point. -/
theorem blk1_7 (c : Dev nD) (t : Fin cfg1.N) (a : Fin 3000) (b : Fin 10) :
    (iblk1 V c 7 t : FVec Ideal S3000x10 .bf16) (ix2 a b) = rd S3000x10 (V c main_v5) (ix2 a b) := by
  show V c main_v5 (((cfg1.win 7).blk t).view.emb (ix2 a b)) = V c main_v5 (ix2 a b)
  refine congrArg (V c main_v5) ?_
  obtain ⟨e0, e1⟩ := idx1_7 t
  funext x; apply Fin.ext
  match x with
  | ⟨0, _⟩ => show win1_7.index t (0 : Fin 2) * 3000 + 1 * a.val = a.val; omega
  | ⟨1, _⟩ => show win1_7.index t (1 : Fin 2) * 10 + 1 * b.val = b.val; omega

/-- Window 8's block is its whole array at every point. -/
theorem blk1_8 (c : Dev nD) (t : Fin cfg1.N) (a : Fin 1) (b : Fin 10) :
    (iblk1 V c 8 t : FVec Ideal S1x10 .f32) (ix2 a b) = rd S1x10 (V c main_v9) (ix2 a b) := by
  show V c main_v9 (((cfg1.win 8).blk t).view.emb (ix2 a b)) = V c main_v9 (ix2 a b)
  refine congrArg (V c main_v9) ?_
  obtain ⟨e0, e1⟩ := idx1_8 t
  funext x; apply Fin.ext
  match x with
  | ⟨0, _⟩ => show win1_8.index t (0 : Fin 2) * 1 + 1 * a.val = a.val; omega
  | ⟨1, _⟩ => show win1_8.index t (1 : Fin 2) * 10 + 1 * b.val = b.val; omega

/-! ## The block of second-layer values a point computes -/

/-- The second layer's value at row `r`, column `q` of point `t`'s block, from the nine blocks the point reads. -/
def ob1 (c : Dev nD) (t : Fin cfg1.N) (r : Fin 512) (q : Fin 10) : EReal :=
  orow1 (fun r j => k1_pay8 (F := Ideal) (iblk1 V c 0 t) (iblk1 V c 1 t) (iblk1 V c 2 t) (iblk1 V c 4 t) (iblk1 V c 5 t) (iblk1 V c 3 t) (iblk1 V c 6 t) (ix2 r j))
    (iblk1 V c 7 t) (iblk1 V c 8 t) r q

/-- It is the second layer at the batch's row `r + 512·t`. -/
theorem ob1_eq (c : Dev nD) (t : Fin cfg1.N) (r : Fin 512) (q : Fin 10) (h : r.val + 512 * t.val < 32768) :
    ob1 V c t r q = oK V c ⟨r.val + 512 * t.val, h⟩ q := by
  unfold ob1 orow1 oK
  refine congrArg₂ (· + ·) (Finset.sum_congr rfl fun j _ => ?_) (blk1_8 V c t 0 q)
  refine congrArg₂ (· * ·) (congrArg Ideal.sign ?_) (blk1_7 V c t j q)
  refine (pay1_8_apply _ _ _ _ _ _ _ r j).trans ?_
  unfold zrow1 zK hrow1 hK
  simp only [fun k => blk1_0 V c t r k h, blk1_1 V c t, blk1_2 V c t, blk1_3 V c t, blk1_4 V c t, blk1_5 V c t, blk1_6 V c t]

/-- The second layer at the natural `b` as a batch row (zero past the batch: never read). -/
def oKn (c : Dev nD) (b : ℕ) (q : Fin 10) : EReal := if h : b < 32768 then oK V c ⟨b, h⟩ q else 0
theorem oKn_eq (c : Dev nD) (b : ℕ) (h : b < 32768) (q : Fin 10) : oKn V c b q = oK V c ⟨b, h⟩ q := dif_pos h

/-- Block `s`'s column sum, and its column sum of squares. -/
def M1 (c : Dev nD) (s : ℕ) (q : Fin 10) : EReal := ∑ r : Fin 512, oKn V c (r.val + 512 * s) q
def Q1 (c : Dev nD) (s : ℕ) (q : Fin 10) : EReal := ∑ r : Fin 512, oKn V c (r.val + 512 * s) q * oKn V c (r.val + 512 * s) q

theorem ob1_okn (c : Dev nD) (t : Fin cfg1.N) (r : Fin 512) (q : Fin 10) : ob1 V c t r q = oKn V c (r.val + 512 * t.val) q := by
  have ht : t.val < 64 := lt_of_lt_of_eq t.isLt N_1
  have hr : r.val < 512 := r.isLt
  have h : r.val + 512 * t.val < 32768 := by omega
  exact (ob1_eq V c t r q h).trans (oKn_eq V c _ h q).symm

theorem ob1_sum (c : Dev nD) (t : Fin cfg1.N) (q : Fin 10) : ∑ r : Fin 512, ob1 V c t r q = M1 V c t.val q :=
  Finset.sum_congr rfl fun r _ => ob1_okn V c t r q
theorem ob1_sumsq (c : Dev nD) (t : Fin cfg1.N) (q : Fin 10) : ∑ r : Fin 512, ob1 V c t r q * ob1 V c t r q = Q1 V c t.val q :=
  Finset.sum_congr rfl fun r _ => by rw [ob1_okn V c t r q]

/-! ## What the written buffers hold after a point -/

set_option maxHeartbeats 2000000 in
/-- Output 9's buffer after point `t`: the point's block of second-layer values. -/
theorem o9_at (c : Dev nD) (t : Fin cfg1.N) (p : Fin 512) (q : Fin 10) :
    (outsAt1 V c t.val t.isLt).1 (ix2 p q) = ob1 V c t p q := by
  have ht : t.val < 64 := lt_of_lt_of_eq t.isLt N_1
  by_cases h0 : t.val = 0
  · have h1 : ¬t.val = 63 := by omega
    rw [outsAt1_A V c t h0 h1]
    refine (congrFun (piece1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 p q)).trans ?_
    exact pay1_1_apply _ _ _ p q
  · by_cases h1 : t.val = 63
    · rw [outsAt1_C V c t h0 h1]
      refine (congrFun (piece1_C_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p q)).trans ?_
      exact pay1_1_apply _ _ _ p q
    · rw [outsAt1_B V c t h0 h1]
      refine (congrFun (piece1_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p q)).trans ?_
      exact pay1_1_apply _ _ _ p q

set_option maxHeartbeats 2000000 in
/-- The first carried row after the first point: the block's column sums added to zero. -/
theorem s0_first (c : Dev nD) (t : Fin cfg1.N) (h0 : t.val = 0) (q : Fin 10) :
    (outsAt1 V c t.val t.isLt).2.2.2.1 (ix2 (0 : Fin 1) q) = 0 + ∑ r : Fin 512, ob1 V c t r q := by
  have ht : t.val < 64 := lt_of_lt_of_eq t.isLt N_1
  have h1 : ¬t.val = 63 := by omega
  rw [outsAt1_A V c t h0 h1]
  refine (congrFun (piece1_A_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 (0 : Fin 1) q)).trans ?_
  refine (pay1_2_apply _ _ _ _ q).trans ?_
  exact congrArg₂ (· + ·) (pay1_6_apply q) rfl

set_option maxHeartbeats 2000000 in
/-- The second carried row after the first point. -/
theorem s1_first (c : Dev nD) (t : Fin cfg1.N) (h0 : t.val = 0) (q : Fin 10) :
    (outsAt1 V c t.val t.isLt).2.2.2.2 (ix2 (0 : Fin 1) q) = 0 + ∑ r : Fin 512, ob1 V c t r q * ob1 V c t r q := by
  have ht : t.val < 64 := lt_of_lt_of_eq t.isLt N_1
  have h1 : ¬t.val = 63 := by omega
  rw [outsAt1_A V c t h0 h1]
  refine (congrFun (piece1_A_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 (0 : Fin 1) q)).trans ?_
  refine (pay1_3_apply _ _ _ _ q).trans ?_
  exact congrArg₂ (· + ·) (pay1_7_apply q) rfl

set_option maxHeartbeats 2000000 in
/-- The first carried row after a later point: what the point before left plus the block's column sums. -/
theorem s0_next (c : Dev nD) (t : Fin cfg1.N) (h0 : ¬t.val = 0) (q : Fin 10) :
    (outsAt1 V c t.val t.isLt).2.2.2.1 (ix2 (0 : Fin 1) q)
      = (outsAt1 V c (t.val - 1) (Nat.lt_of_le_of_lt (Nat.sub_le _ _) t.isLt)).2.2.2.1 (ix2 (0 : Fin 1) q) + ∑ r : Fin 512, ob1 V c t r q := by
  by_cases h1 : t.val = 63
  · rw [outsAt1_C V c t h0 h1]
    refine (congrFun (piece1_C_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) q)).trans ?_
    exact pay1_2_apply _ _ _ _ q
  · rw [outsAt1_B V c t h0 h1]
    refine (congrFun (piece1_B_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) q)).trans ?_
    exact pay1_2_apply _ _ _ _ q

set_option maxHeartbeats 2000000 in
/-- The second carried row after a later point. -/
theorem s1_next (c : Dev nD) (t : Fin cfg1.N) (h0 : ¬t.val = 0) (q : Fin 10) :
    (outsAt1 V c t.val t.isLt).2.2.2.2 (ix2 (0 : Fin 1) q)
      = (outsAt1 V c (t.val - 1) (Nat.lt_of_le_of_lt (Nat.sub_le _ _) t.isLt)).2.2.2.2 (ix2 (0 : Fin 1) q) + ∑ r : Fin 512, ob1 V c t r q * ob1 V c t r q := by
  by_cases h1 : t.val = 63
  · rw [outsAt1_C V c t h0 h1]
    refine (congrFun (piece1_C_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) q)).trans ?_
    exact pay1_3_apply _ _ _ _ q
  · rw [outsAt1_B V c t h0 h1]
    refine (congrFun (piece1_B_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) q)).trans ?_
    exact pay1_3_apply _ _ _ _ q

/-- After point `n` the first carried row holds the column sums over the blocks 0 … n. -/
theorem s0_sum (c : Dev nD) (q : Fin 10) : ∀ (n : ℕ) (hn : n < cfg1.N),
    (outsAt1 V c n hn).2.2.2.1 (ix2 (0 : Fin 1) q) = ∑ s ∈ Finset.range (n + 1), M1 V c s q
  | 0, hn => by
    rw [Finset.sum_range_one]
    refine (s0_first V c ⟨0, hn⟩ rfl q).trans ?_
    rw [zero_add]
    exact ob1_sum V c ⟨0, hn⟩ q
  | n + 1, hn => by
    rw [Finset.sum_range_succ]
    refine (s0_next V c ⟨n + 1, hn⟩ (Nat.succ_ne_zero n) q).trans ?_
    exact congrArg₂ (· + ·) (s0_sum c q n (Nat.lt_of_succ_lt hn)) (ob1_sum V c ⟨n + 1, hn⟩ q)

/-- After point `n` the second carried row holds the column sums of squares over the blocks 0 … n. -/
theorem s1_sum (c : Dev nD) (q : Fin 10) : ∀ (n : ℕ) (hn : n < cfg1.N),
    (outsAt1 V c n hn).2.2.2.2 (ix2 (0 : Fin 1) q) = ∑ s ∈ Finset.range (n + 1), Q1 V c s q
  | 0, hn => by
    rw [Finset.sum_range_one]
    refine (s1_first V c ⟨0, hn⟩ rfl q).trans ?_
    rw [zero_add]
    exact ob1_sumsq V c ⟨0, hn⟩ q
  | n + 1, hn => by
    rw [Finset.sum_range_succ]
    refine (s1_next V c ⟨n + 1, hn⟩ (Nat.succ_ne_zero n) q).trans ?_
    exact congrArg₂ (· + ·) (s1_sum c q n (Nat.lt_of_succ_lt hn)) (ob1_sumsq V c ⟨n + 1, hn⟩ q)

/-- The 64 blocks of 512 rows are the 32768 rows. -/
theorem sum_blocks1 (f : ℕ → EReal) : ∑ s ∈ Finset.range 64, ∑ r : Fin 512, f (r.val + 512 * s) = ∑ b : Fin 32768, f b.val := by
  rw [Finset.sum_range (fun s => ∑ r : Fin 512, f (r.val + 512 * s))]
  exact (Cert.Lib.BlockSum.sum_fin_mul 64 512 f).symm

/-- The same point number, the same contents. -/
theorem outsAt1_congr (c : Dev nD) {n m : ℕ} (hn : n < cfg1.N) (hm : m < cfg1.N) (e : n = m) :
    outsAt1 (F := Ideal) V c n hn = outsAt1 (F := Ideal) V c m hm := by
  subst e; rfl

theorem h63_1 : 63 < cfg1.N := lt_of_lt_of_eq (by decide : 63 < 64) N_1.symm

theorem total1_sum (c : Dev nD) (q : Fin 10) : ∑ s ∈ Finset.range 64, M1 V c s q = ∑ b : Fin 32768, oK V c b q := by
  unfold M1
  rw [sum_blocks1 (fun b => oKn V c b q)]
  exact Finset.sum_congr rfl fun b _ => oKn_eq V c b.val b.isLt q
theorem total1_sq (c : Dev nD) (q : Fin 10) : ∑ s ∈ Finset.range 64, Q1 V c s q = ∑ b : Fin 32768, oK V c b q * oK V c b q := by
  unfold Q1
  rw [sum_blocks1 (fun b => oKn V c b q * oKn V c b q)]
  exact Finset.sum_congr rfl fun b _ => by rw [oKn_eq V c b.val b.isLt q]

/-- At the last point the carried rows hold the sums over the whole batch. -/
theorem s0_total (c : Dev nD) (q : Fin 10) (t : Fin cfg1.N) (h63 : t.val = 63) :
    (outsAt1 V c t.val t.isLt).2.2.2.1 (ix2 (0 : Fin 1) q) = ∑ b : Fin 32768, oK V c b q := by
  rw [outsAt1_congr V c t.isLt h63_1 h63, s0_sum V c q 63 h63_1]
  exact total1_sum V c q
theorem s1_total (c : Dev nD) (q : Fin 10) (t : Fin cfg1.N) (h63 : t.val = 63) :
    (outsAt1 V c t.val t.isLt).2.2.2.2 (ix2 (0 : Fin 1) q) = ∑ b : Fin 32768, oK V c b q * oK V c b q := by
  rw [outsAt1_congr V c t.isLt h63_1 h63, s1_sum V c q 63 h63_1]
  exact total1_sq V c q

set_option maxHeartbeats 2000000 in
/-- At the last point output 10's buffer holds the completed first row divided by the batch size, -/
theorem o10_at (c : Dev nD) (t : Fin cfg1.N) (h63 : t.val = 63) (q : Fin 10) :
    (outsAt1 V c t.val t.isLt).2.1 (ix2 (0 : Fin 1) q) = Ideal.div ((outsAt1 V c t.val t.isLt).2.2.2.1 (ix2 (0 : Fin 1) q)) Cert.Spec.nB := by
  have h0 : ¬t.val = 0 := by omega
  have h1 : t.val = 63 := h63
  rw [outsAt1_C V c t h0 h1]
  show out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q) = Ideal.div (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q)) Cert.Spec.nB
  rw [piece1_C_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, piece1_C_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]
  exact pay1_4_apply _ q

set_option maxHeartbeats 2000000 in
/-- and output 11's the completed second row divided by the batch size, less the mean's square. -/
theorem o11_at (c : Dev nD) (t : Fin cfg1.N) (h63 : t.val = 63) (q : Fin 10) :
    (outsAt1 V c t.val t.isLt).2.2.1 (ix2 (0 : Fin 1) q)
      = Ideal.div ((outsAt1 V c t.val t.isLt).2.2.2.2 (ix2 (0 : Fin 1) q)) Cert.Spec.nB
        - Ideal.div ((outsAt1 V c t.val t.isLt).2.2.2.1 (ix2 (0 : Fin 1) q)) Cert.Spec.nB * Ideal.div ((outsAt1 V c t.val t.isLt).2.2.2.1 (ix2 (0 : Fin 1) q)) Cert.Spec.nB := by
  have h0 : ¬t.val = 0 := by omega
  have h1 : t.val = 63 := h63
  rw [outsAt1_C V c t h0 h1]
  show out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q) = Ideal.div (sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q)) Cert.Spec.nB
      - Ideal.div (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q)) Cert.Spec.nB * Ideal.div (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2 (ix2 (0 : Fin 1) q)) Cert.Spec.nB
  rw [piece1_C_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, piece1_C_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, piece1_C_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2]
  exact pay1_5_apply _ _ q

/-! ## The three output arrays after the run -/

/-- The raw second-layer output as one function of the entry arrays, -/
def G1_9 (c : Dev nD) : S32768x10.Idx → EReal := fun i => oK V c (i 0) (i 1)
/-- its column means, -/
def G1_10 (c : Dev nD) : S1x10.Idx → EReal := fun i => Ideal.div (∑ b : Fin 32768, oK V c b (i 1)) Cert.Spec.nB
/-- and its column variances in the one-pass form. -/
def G1_11 (c : Dev nD) : S1x10.Idx → EReal := fun i =>
  Ideal.div (∑ b : Fin 32768, oK V c b (i 1) * oK V c b (i 1)) Cert.Spec.nB
    - Ideal.div (∑ b : Fin 32768, oK V c b (i 1)) Cert.Spec.nB * Ideal.div (∑ b : Fin 32768, oK V c b (i 1)) Cert.Spec.nB

/-- What point `t` writes back into the raw output is block `t` of `G1_9`. -/
theorem flushed1_9_eq (c : Dev nD) (t : Fin cfg1.N) :
    (dat1 (F := Ideal) V c).flushed 9 t = ((cfg1.win 9).blk t).view.read (Elt Ideal) (G1_9 V c) := by
  show (cfg1.win 9).cut (grid1.coords t) ((dat1 (F := Ideal) V c).after 9 t) = _
  rw [after1_9]
  have ht : t.val < 64 := lt_of_lt_of_eq t.isLt N_1
  obtain ⟨e0, e1⟩ := idx1_9 t
  funext j
  obtain ⟨p, q, rfl⟩ : ∃ (p : Fin 512) (q : Fin 10), j = ix2 p q := ⟨j 0, j 1, eq_ix2 j⟩
  have hp : p.val < 512 := p.isLt
  have h : p.val + 512 * t.val < 32768 := by omega
  show (outsAt1 V c t.val t.isLt).1 (ix2 p q) = G1_9 V c (((cfg1.win 9).blk t).view.emb (ix2 p q))
  have h9 : ((cfg1.win 9).blk t).view.emb (ix2 p q) = ix2 (⟨p.val + 512 * t.val, h⟩ : Fin 32768) q := by
    funext a; apply Fin.ext
    match a with
    | ⟨0, _⟩ => show win1_9.index t (0 : Fin 2) * 512 + 1 * p.val = p.val + 512 * t.val; omega
    | ⟨1, _⟩ => show win1_9.index t (1 : Fin 2) * 10 + 1 * q.val = q.val; omega
  rw [h9]
  exact (o9_at V c t p q).trans (ob1_eq V c t p q h)

theorem mem_blk1_9 (t : Fin cfg1.N) (i : S32768x10.Idx) :
    i ∈ ((cfg1.win 9).blk t).view.set ↔ ∀ a : Fin 2, win1_9.index t a * S512x10.size a ≤ (i a).val ∧ (i a).val < win1_9.index t a * S512x10.size a + S512x10.size a := by
  show i ∈ ((View.whole main_v13_0).slice (win1_9.rect t)).set ↔ _
  rw [View.set_slice_whole, Rect.mem_set_unit]
  exact Iff.rfl

/-- The 64 blocks of 512 rows tile the raw output: row `r` is in the block of point `r / 512`. -/
theorem arr_cover1_9 (i : S32768x10.Idx) : ∃ t : Fin cfg1.N, (cfg1.win 9).flush t = true ∧ i ∈ ((cfg1.win 9).blk t).view.set := by
  have hi0 : (i 0).val < 32768 := (i 0).isLt
  have hi1 : (i 1).val < 10 := (i 1).isLt
  have hN : (i 0).val / 512 < cfg1.N := lt_of_lt_of_eq (show (i 0).val / 512 < 64 by omega) N_1.symm
  obtain ⟨e0, e1⟩ := idx1_9 ⟨(i 0).val / 512, hN⟩
  refine ⟨⟨(i 0).val / 512, hN⟩, flush1_9 _, ?_⟩
  rw [mem_blk1_9]
  intro a
  match a with
  | ⟨0, _⟩ =>
    show win1_9.index ⟨(i 0).val / 512, hN⟩ (0 : Fin 2) * 512 ≤ (i 0).val ∧ (i 0).val < win1_9.index ⟨(i 0).val / 512, hN⟩ (0 : Fin 2) * 512 + 512
    have e : win1_9.index ⟨(i 0).val / 512, hN⟩ (0 : Fin 2) = (i 0).val / 512 := e0
    omega
  | ⟨1, _⟩ =>
    show win1_9.index ⟨(i 0).val / 512, hN⟩ (1 : Fin 2) * 10 ≤ (i 1).val ∧ (i 1).val < win1_9.index ⟨(i 0).val / 512, hN⟩ (1 : Fin 2) * 10 + 10
    omega

theorem arr1_9_eq (c : Dev nD) : (dat1 (F := Ideal) V c).arrAt 9 cfg1.N = G1_9 V c :=
  (dat1 (F := Ideal) V c).arrAt_eq_of_cover 9 (G1_9 V c) (fun t _ => flushed1_9_eq V c t) arr_cover1_9

/-- The one point that writes output 10 back, the last, writes the whole row `G1_10`. -/
theorem flushed1_10_eq (c : Dev nD) (t : Fin cfg1.N) (hf : (cfg1.win 10).flush t = true) :
    (dat1 (F := Ideal) V c).flushed 10 t = ((cfg1.win 10).blk t).view.read (Elt Ideal) (G1_10 V c) := by
  have ht : t.val < 64 := lt_of_lt_of_eq t.isLt N_1
  have h63 : t.val = 63 := by have := (flush1_10 t).mp hf; omega
  show (cfg1.win 10).cut (grid1.coords t) ((dat1 (F := Ideal) V c).after 10 t) = _
  rw [after1_10]
  obtain ⟨e0, e1⟩ := idx1_10 t
  funext j
  obtain ⟨u, q, rfl⟩ : ∃ (u : Fin 1) (q : Fin 10), j = ix2 u q := ⟨j 0, j 1, eq_ix2 j⟩
  obtain rfl : u = 0 := Subsingleton.elim _ _
  show (outsAt1 V c t.val t.isLt).2.1 (ix2 (0 : Fin 1) q) = G1_10 V c (((cfg1.win 10).blk t).view.emb (ix2 (0 : Fin 1) q))
  have hb : ((cfg1.win 10).blk t).view.emb (ix2 (0 : Fin 1) q) = ix2 (0 : Fin 1) q := by
    funext a; apply Fin.ext
    match a with
    | ⟨0, _⟩ => show win1_10.index t (0 : Fin 2) * 1 + 1 * 0 = 0; omega
    | ⟨1, _⟩ => show win1_10.index t (1 : Fin 2) * 10 + 1 * q.val = q.val; omega
  rw [hb, o10_at V c t h63 q, s0_total V c q t h63]
  rfl

theorem mem_blk1_10 (t : Fin cfg1.N) (i : S1x10.Idx) :
    i ∈ ((cfg1.win 10).blk t).view.set ↔ ∀ a : Fin 2, win1_10.index t a * S1x10.size a ≤ (i a).val ∧ (i a).val < win1_10.index t a * S1x10.size a + S1x10.size a := by
  show i ∈ ((View.whole main_v13_1).slice (win1_10.rect t)).set ↔ _
  rw [View.set_slice_whole, Rect.mem_set_unit]
  exact Iff.rfl

/-- The last point's block is the whole row. -/
theorem arr_cover1_10 (i : S1x10.Idx) : ∃ t : Fin cfg1.N, (cfg1.win 10).flush t = true ∧ i ∈ ((cfg1.win 10).blk t).view.set := by
  have hi0 : (i 0).val < 1 := (i 0).isLt
  have hi1 : (i 1).val < 10 := (i 1).isLt
  have hN : 63 < cfg1.N := lt_of_lt_of_eq (show 63 < 64 by omega) N_1.symm
  obtain ⟨e0, e1⟩ := idx1_10 ⟨63, hN⟩
  refine ⟨⟨63, hN⟩, (flush1_10 _).mpr rfl, ?_⟩
  rw [mem_blk1_10]
  intro a
  match a with
  | ⟨0, _⟩ =>
    show win1_10.index ⟨63, hN⟩ (0 : Fin 2) * 1 ≤ (i 0).val ∧ (i 0).val < win1_10.index ⟨63, hN⟩ (0 : Fin 2) * 1 + 1
    omega
  | ⟨1, _⟩ =>
    show win1_10.index ⟨63, hN⟩ (1 : Fin 2) * 10 ≤ (i 1).val ∧ (i 1).val < win1_10.index ⟨63, hN⟩ (1 : Fin 2) * 10 + 10
    omega

theorem arr1_10_eq (c : Dev nD) : (dat1 (F := Ideal) V c).arrAt 10 cfg1.N = G1_10 V c :=
  (dat1 (F := Ideal) V c).arrAt_eq_of_cover 10 (G1_10 V c) (fun t hf => flushed1_10_eq V c t hf) arr_cover1_10

/-- The one point that writes output 11 back, the last, writes the whole row `G1_11`. -/
theorem flushed1_11_eq (c : Dev nD) (t : Fin cfg1.N) (hf : (cfg1.win 11).flush t = true) :
    (dat1 (F := Ideal) V c).flushed 11 t = ((cfg1.win 11).blk t).view.read (Elt Ideal) (G1_11 V c) := by
  have ht : t.val < 64 := lt_of_lt_of_eq t.isLt N_1
  have h63 : t.val = 63 := by have := (flush1_11 t).mp hf; omega
  show (cfg1.win 11).cut (grid1.coords t) ((dat1 (F := Ideal) V c).after 11 t) = _
  rw [after1_11]
  obtain ⟨e0, e1⟩ := idx1_11 t
  funext j
  obtain ⟨u, q, rfl⟩ : ∃ (u : Fin 1) (q : Fin 10), j = ix2 u q := ⟨j 0, j 1, eq_ix2 j⟩
  obtain rfl : u = 0 := Subsingleton.elim _ _
  show (outsAt1 V c t.val t.isLt).2.2.1 (ix2 (0 : Fin 1) q) = G1_11 V c (((cfg1.win 11).blk t).view.emb (ix2 (0 : Fin 1) q))
  have hb : ((cfg1.win 11).blk t).view.emb (ix2 (0 : Fin 1) q) = ix2 (0 : Fin 1) q := by
    funext a; apply Fin.ext
    match a with
    | ⟨0, _⟩ => show win1_11.index t (0 : Fin 2) * 1 + 1 * 0 = 0; omega
    | ⟨1, _⟩ => show win1_11.index t (1 : Fin 2) * 10 + 1 * q.val = q.val; omega
  rw [hb, o11_at V c t h63 q, s0_total V c q t h63, s1_total V c q t h63]
  rfl

theorem mem_blk1_11 (t : Fin cfg1.N) (i : S1x10.Idx) :
    i ∈ ((cfg1.win 11).blk t).view.set ↔ ∀ a : Fin 2, win1_11.index t a * S1x10.size a ≤ (i a).val ∧ (i a).val < win1_11.index t a * S1x10.size a + S1x10.size a := by
  show i ∈ ((View.whole main_v13_2).slice (win1_11.rect t)).set ↔ _
  rw [View.set_slice_whole, Rect.mem_set_unit]
  exact Iff.rfl

/-- The last point's block is the whole row. -/
theorem arr_cover1_11 (i : S1x10.Idx) : ∃ t : Fin cfg1.N, (cfg1.win 11).flush t = true ∧ i ∈ ((cfg1.win 11).blk t).view.set := by
  have hi0 : (i 0).val < 1 := (i 0).isLt
  have hi1 : (i 1).val < 10 := (i 1).isLt
  have hN : 63 < cfg1.N := lt_of_lt_of_eq (show 63 < 64 by omega) N_1.symm
  obtain ⟨e0, e1⟩ := idx1_11 ⟨63, hN⟩
  refine ⟨⟨63, hN⟩, (flush1_11 _).mpr rfl, ?_⟩
  rw [mem_blk1_11]
  intro a
  match a with
  | ⟨0, _⟩ =>
    show win1_11.index ⟨63, hN⟩ (0 : Fin 2) * 1 ≤ (i 0).val ∧ (i 0).val < win1_11.index ⟨63, hN⟩ (0 : Fin 2) * 1 + 1
    omega
  | ⟨1, _⟩ =>
    show win1_11.index ⟨63, hN⟩ (1 : Fin 2) * 10 ≤ (i 1).val ∧ (i 1).val < win1_11.index ⟨63, hN⟩ (1 : Fin 2) * 10 + 10
    omega

theorem arr1_11_eq (c : Dev nD) : (dat1 (F := Ideal) V c).arrAt 11 cfg1.N = G1_11 V c :=
  (dat1 (F := Ideal) V c).arrAt_eq_of_cover 11 (G1_11 V c) (fun t hf => flushed1_11_eq V c t hf) arr_cover1_11

/-! ## REGION 1's VALUE -/

/-- After the run the raw output at row `b`, column `q` holds the second layer's value there. -/
theorem value1_oraw (c : Dev nD) (b : Fin 32768) (q : Fin 10) :
    (dat1 (F := Ideal) V c).arrAt 9 cfg1.N (ix2 b q) = oK V c b q := by
  rw [arr1_9_eq V c]
  rfl

/-- The mean row holds the column sums over the batch divided by the batch size. -/
theorem value1_mean (c : Dev nD) (q : Fin 10) :
    (dat1 (F := Ideal) V c).arrAt 10 cfg1.N (ix2 (0 : Fin 1) q) = Ideal.div (∑ b : Fin 32768, oK V c b q) Cert.Spec.nB := by
  rw [arr1_10_eq V c]
  rfl

/-- The variance row holds the column sums of squares divided by the batch size, less the mean's square. -/
theorem value1_var (c : Dev nD) (q : Fin 10) :
    (dat1 (F := Ideal) V c).arrAt 11 cfg1.N (ix2 (0 : Fin 1) q)
      = Ideal.div (∑ b : Fin 32768, oK V c b q * oK V c b q) Cert.Spec.nB
        - Ideal.div (∑ b : Fin 32768, oK V c b q) Cert.Spec.nB * Ideal.div (∑ b : Fin 32768, oK V c b q) Cert.Spec.nB := by
  rw [arr1_11_eq V c]
  rfl

end Cert.KernelIdeal.H

end
-- ==== Proof.KI.Glue.lean ====
/-
  From the kernels' run to the specification in its streaming form.

  Each region is entered with the buffers at what the previous one left.  The first region finds the batch, the
  transposed sign matrix and the bias row as the host prefix made them, so its column statistics are those of the
  specification's first layer.  The second region finds the same three arrays untouched, the mean and variance rows
  the first region wrote, and the scale, shift, second sign matrix and second bias rows from the prefix; its
  activation is therefore the specification's clamped normalisation with the variance taken in one pass, and its raw
  output and that output's column statistics are the specification's second layer.  The third region finds those
  three arrays and the last scale and shift rows, and normalises.  Nothing here needs the data to be finite: it is
  reading buffers back and renaming.
-/
import proofs.«121665_j13159779795462_2_alg».proof.Proof.KI.Run
import proofs.«121665_j13159779795462_2_alg».proof.Proof.KI.ValueDefs
import proofs.«121665_j13159779795462_2_alg».proof.Proof.KI.Value2
import proofs.«121665_j13159779795462_2_alg».proof.Proof.KI.Value0
import proofs.«121665_j13159779795462_2_alg».proof.Proof.KI.Value1
import proofs.«121665_j13159779795462_2_alg».proof.Proof.SpecBridge

set_option maxRecDepth 16384

noncomputable section

namespace Cert.KernelIdeal.H

open Cert.KernelIdeal Cert.KernelIdeal.Gen Idealize.ShloMosaic Idealize.ShloMosaic.TcCoe Idealize.SL.Sem
  Idealize.ShloMosaic.ValueIdx
open scoped BigOperators

variable (m : (ℓ : Loc nD τ sig) → Buf (Elt Ideal) ℓ) (ρ : Dev nD → PrngReg) (c : Dev nD)

/-! ## The arguments' entries, named -/

abbrev aX : Fin 32768 → Fin 784 → EReal := fun b k => m ((c : Thread nD τ).loc main_arg0) (ix2 b k)
abbrev aW1 : Fin 3000 → Fin 784 → EReal := fun j k => m ((c : Thread nD τ).loc main_arg1) (ix2 j k)
abbrev aB1 : Fin 3000 → EReal := fun j => m ((c : Thread nD τ).loc main_arg2) (ix1 j)
abbrev aG1 : Fin 3000 → EReal := fun j => m ((c : Thread nD τ).loc main_arg3) (ix1 j)
abbrev aBE1 : Fin 3000 → EReal := fun j => m ((c : Thread nD τ).loc main_arg4) (ix1 j)
abbrev aW2 : Fin 10 → Fin 3000 → EReal := fun q j => m ((c : Thread nD τ).loc main_arg5) (ix2 q j)
abbrev aB2 : Fin 10 → EReal := fun q => m ((c : Thread nD τ).loc main_arg6) (ix1 q)
abbrev aG2 : Fin 10 → EReal := fun q => m ((c : Thread nD τ).loc main_arg7) (ix1 q)
abbrev aBE2 : Fin 10 → EReal := fun q => m ((c : Thread nD τ).loc main_arg8) (ix1 q)

/-! ## What the second region finds -/

/-- The first region's input arrays are as it found them. -/
theorem r2_arg0 : Vr2 m ρ c main_arg0 = Vr1 m ρ c main_arg0 :=
  (Wc2_arr m ρ c 0).trans (((dat0 (Vr1 m ρ) c).arrAt_in 0 rfl _).trans (A_eq0 (Vr1 m ρ) c 0))
theorem r2_v2 : Vr2 m ρ c main_v2 = Vr1 m ρ c main_v2 :=
  (Wc2_arr m ρ c 1).trans (((dat0 (Vr1 m ρ) c).arrAt_in 1 rfl _).trans (A_eq0 (Vr1 m ρ) c 1))
theorem r2_v6 : Vr2 m ρ c main_v6 = Vr1 m ρ c main_v6 :=
  (Wc2_arr m ρ c 2).trans (((dat0 (Vr1 m ρ) c).arrAt_in 2 rfl _).trans (A_eq0 (Vr1 m ρ) c 2))
/-- Its two output arrays are what its write-backs left. -/
theorem r2_v12_0 : Vr2 m ρ c main_v12_0 = (dat0 (Vr1 m ρ) c).arrAt 3 cfg0.N := Wc2_arr m ρ c 3
theorem r2_v12_1 : Vr2 m ρ c main_v12_1 = (dat0 (Vr1 m ρ) c).arrAt 4 cfg0.N := Wc2_arr m ρ c 4
/-- Every other buffer is as the prefix left it. -/
theorem r2_v7 : Vr2 m ρ c main_v7 = Vr1 m ρ c main_v7 := Wc2_of_ne m ρ c main_v7 (by decide)
theorem r2_v8 : Vr2 m ρ c main_v8 = Vr1 m ρ c main_v8 := Wc2_of_ne m ρ c main_v8 (by decide)
theorem r2_v5 : Vr2 m ρ c main_v5 = Vr1 m ρ c main_v5 := Wc2_of_ne m ρ c main_v5 (by decide)
theorem r2_v9 : Vr2 m ρ c main_v9 = Vr1 m ρ c main_v9 := Wc2_of_ne m ρ c main_v9 (by decide)
theorem r2_v10 : Vr2 m ρ c main_v10 = Vr1 m ρ c main_v10 := Wc2_of_ne m ρ c main_v10 (by decide)
theorem r2_v11 : Vr2 m ρ c main_v11 = Vr1 m ρ c main_v11 := Wc2_of_ne m ρ c main_v11 (by decide)

/-! ## What the third region finds -/

/-- The second region's three output arrays are what its write-backs left. -/
theorem r3_v13_0 : Vr3 m ρ c main_v13_0 = (dat1 (Vr2 m ρ) c).arrAt 9 cfg1.N := Wc3_arr m ρ c 9
theorem r3_v13_1 : Vr3 m ρ c main_v13_1 = (dat1 (Vr2 m ρ) c).arrAt 10 cfg1.N := Wc3_arr m ρ c 10
theorem r3_v13_2 : Vr3 m ρ c main_v13_2 = (dat1 (Vr2 m ρ) c).arrAt 11 cfg1.N := Wc3_arr m ρ c 11
/-- The last scale and shift rows are as the prefix left them. -/
theorem r3_v10 : Vr3 m ρ c main_v10 = Vr2 m ρ c main_v10 := Wc3_of_ne m ρ c main_v10 (by decide)
theorem r3_v11 : Vr3 m ρ c main_v11 = Vr2 m ρ c main_v11 := Wc3_of_ne m ρ c main_v11 (by decide)

/-! ## The first layer -/

/-- At the first region's entry the first layer is the specification's. -/
theorem hK_r1 (b : Fin 32768) (j : Fin 3000) :
    hK (Vr1 m ρ) c b j = Cert.Spec.h (aX m c) (aW1 m c) (aB1 m c) b j := by
  unfold hK Cert.Spec.h
  dsimp only [rd]
  rw [pre_arg0, pre_v6]
  refine congrArg (· + _) (Finset.sum_congr rfl fun k _ => ?_)
  rw [pre_v2] <;> rfl

/-- The second region computes the same first layer: it finds the same three arrays. -/
theorem hK_r2 : hK (Vr2 m ρ) c = hK (Vr1 m ρ) c := by
  funext b j
  unfold hK
  rw [r2_arg0, r2_v2, r2_v6]

/-! ## The activation and the second layer -/

/-- The clamped normalisation the second region computes is the specification's, the variance in one pass: the
    stored mean row is the first layer's column mean and the stored variance row its one-pass variance. -/
theorem zK_r2
    (b : Fin 32768) (j : Fin 3000) :
    zK (Vr2 m ρ) c b j = Cert.Spec.zOne (aX m c) (aW1 m c) (aB1 m c) (aG1 m c) (aBE1 m c) b j := by
  unfold zK Cert.Spec.zOne
  dsimp only [rd]
  rw [hK_r2, hK_r1, r2_v7, pre_v7, r2_v8, pre_v8, r2_v12_0, value0_mean, r2_v12_1, value0_var]
  simp only [hK_r1]
  rfl

/-- The second layer the second region computes is the specification's over that activation. -/
theorem oK_r2
    (b : Fin 32768) (q : Fin 10) :
    oK (Vr2 m ρ) c b q = Cert.Spec.oOne (aX m c) (aW1 m c) (aB1 m c) (aG1 m c) (aBE1 m c) (aW2 m c) (aB2 m c) b q := by
  unfold oK Cert.Spec.oOne
  dsimp only [rd]
  rw [r2_v9, pre_v9]
  refine congrArg (· + _) (Finset.sum_congr rfl fun j _ => ?_)
  rw [zK_r2 m ρ c b j, r2_v5, pre_v5] <;> rfl

/-! ## The result -/

theorem kernel_value_named
    (b : Fin 32768) (q : Fin 10) :
    (dat2 (F := Ideal) (Vr3 m ρ) c).arrAt 5 cfg2.N (ix2 b q)
      = Cert.Spec.outOne (aX m c) (aW1 m c) (aB1 m c) (aG1 m c) (aBE1 m c) (aW2 m c) (aB2 m c) (aG2 m c) (aBE2 m c) b q := by
  rw [value2 (Vr3 m ρ) c b q, r3_v10, r2_v10, pre_v10, r3_v11, r2_v11, pre_v11, r3_v13_0, value1_oraw, r3_v13_1, value1_mean,
    r3_v13_2, value1_var]
  simp only [oK_r2 m ρ c]
  rfl

/-- The kernels' result, entry by entry, is the streaming form of the specification of the arguments' entries. -/
theorem kernel_value
    (b : Fin 32768) (q : Fin 10) :
    (dat2 (F := Ideal) (Vr3 m ρ) c).arrAt 5 cfg2.N (ix2 b q)
      = Cert.Spec.outOne (fun b k => m ((c : Thread nD τ).loc main_arg0) (ix2 b k))
          (fun j k => m ((c : Thread nD τ).loc main_arg1) (ix2 j k)) (fun j => m ((c : Thread nD τ).loc main_arg2) (ix1 j))
          (fun j => m ((c : Thread nD τ).loc main_arg3) (ix1 j)) (fun j => m ((c : Thread nD τ).loc main_arg4) (ix1 j))
          (fun q j => m ((c : Thread nD τ).loc main_arg5) (ix2 q j)) (fun q => m ((c : Thread nD τ).loc main_arg6) (ix1 q))
          (fun q => m ((c : Thread nD τ).loc main_arg7) (ix1 q)) (fun q => m ((c : Thread nD τ).loc main_arg8) (ix1 q)) b q :=
  kernel_value_named m ρ c b q

end Cert.KernelIdeal.H

end
-- ==== Proof.lean ====
/-
  The certificate for a two-layer perceptron with sign-binarised weights and training-mode batch normalisation,
  computed by three streaming kernels against a plain array program.

  The mathematics.  Write s(w) for the sign of w.  For a batch x of 32768 rows,
    h  = x · s(w1)ᵀ + b1                       (32768 × 3000),
    μ1 = (Σ_rows h)/n,  v1 = variance of the columns of h,  n = 32768,
    z  = clamp( g1 · (h − μ1) · rsqrt(v1 + ε) + be1, −1, 1 ),
    o  = s(z) · s(w2)ᵀ + b2                     (32768 × 10),
    result = g2 · (o − μ2) · rsqrt(v2 + ε) + be2, with μ2, v2 the column mean and variance of o.
  The kernels walk the batch in 64 blocks of 512 rows.  The first accumulates Σh and Σh² in two carried rows and, at
  the last block, writes μ1 = Σh/n and v1 = Σh²/n − μ1²; the second recomputes h block by block, normalises, clamps,
  takes the sign (by two selections: ±1 where |z| > 0, z itself at 0), multiplies, stores o and accumulates Σo, Σo²
  the same way; the third normalises o block by block.  The array program takes the two-pass variance
  Σ(h − μ)²/n and writes every sign straight-through, y + (s(y) − y).

  What joins the two sides, for finite inputs: every entry of h and o is a real number (finite sums of products of
  reals), so the one-pass and the two-pass variance agree (Proof/LibBatchMoments.lean, `ereal_var`), a sum over the
  32768 rows is the sum over the blocks of the sums within a block, the straight-through spelling of a sign of a
  real is the sign (`straight_through_sign`) — the clamp makes z real whatever it was — and the two-selection sign
  is the sign (`sign_by_selects`).  Division by n = 32768 is the same operation on both sides.

  Proved below: the one entry of the idealisation's ledger (the sign-bit idiom); that the array program runs to the
  end leaving its arguments unchanged (Proof/RefRun.lean: the program as one list of operations); that each kernel
  program runs to the end leaving its arguments unchanged (Proof/K/*, Proof/KI/*: every launch's body, block by block,
  with its carried rows named, then the three launches glued through the contents of the buffers between them); and
  that the results agree: the kernels' result array read back through the three launches is the streaming form of the
  specification (Proof/KI/Value0.lean … Glue.lean), the array program's result is the specification
  (Proof/RefValue.lean), and on finite inputs the two forms are one (Proof/SpecBridge.lean).
-/
import proofs.«121665_j13159779795462_2_alg».proof.Defs
import proofs.«121665_j13159779795462_2_alg».proof.Proof.Gen.Kernel
import proofs.«121665_j13159779795462_2_alg».proof.Proof.Gen.Kernel.Skeleton
import proofs.«121665_j13159779795462_2_alg».proof.Proof.Gen.Kernel.Launch
import proofs.«121665_j13159779795462_2_alg».proof.Proof.Gen.Kernel.Points
import proofs.«121665_j13159779795462_2_alg».proof.Proof.Gen.KernelIdeal
import proofs.«121665_j13159779795462_2_alg».proof.Proof.Gen.KernelIdeal.Skeleton
import proofs.«121665_j13159779795462_2_alg».proof.Proof.Gen.KernelIdeal.Launch
import proofs.«121665_j13159779795462_2_alg».proof.Proof.Gen.KernelIdeal.Points
import proofs.«121665_j13159779795462_2_alg».proof.Proof.Gen.ReferenceIdeal
import proofs.«121665_j13159779795462_2_alg».proof.Proof.Gen.Pre_finite_inputs
import proofs.«121665_j13159779795462_2_alg».proof.Proof.RefRun
import proofs.«121665_j13159779795462_2_alg».proof.Proof.KI.Run
import proofs.«121665_j13159779795462_2_alg».proof.Proof.K.Run
import proofs.«121665_j13159779795462_2_alg».proof.Proof.LibBatchMoments
import proofs.«121665_j13159779795462_2_alg».proof.Proof.RefValue
import proofs.«121665_j13159779795462_2_alg».proof.Proof.Finite
import proofs.«121665_j13159779795462_2_alg».proof.Proof.SpecBridge
import proofs.«121665_j13159779795462_2_alg».proof.Proof.KI.Glue
import Idealize.ShloMosaic.Adequacy
import Idealize.ShloMosaic.Init

noncomputable section

namespace Cert.Proof

open Idealize.ShloMosaic Idealize.SL.Sem Idealize.ShloMosaic.ValueIdx Idealize.ShloMosaic.TcCoe

/-- The ledger's one entry: 1.0 carrying a number's sign bit is −1 below zero and 1 elsewhere. -/
theorem preserves : Cert.preserves_Kernel_KernelIdeal :=
  IdealRules.sign_bit.statement _ _

/-- The array program runs to the end and no operation of it writes an argument. -/
theorem frame_ri : Cert.frame_ReferenceIdeal := fun m ρ _ =>
  (θ_run Cert.ReferenceIdeal.defs _ _).mono
    (fun _ h c => ⟨(h c _).trans (Cert.ReferenceIdeal.RefRun.arg0_kept _), (h c _).trans (Cert.ReferenceIdeal.RefRun.arg1_kept _),
      (h c _).trans (Cert.ReferenceIdeal.RefRun.arg2_kept _), (h c _).trans (Cert.ReferenceIdeal.RefRun.arg3_kept _),
      (h c _).trans (Cert.ReferenceIdeal.RefRun.arg4_kept _), (h c _).trans (Cert.ReferenceIdeal.RefRun.arg5_kept _),
      (h c _).trans (Cert.ReferenceIdeal.RefRun.arg6_kept _), (h c _).trans (Cert.ReferenceIdeal.RefRun.arg7_kept _),
      (h c _).trans (Cert.ReferenceIdeal.RefRun.arg8_kept _)⟩)
    (Cert.ReferenceIdeal.RefRun.run_main (F := Ideal) m ρ)

/-- The three launches of the word-level program run to the end and leave the arguments unchanged. -/
theorem frame_p : Cert.frame_Kernel := fun m ρ _ => Cert.Kernel.H.frameH (F := Bits) m ρ

/-- The same for the idealised program: the host prefix, then the three launches, each region's run glued to the
    next through the contents of the buffers at the boundary. -/
theorem frame_pi : Cert.frame_KernelIdeal := fun m ρ _ => Cert.KernelIdeal.H.frameH (F := Ideal) m ρ

/-- The idealised kernels and the array program end with equal results. -/
theorem algebraic : Cert.algebraic_KernelIdeal_ReferenceIdeal := by
  intro m g m' g' hpre hagree
  refine ⟨fun c => (Cert.KernelIdeal.H.dat2 (F := Ideal) (Cert.KernelIdeal.H.Vr3 m g) c).arrAt 5 Cert.KernelIdeal.cfg2.N,
    Cert.KernelIdeal.H.run_value (F := Ideal) m g, ?_⟩
  refine (θ_run Cert.ReferenceIdeal.defs _ _).mono (fun r h c => ⟨?_, (h c _).trans (Cert.ReferenceIdeal.RefRun.arg0_kept _),
      (h c _).trans (Cert.ReferenceIdeal.RefRun.arg1_kept _), (h c _).trans (Cert.ReferenceIdeal.RefRun.arg2_kept _),
      (h c _).trans (Cert.ReferenceIdeal.RefRun.arg3_kept _), (h c _).trans (Cert.ReferenceIdeal.RefRun.arg4_kept _),
      (h c _).trans (Cert.ReferenceIdeal.RefRun.arg5_kept _), (h c _).trans (Cert.ReferenceIdeal.RefRun.arg6_kept _),
      (h c _).trans (Cert.ReferenceIdeal.RefRun.arg7_kept _), (h c _).trans (Cert.ReferenceIdeal.RefRun.arg8_kept _)⟩)
    (Cert.ReferenceIdeal.RefRun.run_main (F := Ideal) m' g')
  refine (h c _).trans ?_
  obtain ⟨h0, h1, h2, h3, h4, h5, h6, h7, h8⟩ := Cert.Finite.reals_of_pre m hpre c
  obtain ⟨a0, a1, a2, a3, a4, a5, a6, a7, a8⟩ := hagree c
  funext i
  obtain ⟨b, q, rfl⟩ : ∃ (b : Fin 32768) (q : Fin 10), i = ix2 b q := ⟨i 0, i 1, eq_ix2 i⟩
  refine (Cert.ReferenceIdeal.RefValue.ref_value _ (fun j k => ?_) (fun q j => ?_) b q).trans ?_
  · exact by obtain ⟨r, hr⟩ := h1 (ix2 j k); exact ⟨r, (congrFun a1 _).trans hr⟩
  · exact by obtain ⟨r, hr⟩ := h5 (ix2 q j); exact ⟨r, (congrFun a5 _).trans hr⟩
  show Cert.Spec.out (fun b k => m' ((c.tc : Thread Cert.ReferenceIdeal.nD Cert.ReferenceIdeal.τ).loc Cert.ReferenceIdeal.main_arg0) (ix2 b k)) (fun j k => m' ((c.tc : Thread Cert.ReferenceIdeal.nD Cert.ReferenceIdeal.τ).loc Cert.ReferenceIdeal.main_arg1) (ix2 j k)) (fun j => m' ((c.tc : Thread Cert.ReferenceIdeal.nD Cert.ReferenceIdeal.τ).loc Cert.ReferenceIdeal.main_arg2) (ix1 j)) (fun j => m' ((c.tc : Thread Cert.ReferenceIdeal.nD Cert.ReferenceIdeal.τ).loc Cert.ReferenceIdeal.main_arg3) (ix1 j)) (fun j => m' ((c.tc : Thread Cert.ReferenceIdeal.nD Cert.ReferenceIdeal.τ).loc Cert.ReferenceIdeal.main_arg4) (ix1 j)) (fun q j => m' ((c.tc : Thread Cert.ReferenceIdeal.nD Cert.ReferenceIdeal.τ).loc Cert.ReferenceIdeal.main_arg5) (ix2 q j)) (fun q => m' ((c.tc : Thread Cert.ReferenceIdeal.nD Cert.ReferenceIdeal.τ).loc Cert.ReferenceIdeal.main_arg6) (ix1 q)) (fun q => m' ((c.tc : Thread Cert.ReferenceIdeal.nD Cert.ReferenceIdeal.τ).loc Cert.ReferenceIdeal.main_arg7) (ix1 q)) (fun q => m' ((c.tc : Thread Cert.ReferenceIdeal.nD Cert.ReferenceIdeal.τ).loc Cert.ReferenceIdeal.main_arg8) (ix1 q)) b q = _
  rw [a0, a1, a2, a3, a4, a5, a6, a7, a8]
  exact ((Cert.KernelIdeal.H.kernel_value m g c b q).trans (Cert.Spec.outOne_eq _ _ _ _ _ _ _ _ _ (fun b k => h0 (ix2 b k)) (fun j => h2 (ix1 j)) (fun q => h6 (ix1 q)) b q)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
